-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S257x16384 : Shape := ⟨2, ![257, 16384]⟩
abbrev S400x16384 : Shape := ⟨2, ![400, 16384]⟩
abbrev S400x257 : Shape := ⟨2, ![400, 257]⟩
abbrev S400 : Shape := ⟨1, ![400]⟩
abbrev S400x400 : Shape := ⟨2, ![400, 400]⟩
abbrev S600x400 : Shape := ⟨2, ![600, 400]⟩
abbrev S600 : Shape := ⟨1, ![600]⟩
abbrev S600x600 : Shape := ⟨2, ![600, 600]⟩
abbrev S257x600 : Shape := ⟨2, ![257, 600]⟩
abbrev S257 : Shape := ⟨1, ![257]⟩
abbrev S_ : Shape := ⟨0, ![]⟩

class Facts : Prop where
  bcast_S_S257x16384 : S_.BroadcastsInDim S257x16384 (![] : Fin 0 → Fin S257x16384.rank)
  reducesTo_S257x16384_S_d0_1 : S257x16384.ReducesTo [0, 1] S_
  h_S_ : 0 < S_.numel
  bcast_S_S400x16384 : S_.BroadcastsInDim S400x16384 (![] : Fin 0 → Fin S400x16384.rank)
  reducesTo_S400x16384_S_d0_1 : S400x16384.ReducesTo [0, 1] S_
  bcast_S_S400x257 : S_.BroadcastsInDim S400x257 (![] : Fin 0 → Fin S400x257.rank)
  reducesTo_S400x257_S_d0_1 : S400x257.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S600x400 : S_.BroadcastsInDim S600x400 (![] : Fin 0 → Fin S600x400.rank)
  reducesTo_S600x400_S_d0_1 : S600x400.ReducesTo [0, 1] S_
  bcast_S_S600 : S_.BroadcastsInDim S600 (![] : Fin 0 → Fin S600.rank)
  reducesTo_S600_S_d0 : S600.ReducesTo [0] S_
  bcast_S_S600x600 : S_.BroadcastsInDim S600x600 (![] : Fin 0 → Fin S600x600.rank)
  reducesTo_S600x600_S_d0_1 : S600x600.ReducesTo [0, 1] S_
  bcast_S_S257x600 : S_.BroadcastsInDim S257x600 (![] : Fin 0 → Fin S257x600.rank)
  reducesTo_S257x600_S_d0_1 : S257x600.ReducesTo [0, 1] S_
  bcast_S_S257 : S_.BroadcastsInDim S257 (![] : Fin 0 → Fin S257.rank)
  reducesTo_S257_S_d0 : S257.ReducesTo [0] S_

variable [Facts]

def fn_part10 {F : FTy → Type} [FloatOps F] (main_v168 : IVec S_ 1) (main_v169 : FVec F S257 .f32) (main_v170 : FVec F S257 .f32) : IVec S_ 1 :=
  let main_v171 : IVec S257 1 := cmpf .olt main_v169 main_v170
  let main_c_67 : IVec S_ 1 := constantI S_ 1 1#1
  let main_v172 : IVec S_ 1 := (fun x v => Host.reduce IntOp.andi x v reducesTo_S257_S_d0 h_S_) main_v171 main_c_67
  let main_v173 : IVec S_ 1 := andi main_v168 main_v172
  main_v173

def fn_part9 {F : FTy → Type} [FloatOps F] (main_arg31 : FVec F S600x600 .f32) (main_arg32 : FVec F S600 .f32) (main_arg33 : FVec F S257x600 .f32) (main_arg34 : FVec F S257 .f32) (main_v153 : IVec S_ 1) : IVec S_ 1 :=
  let main_v154 : FVec F S600x600 .f32 := Host.absf main_arg31
  let main_cst_60 : FVec F S_ .f32 := constant S_ .f32 0x7F800000#32
  let main_v155 : FVec F S600x600 .f32 := broadcastInDim S600x600 ![] bcast_S_S600x600 main_cst_60
  let main_v156 : IVec S600x600 1 := cmpf .olt main_v154 main_v155
  let main_c_61 : IVec S_ 1 := constantI S_ 1 1#1
  let main_v157 : IVec S_ 1 := (fun x v => Host.reduce IntOp.andi x v reducesTo_S600x600_S_d0_1 h_S_) main_v156 main_c_61
  let main_v158 : IVec S_ 1 := andi main_v153 main_v157
  let main_v159 : FVec F S600 .f32 := Host.absf main_arg32
  let main_cst_62 : FVec F S_ .f32 := constant S_ .f32 0x7F800000#32
  let main_v160 : FVec F S600 .f32 := broadcastInDim S600 ![] bcast_S_S600 main_cst_62
  let main_v161 : IVec S600 1 := cmpf .olt main_v159 main_v160
  let main_c_63 : IVec S_ 1 := constantI S_ 1 1#1
  let main_v162 : IVec S_ 1 := (fun x v => Host.reduce IntOp.andi x v reducesTo_S600_S_d0 h_S_) main_v161 main_c_63
  let main_v163 : IVec S_ 1 := andi main_v158 main_v162
  let main_v164 : FVec F S257x600 .f32 := Host.absf main_arg33
  let main_cst_64 : FVec F S_ .f32 := constant S_ .f32 0x7F800000#32
  let main_v165 : FVec F S257x600 .f32 := broadcastInDim S257x600 ![] bcast_S_S257x600 main_cst_64
  let main_v166 : IVec S257x600 1 := cmpf .olt main_v164 main_v165
  let main_c_65 : IVec S_ 1 := constantI S_ 1 1#1
  let main_v167 : IVec S_ 1 := (fun x v => Host.reduce IntOp.andi x v reducesTo_S257x600_S_d0_1 h_S_) main_v166 main_c_65
  let main_v168 : IVec S_ 1 := andi main_v163 main_v167
  let main_v169 : FVec F S257 .f32 := Host.absf main_arg34
  let main_cst_66 : FVec F S_ .f32 := constant S_ .f32 0x7F800000#32
  let main_v170 : FVec F S257 .f32 := broadcastInDim S257 ![] bcast_S_S257 main_cst_66
  fn_part10 (F := F) main_v168 main_v169 main_v170

def fn_part8 {F : FTy → Type} [FloatOps F] (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v133 : IVec S_ 1) (main_v136 : IVec S400 1) : IVec S_ 1 :=
  let main_c_53 : IVec S_ 1 := constantI S_ 1 1#1
  let main_v137 : IVec S_ 1 := (fun x v => Host.reduce IntOp.andi x v reducesTo_S400_S_d0 h_S_) main_v136 main_c_53
  let main_v138 : IVec S_ 1 := andi main_v133 main_v137
  let main_v139 : FVec F S400 .f32 := Host.absf main_arg28
  let main_cst_54 : FVec F S_ .f32 := constant S_ .f32 0x7F800000#32
  let main_v140 : FVec F S400 .f32 := broadcastInDim S400 ![] bcast_S_S400 main_cst_54
  let main_v141 : IVec S400 1 := cmpf .olt main_v139 main_v140
  let main_c_55 : IVec S_ 1 := constantI S_ 1 1#1
  let main_v142 : IVec S_ 1 := (fun x v => Host.reduce IntOp.andi x v reducesTo_S400_S_d0 h_S_) main_v141 main_c_55
  let main_v143 : IVec S_ 1 := andi main_v138 main_v142
  let main_v144 : FVec F S600x400 .f32 := Host.absf main_arg29
  let main_cst_56 : FVec F S_ .f32 := constant S_ .f32 0x7F800000#32
  let main_v145 : FVec F S600x400 .f32 := broadcastInDim S600x400 ![] bcast_S_S600x400 main_cst_56
  let main_v146 : IVec S600x400 1 := cmpf .olt main_v144 main_v145
  let main_c_57 : IVec S_ 1 := constantI S_ 1 1#1
  let main_v147 : IVec S_ 1 := (fun x v => Host.reduce IntOp.andi x v reducesTo_S600x400_S_d0_1 h_S_) main_v146 main_c_57
  let main_v148 : IVec S_ 1 := andi main_v143 main_v147
  let main_v149 : FVec F S600 .f32 := Host.absf main_arg30
  let main_cst_58 : FVec F S_ .f32 := constant S_ .f32 0x7F800000#32
  let main_v150 : FVec F S600 .f32 := broadcastInDim S600 ![] bcast_S_S600 main_cst_58
  let main_v151 : IVec S600 1 := cmpf .olt main_v149 main_v150
  let main_c_59 : IVec S_ 1 := constantI S_ 1 1#1
  let main_v152 : IVec S_ 1 := (fun x v => Host.reduce IntOp.andi x v reducesTo_S600_S_d0 h_S_) main_v151 main_c_59
  let main_v153 : IVec S_ 1 := andi main_v148 main_v152
  fn_part9 (F := F) main_arg31 main_arg32 main_arg33 main_arg34 main_v153

def fn_part7 {F : FTy → Type} [FloatOps F] (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v118 : IVec S_ 1) (main_v119 : FVec F S400 .f32) : IVec S_ 1 :=
  let main_cst_46 : FVec F S_ .f32 := constant S_ .f32 0x7F800000#32
  let main_v120 : FVec F S400 .f32 := broadcastInDim S400 ![] bcast_S_S400 main_cst_46
  let main_v121 : IVec S400 1 := cmpf .olt main_v119 main_v120
  let main_c_47 : IVec S_ 1 := constantI S_ 1 1#1
  let main_v122 : IVec S_ 1 := (fun x v => Host.reduce IntOp.andi x v reducesTo_S400_S_d0 h_S_) main_v121 main_c_47
  let main_v123 : IVec S_ 1 := andi main_v118 main_v122
  let main_v124 : FVec F S400 .f32 := Host.absf main_arg25
  let main_cst_48 : FVec F S_ .f32 := constant S_ .f32 0x7F800000#32
  let main_v125 : FVec F S400 .f32 := broadcastInDim S400 ![] bcast_S_S400 main_cst_48
  let main_v126 : IVec S400 1 := cmpf .olt main_v124 main_v125
  let main_c_49 : IVec S_ 1 := constantI S_ 1 1#1
  let main_v127 : IVec S_ 1 := (fun x v => Host.reduce IntOp.andi x v reducesTo_S400_S_d0 h_S_) main_v126 main_c_49
  let main_v128 : IVec S_ 1 := andi main_v123 main_v127
  let main_v129 : FVec F S400 .f32 := Host.absf main_arg26
  let main_cst_50 : FVec F S_ .f32 := constant S_ .f32 0x7F800000#32
  let main_v130 : FVec F S400 .f32 := broadcastInDim S400 ![] bcast_S_S400 main_cst_50
  let main_v131 : IVec S400 1 := cmpf .olt main_v129 main_v130
  let main_c_51 : IVec S_ 1 := constantI S_ 1 1#1
  let main_v132 : IVec S_ 1 := (fun x v => Host.reduce IntOp.andi x v reducesTo_S400_S_d0 h_S_) main_v131 main_c_51
  let main_v133 : IVec S_ 1 := andi main_v128 main_v132
  let main_v134 : FVec F S400 .f32 := Host.absf main_arg27
  let main_cst_52 : FVec F S_ .f32 := constant S_ .f32 0x7F800000#32
  let main_v135 : FVec F S400 .f32 := broadcastInDim S400 ![] bcast_S_S400 main_cst_52
  let main_v136 : IVec S400 1 := cmpf .olt main_v134 main_v135
  fn_part8 (F := F) main_arg28 main_arg29 main_arg30 main_arg31 main_arg32 main_arg33 main_arg34 main_v133 main_v136

def fn_part6 {F : FTy → Type} [FloatOps F] (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v98 : IVec S_ 1) (main_v101 : IVec S400x400 1) (main_c_39 : IVec S_ 1) : IVec S_ 1 :=
  let main_v102 : IVec S_ 1 := (fun x v => Host.reduce IntOp.andi x v reducesTo_S400x400_S_d0_1 h_S_) main_v101 main_c_39
  let main_v103 : IVec S_ 1 := andi main_v98 main_v102
  let main_v104 : FVec F S400x400 .f32 := Host.absf main_arg21
  let main_cst_40 : FVec F S_ .f32 := constant S_ .f32 0x7F800000#32
  let main_v105 : FVec F S400x400 .f32 := broadcastInDim S400x400 ![] bcast_S_S400x400 main_cst_40
  let main_v106 : IVec S400x400 1 := cmpf .olt main_v104 main_v105
  let main_c_41 : IVec S_ 1 := constantI S_ 1 1#1
  let main_v107 : IVec S_ 1 := (fun x v => Host.reduce IntOp.andi x v reducesTo_S400x400_S_d0_1 h_S_) main_v106 main_c_41
  let main_v108 : IVec S_ 1 := andi main_v103 main_v107
  let main_v109 : FVec F S400x400 .f32 := Host.absf main_arg22
  let main_cst_42 : FVec F S_ .f32 := constant S_ .f32 0x7F800000#32
  let main_v110 : FVec F S400x400 .f32 := broadcastInDim S400x400 ![] bcast_S_S400x400 main_cst_42
  let main_v111 : IVec S400x400 1 := cmpf .olt main_v109 main_v110
  let main_c_43 : IVec S_ 1 := constantI S_ 1 1#1
  let main_v112 : IVec S_ 1 := (fun x v => Host.reduce IntOp.andi x v reducesTo_S400x400_S_d0_1 h_S_) main_v111 main_c_43
  let main_v113 : IVec S_ 1 := andi main_v108 main_v112
  let main_v114 : FVec F S400 .f32 := Host.absf main_arg23
  let main_cst_44 : FVec F S_ .f32 := constant S_ .f32 0x7F800000#32
  let main_v115 : FVec F S400 .f32 := broadcastInDim S400 ![] bcast_S_S400 main_cst_44
  let main_v116 : IVec S400 1 := cmpf .olt main_v114 main_v115
  let main_c_45 : IVec S_ 1 := constantI S_ 1 1#1
  let main_v117 : IVec S_ 1 := (fun x v => Host.reduce IntOp.andi x v reducesTo_S400_S_d0 h_S_) main_v116 main_c_45
  let main_v118 : IVec S_ 1 := andi main_v113 main_v117
  let main_v119 : FVec F S400 .f32 := Host.absf main_arg24
  fn_part7 (F := F) main_arg25 main_arg26 main_arg27 main_arg28 main_arg29 main_arg30 main_arg31 main_arg32 main_arg33 main_arg34 main_v118 main_v119

def fn_part5 {F : FTy → Type} [FloatOps F] (main_arg18 : FVec F S400x400 .f32) (main_arg19 : FVec F S400x400 .f32) (main_arg20 : FVec F S400x400 .f32) (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v83 : IVec S_ 1) (main_v84 : FVec F S400x400 .f32) (main_cst_32 : FVec F S_ .f32) : IVec S_ 1 :=
  let main_v85 : FVec F S400x400 .f32 := broadcastInDim S400x400 ![] bcast_S_S400x400 main_cst_32
  let main_v86 : IVec S400x400 1 := cmpf .olt main_v84 main_v85
  let main_c_33 : IVec S_ 1 := constantI S_ 1 1#1
  let main_v87 : IVec S_ 1 := (fun x v => Host.reduce IntOp.andi x v reducesTo_S400x400_S_d0_1 h_S_) main_v86 main_c_33
  let main_v88 : IVec S_ 1 := andi main_v83 main_v87
  let main_v89 : FVec F S400x400 .f32 := Host.absf main_arg18
  let main_cst_34 : FVec F S_ .f32 := constant S_ .f32 0x7F800000#32
  let main_v90 : FVec F S400x400 .f32 := broadcastInDim S400x400 ![] bcast_S_S400x400 main_cst_34
  let main_v91 : IVec S400x400 1 := cmpf .olt main_v89 main_v90
  let main_c_35 : IVec S_ 1 := constantI S_ 1 1#1
  let main_v92 : IVec S_ 1 := (fun x v => Host.reduce IntOp.andi x v reducesTo_S400x400_S_d0_1 h_S_) main_v91 main_c_35
  let main_v93 : IVec S_ 1 := andi main_v88 main_v92
  let main_v94 : FVec F S400x400 .f32 := Host.absf main_arg19
  let main_cst_36 : FVec F S_ .f32 := constant S_ .f32 0x7F800000#32
  let main_v95 : FVec F S400x400 .f32 := broadcastInDim S400x400 ![] bcast_S_S400x400 main_cst_36
  let main_v96 : IVec S400x400 1 := cmpf .olt main_v94 main_v95
  let main_c_37 : IVec S_ 1 := constantI S_ 1 1#1
  let main_v97 : IVec S_ 1 := (fun x v => Host.reduce IntOp.andi x v reducesTo_S400x400_S_d0_1 h_S_) main_v96 main_c_37
  let main_v98 : IVec S_ 1 := andi main_v93 main_v97
  let main_v99 : FVec F S400x400 .f32 := Host.absf main_arg20
  let main_cst_38 : FVec F S_ .f32 := constant S_ .f32 0x7F800000#32
  let main_v100 : FVec F S400x400 .f32 := broadcastInDim S400x400 ![] bcast_S_S400x400 main_cst_38
  let main_v101 : IVec S400x400 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_v98 main_v101 main_c_39

def fn_part4 {F : FTy → Type} [FloatOps F] (main_arg14 : FVec F S400 .f32) (main_arg15 : FVec F S400 .f32) (main_arg16 : FVec F S400 .f32) (main_arg17 : FVec F S400x400 .f32) (main_arg18 : FVec F S400x400 .f32) (main_arg19 : FVec F S400x400 .f32) (main_arg20 : FVec F S400x400 .f32) (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v63 : IVec S_ 1) (main_v67 : IVec S_ 1) : IVec S_ 1 :=
  let main_v68 : IVec S_ 1 := andi main_v63 main_v67
  let main_v69 : FVec F S400 .f32 := Host.absf main_arg14
  let main_cst_26 : FVec F S_ .f32 := constant S_ .f32 0x7F800000#32
  let main_v70 : FVec F S400 .f32 := broadcastInDim S400 ![] bcast_S_S400 main_cst_26
  let main_v71 : IVec S400 1 := cmpf .olt main_v69 main_v70
  let main_c_27 : IVec S_ 1 := constantI S_ 1 1#1
  let main_v72 : IVec S_ 1 := (fun x v => Host.reduce IntOp.andi x v reducesTo_S400_S_d0 h_S_) main_v71 main_c_27
  let main_v73 : IVec S_ 1 := andi main_v68 main_v72
  let main_v74 : FVec F S400 .f32 := Host.absf main_arg15
  let main_cst_28 : FVec F S_ .f32 := constant S_ .f32 0x7F800000#32
  let main_v75 : FVec F S400 .f32 := broadcastInDim S400 ![] bcast_S_S400 main_cst_28
  let main_v76 : IVec S400 1 := cmpf .olt main_v74 main_v75
  let main_c_29 : IVec S_ 1 := constantI S_ 1 1#1
  let main_v77 : IVec S_ 1 := (fun x v => Host.reduce IntOp.andi x v reducesTo_S400_S_d0 h_S_) main_v76 main_c_29
  let main_v78 : IVec S_ 1 := andi main_v73 main_v77
  let main_v79 : FVec F S400 .f32 := Host.absf main_arg16
  let main_cst_30 : FVec F S_ .f32 := constant S_ .f32 0x7F800000#32
  let main_v80 : FVec F S400 .f32 := broadcastInDim S400 ![] bcast_S_S400 main_cst_30
  let main_v81 : IVec S400 1 := cmpf .olt main_v79 main_v80
  let main_c_31 : IVec S_ 1 := constantI S_ 1 1#1
  let main_v82 : IVec S_ 1 := (fun x v => Host.reduce IntOp.andi x v reducesTo_S400_S_d0 h_S_) main_v81 main_c_31
  let main_v83 : IVec S_ 1 := andi main_v78 main_v82
  let main_v84 : FVec F S400x400 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_v83 main_v84 main_cst_32

def fn_part3 {F : FTy → Type} [FloatOps F] (main_arg11 : FVec F S400 .f32) (main_arg12 : FVec F S400 .f32) (main_arg13 : FVec F S400 .f32) (main_arg14 : FVec F S400 .f32) (main_arg15 : FVec F S400 .f32) (main_arg16 : FVec F S400 .f32) (main_arg17 : FVec F S400x400 .f32) (main_arg18 : FVec F S400x400 .f32) (main_arg19 : FVec F S400x400 .f32) (main_arg20 : FVec F S400x400 .f32) (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v48 : IVec S_ 1) (main_v49 : FVec F S400x400 .f32) (main_v50 : FVec F S400x400 .f32) : IVec S_ 1 :=
  let main_v51 : IVec S400x400 1 := cmpf .olt main_v49 main_v50
  let main_c_19 : IVec S_ 1 := constantI S_ 1 1#1
  let main_v52 : IVec S_ 1 := (fun x v => Host.reduce IntOp.andi x v reducesTo_S400x400_S_d0_1 h_S_) main_v51 main_c_19
  let main_v53 : IVec S_ 1 := andi main_v48 main_v52
  let main_v54 : FVec F S400 .f32 := Host.absf main_arg11
  let main_cst_20 : FVec F S_ .f32 := constant S_ .f32 0x7F800000#32
  let main_v55 : FVec F S400 .f32 := broadcastInDim S400 ![] bcast_S_S400 main_cst_20
  let main_v56 : IVec S400 1 := cmpf .olt main_v54 main_v55
  let main_c_21 : IVec S_ 1 := constantI S_ 1 1#1
  let main_v57 : IVec S_ 1 := (fun x v => Host.reduce IntOp.andi x v reducesTo_S400_S_d0 h_S_) main_v56 main_c_21
  let main_v58 : IVec S_ 1 := andi main_v53 main_v57
  let main_v59 : FVec F S400 .f32 := Host.absf main_arg12
  let main_cst_22 : FVec F S_ .f32 := constant S_ .f32 0x7F800000#32
  let main_v60 : FVec F S400 .f32 := broadcastInDim S400 ![] bcast_S_S400 main_cst_22
  let main_v61 : IVec S400 1 := cmpf .olt main_v59 main_v60
  let main_c_23 : IVec S_ 1 := constantI S_ 1 1#1
  let main_v62 : IVec S_ 1 := (fun x v => Host.reduce IntOp.andi x v reducesTo_S400_S_d0 h_S_) main_v61 main_c_23
  let main_v63 : IVec S_ 1 := andi main_v58 main_v62
  let main_v64 : FVec F S400 .f32 := Host.absf main_arg13
  let main_cst_24 : FVec F S_ .f32 := constant S_ .f32 0x7F800000#32
  let main_v65 : FVec F S400 .f32 := broadcastInDim S400 ![] bcast_S_S400 main_cst_24
  let main_v66 : IVec S400 1 := cmpf .olt main_v64 main_v65
  let main_c_25 : IVec S_ 1 := constantI S_ 1 1#1
  let main_v67 : IVec S_ 1 := (fun x v => Host.reduce IntOp.andi x v reducesTo_S400_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg7 : FVec F S400x400 .f32) (main_arg8 : FVec F S400x400 .f32) (main_arg9 : FVec F S400x400 .f32) (main_arg10 : FVec F S400x400 .f32) (main_arg11 : FVec F S400 .f32) (main_arg12 : FVec F S400 .f32) (main_arg13 : FVec F S400 .f32) (main_arg14 : FVec F S400 .f32) (main_arg15 : FVec F S400 .f32) (main_arg16 : FVec F S400 .f32) (main_arg17 : FVec F S400x400 .f32) (main_arg18 : FVec F S400x400 .f32) (main_arg19 : FVec F S400x400 .f32) (main_arg20 : FVec F S400x400 .f32) (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v33 : IVec S_ 1) : IVec S_ 1 :=
  let main_v34 : FVec F S400x400 .f32 := Host.absf main_arg7
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400x400 .f32 := Host.absf main_arg8
  let main_cst_14 : FVec F S_ .f32 := constant S_ .f32 0x7F800000#32
  let main_v40 : FVec F S400x400 .f32 := broadcastInDim S400x400 ![] bcast_S_S400x400 main_cst_14
  let main_v41 : IVec S400x400 1 := cmpf .olt main_v39 main_v40
  let main_c_15 : IVec S_ 1 := constantI S_ 1 1#1
  let main_v42 : IVec S_ 1 := (fun x v => Host.reduce IntOp.andi x v reducesTo_S400x400_S_d0_1 h_S_) main_v41 main_c_15
  let main_v43 : IVec S_ 1 := andi main_v38 main_v42
  let main_v44 : FVec F S400x400 .f32 := Host.absf main_arg9
  let main_cst_16 : FVec F S_ .f32 := constant S_ .f32 0x7F800000#32
  let main_v45 : FVec F S400x400 .f32 := broadcastInDim S400x400 ![] bcast_S_S400x400 main_cst_16
  let main_v46 : IVec S400x400 1 := cmpf .olt main_v44 main_v45
  let main_c_17 : IVec S_ 1 := constantI S_ 1 1#1
  let main_v47 : IVec S_ 1 := (fun x v => Host.reduce IntOp.andi x v reducesTo_S400x400_S_d0_1 h_S_) main_v46 main_c_17
  let main_v48 : IVec S_ 1 := andi main_v43 main_v47
  let main_v49 : FVec F S400x400 .f32 := Host.absf main_arg10
  let main_cst_18 : FVec F S_ .f32 := constant S_ .f32 0x7F800000#32
  let main_v50 : FVec F S400x400 .f32 := broadcastInDim S400x400 ![] bcast_S_S400x400 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg4 : FVec F S400 .f32) (main_arg5 : FVec F S400x400 .f32) (main_arg6 : FVec F S400x400 .f32) (main_arg7 : FVec F S400x400 .f32) (main_arg8 : FVec F S400x400 .f32) (main_arg9 : FVec F S400x400 .f32) (main_arg10 : FVec F S400x400 .f32) (main_arg11 : FVec F S400 .f32) (main_arg12 : FVec F S400 .f32) (main_arg13 : FVec F S400 .f32) (main_arg14 : FVec F S400 .f32) (main_arg15 : FVec F S400 .f32) (main_arg16 : FVec F S400 .f32) (main_arg17 : FVec F S400x400 .f32) (main_arg18 : FVec F S400x400 .f32) (main_arg19 : FVec F S400x400 .f32) (main_arg20 : FVec F S400x400 .f32) (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) (main_v13 : IVec S_ 1) (main_v16 : IVec S400x257 1) : IVec S_ 1 :=
  let main_c_5 : IVec S_ 1 := constantI S_ 1 1#1
  let main_v17 : IVec S_ 1 := (fun x v => Host.reduce IntOp.andi x v reducesTo_S400x257_S_d0_1 h_S_) main_v16 main_c_5
  let main_v18 : IVec S_ 1 := andi main_v13 main_v17
  let main_v19 : FVec F S400 .f32 := Host.absf main_arg4
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x400 .f32 := Host.absf main_arg5
  let main_cst_8 : FVec F S_ .f32 := constant S_ .f32 0x7F800000#32
  let main_v25 : FVec F S400x400 .f32 := broadcastInDim S400x400 ![] bcast_S_S400x400 main_cst_8
  let main_v26 : IVec S400x400 1 := cmpf .olt main_v24 main_v25
  let main_c_9 : IVec S_ 1 := constantI S_ 1 1#1
  let main_v27 : IVec S_ 1 := (fun x v => Host.reduce IntOp.andi x v reducesTo_S400x400_S_d0_1 h_S_) main_v26 main_c_9
  let main_v28 : IVec S_ 1 := andi main_v23 main_v27
  let main_v29 : FVec F S400x400 .f32 := Host.absf main_arg6
  let main_cst_10 : FVec F S_ .f32 := constant S_ .f32 0x7F800000#32
  let main_v30 : FVec F S400x400 .f32 := broadcastInDim S400x400 ![] bcast_S_S400x400 main_cst_10
  let main_v31 : IVec S400x400 1 := cmpf .olt main_v29 main_v30
  let main_c_11 : IVec S_ 1 := constantI S_ 1 1#1
  let main_v32 : IVec S_ 1 := (fun x v => Host.reduce IntOp.andi x v reducesTo_S400x400_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : FVec F S257x16384 .f32) (main_arg1 : FVec F S400x16384 .f32) (main_arg2 : FVec F S400x16384 .f32) (main_arg3 : FVec F S400x257 .f32) (main_arg4 : FVec F S400 .f32) (main_arg5 : FVec F S400x400 .f32) (main_arg6 : FVec F S400x400 .f32) (main_arg7 : FVec F S400x400 .f32) (main_arg8 : FVec F S400x400 .f32) (main_arg9 : FVec F S400x400 .f32) (main_arg10 : FVec F S400x400 .f32) (main_arg11 : FVec F S400 .f32) (main_arg12 : FVec F S400 .f32) (main_arg13 : FVec F S400 .f32) (main_arg14 : FVec F S400 .f32) (main_arg15 : FVec F S400 .f32) (main_arg16 : FVec F S400 .f32) (main_arg17 : FVec F S400x400 .f32) (main_arg18 : FVec F S400x400 .f32) (main_arg19 : FVec F S400x400 .f32) (main_arg20 : FVec F S400x400 .f32) (main_arg21 : FVec F S400x400 .f32) (main_arg22 : FVec F S400x400 .f32) (main_arg23 : FVec F S400 .f32) (main_arg24 : FVec F S400 .f32) (main_arg25 : FVec F S400 .f32) (main_arg26 : FVec F S400 .f32) (main_arg27 : FVec F S400 .f32) (main_arg28 : FVec F S400 .f32) (main_arg29 : FVec F S600x400 .f32) (main_arg30 : FVec F S600 .f32) (main_arg31 : FVec F S600x600 .f32) (main_arg32 : FVec F S600 .f32) (main_arg33 : FVec F S257x600 .f32) (main_arg34 : FVec F S257 .f32) : IVec S_ 1 :=
  let main_v0 : FVec F S257x16384 .f32 := Host.absf main_arg0
  let main_cst : FVec F S_ .f32 := constant S_ .f32 0x7F800000#32
  let main_v1 : FVec F S257x16384 .f32 := broadcastInDim S257x16384 ![] bcast_S_S257x16384 main_cst
  let main_v2 : IVec S257x16384 1 := cmpf .olt main_v0 main_v1
  let main_c : IVec S_ 1 := constantI S_ 1 1#1
  let main_v3 : IVec S_ 1 := (fun x v => Host.reduce IntOp.andi x v reducesTo_S257x16384_S_d0_1 h_S_) main_v2 main_c
  let main_v4 : FVec F S400x16384 .f32 := Host.absf main_arg1
  let main_cst_0 : FVec F S_ .f32 := constant S_ .f32 0x7F800000#32
  let main_v5 : FVec F S400x16384 .f32 := broadcastInDim S400x16384 ![] bcast_S_S400x16384 main_cst_0
  let main_v6 : IVec S400x16384 1 := cmpf .olt main_v4 main_v5
  let main_c_1 : IVec S_ 1 := constantI S_ 1 1#1
  let main_v7 : IVec S_ 1 := (fun x v => Host.reduce IntOp.andi x v reducesTo_S400x16384_S_d0_1 h_S_) main_v6 main_c_1
  let main_v8 : IVec S_ 1 := andi main_v3 main_v7
  let main_v9 : FVec F S400x16384 .f32 := Host.absf main_arg2
  let main_cst_2 : FVec F S_ .f32 := constant S_ .f32 0x7F800000#32
  let main_v10 : FVec F S400x16384 .f32 := broadcastInDim S400x16384 ![] bcast_S_S400x16384 main_cst_2
  let main_v11 : IVec S400x16384 1 := cmpf .olt main_v9 main_v10
  let main_c_3 : IVec S_ 1 := constantI S_ 1 1#1
  let main_v12 : IVec S_ 1 := (fun x v => Host.reduce IntOp.andi x v reducesTo_S400x16384_S_d0_1 h_S_) main_v11 main_c_3
  let main_v13 : IVec S_ 1 := andi main_v8 main_v12
  let main_v14 : FVec F S400x257 .f32 := Host.absf main_arg3
  let main_cst_4 : FVec F S_ .f32 := constant S_ .f32 0x7F800000#32
  let main_v15 : FVec F S400x257 .f32 := broadcastInDim S400x257 ![] bcast_S_S400x257 main_cst_4
  let main_v16 : IVec S400x257 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S257x16384 : Shape := ⟨2, ![257, 16384]⟩
abbrev S400x16384 : Shape := ⟨2, ![400, 16384]⟩
abbrev S400x257 : Shape := ⟨2, ![400, 257]⟩
abbrev S400 : Shape := ⟨1, ![400]⟩
abbrev S400x400 : Shape := ⟨2, ![400, 400]⟩
abbrev S600x400 : Shape := ⟨2, ![600, 400]⟩
abbrev S600 : Shape := ⟨1, ![600]⟩
abbrev S600x600 : Shape := ⟨2, ![600, 600]⟩
abbrev S257x600 : Shape := ⟨2, ![257, 600]⟩
abbrev S257 : Shape := ⟨1, ![257]⟩
abbrev S1200x400 : Shape := ⟨2, ![1200, 400]⟩
abbrev S800 : Shape := ⟨1, ![800]⟩
abbrev S800x1 : Shape := ⟨2, ![800, 1]⟩
abbrev S400x1 : Shape := ⟨2, ![400, 1]⟩
abbrev S600x1 : Shape := ⟨2, ![600, 1]⟩
abbrev S257x1 : Shape := ⟨2, ![257, 1]⟩
abbrev S257x1024 : Shape := ⟨2, ![257, 1024]⟩
abbrev S400x1024 : Shape := ⟨2, ![400, 1024]⟩
abbrev S1200x1024 : Shape := ⟨2, ![1200, 1024]⟩
abbrev S600x1024 : Shape := ⟨2, ![600, 1024]⟩

abbrev nBuf : Space → Nat
  | .hbm => 64
  | .vmem => 26
  | .smem => 0
  | _ => 0

abbrev bufTy : (tb : Table) → Fin (tcTables nBuf tb) → BufTy
  | .hbm, ⟨0, _⟩ => ⟨S257x16384, .f32⟩
  | .hbm, ⟨1, _⟩ => ⟨S400x16384, .f32⟩
  | .hbm, ⟨2, _⟩ => ⟨S400x16384, .f32⟩
  | .hbm, ⟨3, _⟩ => ⟨S400x257, .f32⟩
  | .hbm, ⟨4, _⟩ => ⟨S400, .f32⟩
  | .hbm, ⟨5, _⟩ => ⟨S400x400, .f32⟩
  | .hbm, ⟨6, _⟩ => ⟨S400x400, .f32⟩
  | .hbm, ⟨7, _⟩ => ⟨S400x400, .f32⟩
  | .hbm, ⟨8, _⟩ => ⟨S400x400, .f32⟩
  | .hbm, ⟨9, _⟩ => ⟨S400x400, .f32⟩
  | .hbm, ⟨10, _⟩ => ⟨S400x400, .f32⟩
  | .hbm, ⟨11, _⟩ => ⟨S400, .f32⟩
  | .hbm, ⟨12, _⟩ => ⟨S400, .f32⟩
  | .hbm, ⟨13, _⟩ => ⟨S400, .f32⟩
  | .hbm, ⟨14, _⟩ => ⟨S400, .f32⟩
  | .hbm, ⟨15, _⟩ => ⟨S400, .f32⟩
  | .hbm, ⟨16, _⟩ => ⟨S400, .f32⟩
  | .hbm, ⟨17, _⟩ => ⟨S400x400, .f32⟩
  | .hbm, ⟨18, _⟩ => ⟨S400x400, .f32⟩
  | .hbm, ⟨19, _⟩ => ⟨S400x400, .f32⟩
  | .hbm, ⟨20, _⟩ => ⟨S400x400, .f32⟩
  | .hbm, ⟨21, _⟩ => ⟨S400x400, .f32⟩
  | .hbm, ⟨22, _⟩ => ⟨S400x400, .f32⟩
  | .hbm, ⟨23, _⟩ => ⟨S400, .f32⟩
  | .hbm, ⟨24, _⟩ => ⟨S400, .f32⟩
  | .hbm, ⟨25, _⟩ => ⟨S400, .f32⟩
  | .hbm, ⟨26, _⟩ => ⟨S400, .f32⟩
  | .hbm, ⟨27, _⟩ => ⟨S400, .f32⟩
  | .hbm, ⟨28, _⟩ => ⟨S400, .f32⟩
  | .hbm, ⟨29, _⟩ => ⟨S600x400, .f32⟩
  | .hbm, ⟨30, _⟩ => ⟨S600, .f32⟩
  | .hbm, ⟨31, _⟩ => ⟨S600x600, .f32⟩
  | .hbm, ⟨32, _⟩ => ⟨S600, .f32⟩
  | .hbm, ⟨33, _⟩ => ⟨S257x600, .f32⟩
  | .hbm, ⟨34, _⟩ => ⟨S257, .f32⟩
  | .hbm, ⟨35, _⟩ => ⟨S400x257, .bf16⟩
  | .hbm, ⟨36, _⟩ => ⟨S1200x400, .f32⟩
  | .hbm, ⟨37, _⟩ => ⟨S1200x400, .bf16⟩
  | .hbm, ⟨38, _⟩ => ⟨S1200x400, .f32⟩
  | .hbm, ⟨39, _⟩ => ⟨S1200x400, .bf16⟩
  | .hbm, ⟨40, _⟩ => ⟨S1200x400, .f32⟩
  | .hbm, ⟨41, _⟩ => ⟨S1200x400, .bf16⟩
  | .hbm, ⟨42, _⟩ => ⟨S1200x400, .f32⟩
  | .hbm, ⟨43, _⟩ => ⟨S1200x400, .bf16⟩
  | .hbm, ⟨44, _⟩ => ⟨S400, .f32⟩
  | .hbm, ⟨45, _⟩ => ⟨S400, .f32⟩
  | .hbm, ⟨46, _⟩ => ⟨S800, .f32⟩
  | .hbm, ⟨47, _⟩ => ⟨S800x1, .f32⟩
  | .hbm, ⟨48, _⟩ => ⟨S400, .f32⟩
  | .hbm, ⟨49, _⟩ => ⟨S400, .f32⟩
  | .hbm, ⟨50, _⟩ => ⟨S800, .f32⟩
  | .hbm, ⟨51, _⟩ => ⟨S800x1, .f32⟩
  | .hbm, ⟨52, _⟩ => ⟨S400x1, .f32⟩
  | .hbm, ⟨53, _⟩ => ⟨S400x1, .f32⟩
  | .hbm, ⟨54, _⟩ => ⟨S400x1, .f32⟩
  | .hbm, ⟨55, _⟩ => ⟨S400x1, .f32⟩
  | .hbm, ⟨56, _⟩ => ⟨S400x1, .f32⟩
  | .hbm, ⟨57, _⟩ => ⟨S600x1, .f32⟩
  | .hbm, ⟨58, _⟩ => ⟨S600x1, .f32⟩
  | .hbm, ⟨59, _⟩ => ⟨S257x1, .f32⟩
  | .hbm, ⟨60, _⟩ => ⟨S600x400, .bf16⟩
  | .hbm, ⟨61, _⟩ => ⟨S600x600, .bf16⟩
  | .hbm, ⟨62, _⟩ => ⟨S257x600, .bf16⟩
  | .hbm, ⟨63, _⟩ => ⟨S257x16384, .f32⟩
  | .local _ .vmem, ⟨0, _⟩ => ⟨S257x1024, .f32⟩
  | .local _ .vmem, ⟨1, _⟩ => ⟨S257x1024, .f32⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x257, .bf16⟩
  | .local _ .vmem, ⟨7, _⟩ => ⟨S400x1, .f32⟩
  | .local _ .vmem, ⟨8, _⟩ => ⟨S1200x400, .bf16⟩
  | .local _ .vmem, ⟨9, _⟩ => ⟨S1200x400, .bf16⟩
  | .local _ .vmem, ⟨10, _⟩ => ⟨S800x1, .f32⟩
  | .local _ .vmem, ⟨11, _⟩ => ⟨S400x1, .f32⟩
  | .local _ .vmem, ⟨12, _⟩ => ⟨S400x1, .f32⟩
  | .local _ .vmem, ⟨13, _⟩ => ⟨S1200x400, .bf16⟩
  | .local _ .vmem, ⟨14, _⟩ => ⟨S1200x400, .bf16⟩
  | .local _ .vmem, ⟨15, _⟩ => ⟨S800x1, .f32⟩
  | .local _ .vmem, ⟨16, _⟩ => ⟨S400x1, .f32⟩
  | .local _ .vmem, ⟨17, _⟩ => ⟨S400x1, .f32⟩
  | .local _ .vmem, ⟨18, _⟩ => ⟨S600x400, .bf16⟩
  | .local _ .vmem, ⟨19, _⟩ => ⟨S600x1, .f32⟩
  | .local _ .vmem, ⟨20, _⟩ => ⟨S600x600, .bf16⟩
  | .local _ .vmem, ⟨21, _⟩ => ⟨S600x1, .f32⟩
  | .local _ .vmem, ⟨22, _⟩ => ⟨S257x600, .bf16⟩
  | .local _ .vmem, ⟨23, _⟩ => ⟨S257x1, .f32⟩
  | .local _ .vmem, ⟨24, _⟩ => ⟨S257x1024, .f32⟩
  | .local _ .vmem, ⟨25, _⟩ => ⟨S257x1024, .f32⟩
  | _, _ => ⟨S257x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S257x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S400x257 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1200x400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1200x400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S800x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1200x400 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1200x400 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S800x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S400x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S400x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S600x400 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S600x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S600x600 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S600x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S257x600 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S257x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S257x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  concatenates_S400x400_S400x400_S400x400_S1200x400_d0 : Shape.Concatenates [S400x400, S400x400, S400x400] S1200x400 0
  concatenates_S400_S400_S800_d0 : Shape.Concatenates [S400, S400] S800 0
  shapeCasts_S800_S800x1 : S800.ShapeCasts S800x1
  shapeCasts_S400_S400x1 : S400.ShapeCasts S400x1
  shapeCasts_S600_S600x1 : S600.ShapeCasts S600x1
  shapeCasts_S257_S257x1 : S257.ShapeCasts S257x1
  inb_S257x1024_S257x1024_0_0 : ∀ a, (![0, 0] : Fin 2 → Nat) a + S257x1024.size a ≤ S257x1024.size a
  h_S257x1024 : 0 < S257x1024.numel
  inb_S400x1024_S400x1024_0_0 : ∀ a, (![0, 0] : Fin 2 → Nat) a + S400x1024.size a ≤ S400x1024.size a
  h_S400x1024 : 0 < S400x1024.numel
  inb_S400x257_S400x257_0_0 : ∀ a, (![0, 0] : Fin 2 → Nat) a + S400x257.size a ≤ S400x257.size a
  h_S400x257 : 0 < S400x257.numel
  shapeCasts_S400x257_S400x257 : S400x257.ShapeCasts S400x257
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x1024 : S400x1.Broadcasts S400x1024
  inb_S1200x400_S1200x400_0_0 : ∀ a, (![0, 0] : Fin 2 → Nat) a + S1200x400.size a ≤ S1200x400.size a
  h_S1200x400 : 0 < S1200x400.numel
  shapeCasts_S1200x400_S1200x400 : S1200x400.ShapeCasts S1200x400
  inb_S800x1_S800x1_0_0 : ∀ a, (![0, 0] : Fin 2 → Nat) a + S800x1.size a ≤ S800x1.size a
  h_S800x1 : 0 < S800x1.numel
  shapeCasts_S800x1_S800x1 : S800x1.ShapeCasts S800x1
  slices_S1200x1024_o0_0_S400x1024 : S1200x1024.Slices ![0, 0] S400x1024
  slices_S1200x1024_o400_0_S400x1024 : S1200x1024.Slices ![400, 0] S400x1024
  slices_S1200x1024_o800_0_S400x1024 : S1200x1024.Slices ![800, 0] S400x1024
  slices_S800x1_o0_0_S400x1 : S800x1.Slices ![0, 0] S400x1
  slices_S800x1_o400_0_S400x1 : S800x1.Slices ![400, 0] S400x1
  inb_S600x400_S600x400_0_0 : ∀ a, (![0, 0] : Fin 2 → Nat) a + S600x400.size a ≤ S600x400.size a
  h_S600x400 : 0 < S600x400.numel
  shapeCasts_S600x400_S600x400 : S600x400.ShapeCasts S600x400
  inb_S600x1_S600x1_0_0 : ∀ a, (![0, 0] : Fin 2 → Nat) a + S600x1.size a ≤ S600x1.size a
  h_S600x1 : 0 < S600x1.numel
  shapeCasts_S600x1_S600x1 : S600x1.ShapeCasts S600x1
  broadcasts_S600x1_S600x1024 : S600x1.Broadcasts S600x1024
  inb_S600x600_S600x600_0_0 : ∀ a, (![0, 0] : Fin 2 → Nat) a + S600x600.size a ≤ S600x600.size a
  h_S600x600 : 0 < S600x600.numel
  shapeCasts_S600x600_S600x600 : S600x600.ShapeCasts S600x600
  inb_S257x600_S257x600_0_0 : ∀ a, (![0, 0] : Fin 2 → Nat) a + S257x600.size a ≤ S257x600.size a
  h_S257x600 : 0 < S257x600.numel
  shapeCasts_S257x600_S257x600 : S257x600.ShapeCasts S257x600
  inb_S257x1_S257x1_0_0 : ∀ a, (![0, 0] : Fin 2 → Nat) a + S257x1.size a ≤ S257x1.size a
  h_S257x1 : 0 < S257x1.numel
  shapeCasts_S257x1_S257x1 : S257x1.ShapeCasts S257x1
  broadcasts_S257x1_S257x1024 : S257x1.Broadcasts S257x1024
  dot_S400x257_S257x1024_S400x1024_1_0_0_1_n_n_wf : DotDims.WF S400x257 S257x1024 S400x1024 [1] [0] [0] [1] [] []
  dot_S1200x400_S400x1024_S1200x1024_1_0_0_1_n_n_wf : DotDims.WF S1200x400 S400x1024 S1200x1024 [1] [0] [0] [1] [] []
  dot_S600x400_S400x1024_S600x1024_1_0_0_1_n_n_wf : DotDims.WF S600x400 S400x1024 S600x1024 [1] [0] [0] [1] [] []
  dot_S600x600_S600x1024_S600x1024_1_0_0_1_n_n_wf : DotDims.WF S600x600 S600x1024 S600x1024 [1] [0] [0] [1] [] []
  dot_S257x600_S600x1024_S257x1024_1_0_0_1_n_n_wf : DotDims.WF S257x600 S600x1024 S257x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S257x1024.size a ≤ S257x16384.size a
  hwx0_0 : ∀ i : grid0.Coords, EltTy.bits .f32 = 32 ∨ (Rect.block (s := S257x16384) S257x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1024.size a ≤ S400x16384.size a
  hwx0_1 : ∀ i : grid0.Coords, EltTy.bits .f32 = 32 ∨ (Rect.block (s := S400x16384) S400x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1024.size a ≤ S400x16384.size a
  hwx0_2 : ∀ i : grid0.Coords, EltTy.bits .f32 = 32 ∨ (Rect.block (s := S400x16384) S400x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400x257.size a ≤ S400x257.size a
  hwx0_3 : ∀ i : grid0.Coords, EltTy.bits .bf16 = 32 ∨ (Rect.block (s := S400x257) S400x257.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S400x1.size a
  hwx0_4 : ∀ i : grid0.Coords, EltTy.bits .f32 = 32 ∨ (Rect.block (s := S400x1) S400x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1200x400.size a ≤ S1200x400.size a
  hwx0_5 : ∀ i : grid0.Coords, EltTy.bits .bf16 = 32 ∨ (Rect.block (s := S1200x400) S1200x400.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1200x400.size a ≤ S1200x400.size a
  hwx0_6 : ∀ i : grid0.Coords, EltTy.bits .bf16 = 32 ∨ (Rect.block (s := S1200x400) S1200x400.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S800x1.size a ≤ S800x1.size a
  hwx0_7 : ∀ i : grid0.Coords, EltTy.bits .f32 = 32 ∨ (Rect.block (s := S800x1) S800x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x1.size a ≤ S400x1.size a
  hwx0_8 : ∀ i : grid0.Coords, EltTy.bits .f32 = 32 ∨ (Rect.block (s := S400x1) S400x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x1.size a ≤ S400x1.size a
  hwx0_9 : ∀ i : grid0.Coords, EltTy.bits .f32 = 32 ∨ (Rect.block (s := S400x1) S400x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1200x400.size a ≤ S1200x400.size a
  hwx0_10 : ∀ i : grid0.Coords, EltTy.bits .bf16 = 32 ∨ (Rect.block (s := S1200x400) S1200x400.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1200x400.size a ≤ S1200x400.size a
  hwx0_11 : ∀ i : grid0.Coords, EltTy.bits .bf16 = 32 ∨ (Rect.block (s := S1200x400) S1200x400.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S800x1.size a ≤ S800x1.size a
  hwx0_12 : ∀ i : grid0.Coords, EltTy.bits .f32 = 32 ∨ (Rect.block (s := S800x1) S800x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S400x1.size a ≤ S400x1.size a
  hwx0_13 : ∀ i : grid0.Coords, EltTy.bits .f32 = 32 ∨ (Rect.block (s := S400x1) S400x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S400x1.size a ≤ S400x1.size a
  hwx0_14 : ∀ i : grid0.Coords, EltTy.bits .f32 = 32 ∨ (Rect.block (s := S400x1) S400x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S600x400.size a ≤ S600x400.size a
  hwx0_15 : ∀ i : grid0.Coords, EltTy.bits .bf16 = 32 ∨ (Rect.block (s := S600x400) S600x400.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S600x1.size a ≤ S600x1.size a
  hwx0_16 : ∀ i : grid0.Coords, EltTy.bits .f32 = 32 ∨ (Rect.block (s := S600x1) S600x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S600x600.size a ≤ S600x600.size a
  hwx0_17 : ∀ i : grid0.Coords, EltTy.bits .bf16 = 32 ∨ (Rect.block (s := S600x600) S600x600.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S600x1.size a ≤ S600x1.size a
  hwx0_18 : ∀ i : grid0.Coords, EltTy.bits .f32 = 32 ∨ (Rect.block (s := S600x1) S600x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S257x600.size a ≤ S257x600.size a
  hwx0_19 : ∀ i : grid0.Coords, EltTy.bits .bf16 = 32 ∨ (Rect.block (s := S257x600) S257x600.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S257x1.size a ≤ S257x1.size a
  hwx0_20 : ∀ i : grid0.Coords, EltTy.bits .f32 = 32 ∨ (Rect.block (s := S257x1) S257x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S257x1024.size a ≤ S257x16384.size a
  hwx0_21 : ∀ i : grid0.Coords, EltTy.bits .f32 = 32 ∨ (Rect.block (s := S257x16384) S257x1024.size (cc0_transform_21 i) (hinb0_21 i)).WholeWords (EltTy.packing .f32)

variable [Facts₀]

def dot_S400x257_S257x1024_S400x1024_1_0_0_1_n_n : DotDims S400x257 S257x1024 S400x1024 where
  lhsContracting := [1]
  rhsContracting := [0]
  lhsNonContracting := [0]
  rhsNonContracting := [1]
  lhsBatch := []
  rhsBatch := []
  wf := dot_S400x257_S257x1024_S400x1024_1_0_0_1_n_n_wf
def dot_S1200x400_S400x1024_S1200x1024_1_0_0_1_n_n : DotDims S1200x400 S400x1024 S1200x1024 where
  lhsContracting := [1]
  rhsContracting := [0]
  lhsNonContracting := [0]
  rhsNonContracting := [1]
  lhsBatch := []
  rhsBatch := []
  wf := dot_S1200x400_S400x1024_S1200x1024_1_0_0_1_n_n_wf
def dot_S600x400_S400x1024_S600x1024_1_0_0_1_n_n : DotDims S600x400 S400x1024 S600x1024 where
  lhsContracting := [1]
  rhsContracting := [0]
  lhsNonContracting := [0]
  rhsNonContracting := [1]
  lhsBatch := []
  rhsBatch := []
  wf := dot_S600x400_S400x1024_S600x1024_1_0_0_1_n_n_wf
def dot_S600x600_S600x1024_S600x1024_1_0_0_1_n_n : DotDims S600x600 S600x1024 S600x1024 where
  lhsContracting := [1]
  rhsContracting := [0]
  lhsNonContracting := [0]
  rhsNonContracting := [1]
  lhsBatch := []
  rhsBatch := []
  wf := dot_S600x600_S600x1024_S600x1024_1_0_0_1_n_n_wf
def dot_S257x600_S600x1024_S257x1024_1_0_0_1_n_n : DotDims S257x600 S600x1024 S257x1024 where
  lhsContracting := [1]
  rhsContracting := [0]
  lhsNonContracting := [0]
  rhsNonContracting := [1]
  lhsBatch := []
  rhsBatch := []
  wf := dot_S257x600_S600x1024_S257x1024_1_0_0_1_n_n_wf

abbrev win0_0 : Pipeline.Window sig grid0 :=
  Pipeline.Window.ofSpec (Memref.whole main_arg0) S257x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S400x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1200x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1200x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S800x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S400x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S400x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1200x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1200x400.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S800x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S400x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S400x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S600x400.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v22) S600x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v26) S600x600.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v23) S600x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27) S257x600.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v24) S257x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v28) S257x1024.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S257x16384 : Shape := ⟨2, ![257, 16384]⟩
abbrev S400x16384 : Shape := ⟨2, ![400, 16384]⟩
abbrev S400x257 : Shape := ⟨2, ![400, 257]⟩
abbrev S400 : Shape := ⟨1, ![400]⟩
abbrev S400x400 : Shape := ⟨2, ![400, 400]⟩
abbrev S600x400 : Shape := ⟨2, ![600, 400]⟩
abbrev S600 : Shape := ⟨1, ![600]⟩
abbrev S600x600 : Shape := ⟨2, ![600, 600]⟩
abbrev S257x600 : Shape := ⟨2, ![257, 600]⟩
abbrev S257 : Shape := ⟨1, ![257]⟩
abbrev S400x1 : Shape := ⟨2, ![400, 1]⟩
abbrev S_ : Shape := ⟨0, ![]⟩
abbrev S600x16384 : Shape := ⟨2, ![600, 16384]⟩
abbrev S600x1 : Shape := ⟨2, ![600, 1]⟩
abbrev S257x1 : Shape := ⟨2, ![257, 1]⟩

abbrev nBuf : Space → Nat
  | .hbm => 167
  | .vmem => 0
  | .smem => 0
  | _ => 0

abbrev hbmTy0_0 (i : Nat) : BufTy := match i % 128 with
  | 0 => ⟨S257x16384, .f32⟩
  | 1 => ⟨S400x16384, .f32⟩
  | 2 => ⟨S400x16384, .f32⟩
  | 3 => ⟨S400x257, .f32⟩
  | 4 => ⟨S400, .f32⟩
  | 5 => ⟨S400x400, .f32⟩
  | 6 => ⟨S400x400, .f32⟩
  | 7 => ⟨S400x400, .f32⟩
  | 8 => ⟨S400x400, .f32⟩
  | 9 => ⟨S400x400, .f32⟩
  | 10 => ⟨S400x400, .f32⟩
  | 11 => ⟨S400, .f32⟩
  | 12 => ⟨S400, .f32⟩
  | 13 => ⟨S400, .f32⟩
  | 14 => ⟨S400, .f32⟩
  | 15 => ⟨S400, .f32⟩
  | 16 => ⟨S400, .f32⟩
  | 17 => ⟨S400x400, .f32⟩
  | 18 => ⟨S400x400, .f32⟩
  | 19 => ⟨S400x400, .f32⟩
  | 20 => ⟨S400x400, .f32⟩
  | 21 => ⟨S400x400, .f32⟩
  | 22 => ⟨S400x400, .f32⟩
  | 23 => ⟨S400, .f32⟩
  | 24 => ⟨S400, .f32⟩
  | 25 => ⟨S400, .f32⟩
  | 26 => ⟨S400, .f32⟩
  | 27 => ⟨S400, .f32⟩
  | 28 => ⟨S400, .f32⟩
  | 29 => ⟨S600x400, .f32⟩
  | 30 => ⟨S600, .f32⟩
  | 31 => ⟨S600x600, .f32⟩
  | 32 => ⟨S600, .f32⟩
  | 33 => ⟨S257x600, .f32⟩
  | 34 => ⟨S257, .f32⟩
  | 35 => ⟨S400x16384, .f32⟩
  | 36 => ⟨S400x1, .f32⟩
  | 37 => ⟨S400x16384, .f32⟩
  | 38 => ⟨S400x16384, .f32⟩
  | 39 => ⟨S400x16384, .f32⟩
  | 40 => ⟨S400x1, .f32⟩
  | 41 => ⟨S400x16384, .f32⟩
  | 42 => ⟨S400x16384, .f32⟩
  | 43 => ⟨S400x16384, .f32⟩
  | 44 => ⟨S400x16384, .f32⟩
  | 45 => ⟨S400x1, .f32⟩
  | 46 => ⟨S400x16384, .f32⟩
  | 47 => ⟨S400x16384, .f32⟩
  | 48 => ⟨S400x16384, .f32⟩
  | 49 => ⟨S400x16384, .f32⟩
  | 50 => ⟨S_, .f32⟩
  | 51 => ⟨S400x16384, .f32⟩
  | 52 => ⟨S400x16384, .f32⟩
  | 53 => ⟨S_, .f32⟩
  | 54 => ⟨S400x16384, .f32⟩
  | 55 => ⟨S400x16384, .f32⟩
  | 56 => ⟨S400x16384, .f32⟩
  | 57 => ⟨S400x1, .f32⟩
  | 58 => ⟨S400x16384, .f32⟩
  | 59 => ⟨S400x16384, .f32⟩
  | 60 => ⟨S400x16384, .f32⟩
  | 61 => ⟨S400x16384, .f32⟩
  | 62 => ⟨S400x1, .f32⟩
  | 63 => ⟨S400x16384, .f32⟩
  | 64 => ⟨S400x16384, .f32⟩
  | 65 => ⟨S400x16384, .f32⟩
  | 66 => ⟨S400x16384, .f32⟩
  | 67 => ⟨S_, .f32⟩
  | 68 => ⟨S400x16384, .f32⟩
  | 69 => ⟨S400x16384, .f32⟩
  | 70 => ⟨S_, .f32⟩
  | 71 => ⟨S400x16384, .f32⟩
  | 72 => ⟨S400x16384, .f32⟩
  | 73 => ⟨S400x16384, .f32⟩
  | 74 => ⟨S400x1, .f32⟩
  | 75 => ⟨S400x16384, .f32⟩
  | 76 => ⟨S400x16384, .f32⟩
  | 77 => ⟨S400x16384, .f32⟩
  | 78 => ⟨S400x1, .f32⟩
  | 79 => ⟨S400x16384, .f32⟩
  | 80 => ⟨S400x16384, .f32⟩
  | 81 => ⟨S400x16384, .f32⟩
  | 82 => ⟨S400x16384, .f32⟩
  | 83 => ⟨S400x16384, .f32⟩
  | 84 => ⟨S_, .f32⟩
  | 85 => ⟨S400x16384, .f32⟩
  | 86 => ⟨S400x16384, .f32⟩
  | 87 => ⟨S400x16384, .f32⟩
  | 88 => ⟨S400x16384, .f32⟩
  | 89 => ⟨S400x16384, .f32⟩
  | 90 => ⟨S400x16384, .f32⟩
  | 91 => ⟨S400x1, .f32⟩
  | 92 => ⟨S400x16384, .f32⟩
  | 93 => ⟨S400x16384, .f32⟩
  | 94 => ⟨S400x16384, .f32⟩
  | 95 => ⟨S400x16384, .f32⟩
  | 96 => ⟨S400x1, .f32⟩
  | 97 => ⟨S400x16384, .f32⟩
  | 98 => ⟨S400x16384, .f32⟩
  | 99 => ⟨S400x16384, .f32⟩
  | 100 => ⟨S400x16384, .f32⟩
  | 101 => ⟨S_, .f32⟩
  | 102 => ⟨S400x16384, .f32⟩
  | 103 => ⟨S400x16384, .f32⟩
  | 104 => ⟨S_, .f32⟩
  | 105 => ⟨S400x16384, .f32⟩
  | 106 => ⟨S400x16384, .f32⟩
  | 107 => ⟨S400x16384, .f32⟩
  | 108 => ⟨S400x1, .f32⟩
  | 109 => ⟨S400x16384, .f32⟩
  | 110 => ⟨S400x16384, .f32⟩
  | 111 => ⟨S400x16384, .f32⟩
  | 112 => ⟨S400x16384, .f32⟩
  | 113 => ⟨S400x1, .f32⟩
  | 114 => ⟨S400x16384, .f32⟩
  | 115 => ⟨S400x16384, .f32⟩
  | 116 => ⟨S400x16384, .f32⟩
  | 117 => ⟨S400x16384, .f32⟩
  | 118 => ⟨S_, .f32⟩
  | 119 => ⟨S400x16384, .f32⟩
  | 120 => ⟨S400x16384, .f32⟩
  | 121 => ⟨S_, .f32⟩
  | 122 => ⟨S400x16384, .f32⟩
  | 123 => ⟨S400x16384, .f32⟩
  | 124 => ⟨S400x16384, .f32⟩
  | 125 => ⟨S400x1, .f32⟩
  | 126 => ⟨S400x16384, .f32⟩
  | 127 => ⟨S400x16384, .f32⟩
  | _ => ⟨S257x16384, .f32⟩

abbrev hbmTy0_1 (i : Nat) : BufTy := match i % 128 with
  | 0 => ⟨S400x16384, .f32⟩
  | 1 => ⟨S400x1, .f32⟩
  | 2 => ⟨S400x16384, .f32⟩
  | 3 => ⟨S400x16384, .f32⟩
  | 4 => ⟨S400x16384, .f32⟩
  | 5 => ⟨S400x16384, .f32⟩
  | 6 => ⟨S400x16384, .f32⟩
  | 7 => ⟨S_, .f32⟩
  | 8 => ⟨S400x16384, .f32⟩
  | 9 => ⟨S400x16384, .f32⟩
  | 10 => ⟨S400x16384, .f32⟩
  | 11 => ⟨S400x16384, .f32⟩
  | 12 => ⟨S400x16384, .f32⟩
  | 13 => ⟨S600x16384, .f32⟩
  | 14 => ⟨S600x1, .f32⟩
  | 15 => ⟨S600x16384, .f32⟩
  | 16 => ⟨S600x16384, .f32⟩
  | 17 => ⟨S_, .f32⟩
  | 18 => ⟨S600x16384, .f32⟩
  | 19 => ⟨S600x16384, .f32⟩
  | 20 => ⟨S600x16384, .f32⟩
  | 21 => ⟨S600x1, .f32⟩
  | 22 => ⟨S600x16384, .f32⟩
  | 23 => ⟨S600x16384, .f32⟩
  | 24 => ⟨S_, .f32⟩
  | 25 => ⟨S600x16384, .f32⟩
  | 26 => ⟨S600x16384, .f32⟩
  | 27 => ⟨S257x16384, .f32⟩
  | 28 => ⟨S257x1, .f32⟩
  | 29 => ⟨S257x16384, .f32⟩
  | 30 => ⟨S257x16384, .f32⟩
  | 31 => ⟨S257x16384, .f32⟩
  | 32 => ⟨S257x16384, .f32⟩
  | 33 => ⟨S_, .f32⟩
  | 34 => ⟨S257x16384, .f32⟩
  | 35 => ⟨S257x16384, .f32⟩
  | 36 => ⟨S_, .f32⟩
  | 37 => ⟨S257x16384, .f32⟩
  | 38 => ⟨S257x16384, .f32⟩
  | _ => ⟨S257x16384, .f32⟩

abbrev hbmTy (i : Nat) : BufTy := match i / 128 with
  | 0 => hbmTy0_0 i
  | 1 => hbmTy0_1 i
  | _ => ⟨S257x16384, .f32⟩

abbrev bufTy : (tb : Table) → Fin (tcTables nBuf tb) → BufTy
  | .hbm, ⟨i, _⟩ => hbmTy i
  | _, _ => ⟨S257x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst : Ref sig .tc := ⟨.hbm, 50, rfl⟩
abbrev main_v15 : Ref sig .tc := ⟨.hbm, 51, rfl⟩
abbrev main_v16 : Ref sig .tc := ⟨.hbm, 52, rfl⟩
abbrev main_cst_0 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_1 : Ref sig .tc := ⟨.hbm, 67, rfl⟩
abbrev main_v30 : Ref sig .tc := ⟨.hbm, 68, rfl⟩
abbrev main_v31 : Ref sig .tc := ⟨.hbm, 69, rfl⟩
abbrev main_cst_2 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_4 : Ref sig .tc := ⟨.hbm, 101, rfl⟩
abbrev main_v61 : Ref sig .tc := ⟨.hbm, 102, rfl⟩
abbrev main_v62 : Ref sig .tc := ⟨.hbm, 103, rfl⟩
abbrev main_cst_5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_6 : Ref sig .tc := ⟨.hbm, 118, rfl⟩
abbrev main_v76 : Ref sig .tc := ⟨.hbm, 119, rfl⟩
abbrev main_v77 : Ref sig .tc := ⟨.hbm, 120, rfl⟩
abbrev main_cst_7 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_8 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_call0_cst : Ref sig .tc := ⟨.hbm, 145, rfl⟩
abbrev main_call0_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_call1_cst : Ref sig .tc := ⟨.hbm, 152, rfl⟩
abbrev main_call1_v0 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_9 : Ref sig .tc := ⟨.hbm, 161, rfl⟩
abbrev main_v112 : Ref sig .tc := ⟨.hbm, 162, rfl⟩
abbrev main_v113 : Ref sig .tc := ⟨.hbm, 163, rfl⟩
abbrev main_cst_10 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]

class Facts₀ : Prop where
  bcast_S400_S400x1_0 : S400.BroadcastsInDim S400x1 (![0] : Fin 1 → Fin S400x1.rank)
  bcast_S400x1_S400x16384_0_1 : S400x1.BroadcastsInDim S400x16384 (![0, 1] : Fin 2 → Fin S400x16384.rank)
  bcast_S_S400x16384 : S_.BroadcastsInDim S400x16384 (![] : Fin 0 → Fin S400x16384.rank)
  bcast_S600_S600x1_0 : S600.BroadcastsInDim S600x1 (![0] : Fin 1 → Fin S600x1.rank)
  bcast_S600x1_S600x16384_0_1 : S600x1.BroadcastsInDim S600x16384 (![0, 1] : Fin 2 → Fin S600x16384.rank)
  bcast_S_S600x16384 : S_.BroadcastsInDim S600x16384 (![] : Fin 0 → Fin S600x16384.rank)
  bcast_S257_S257x1_0 : S257.BroadcastsInDim S257x1 (![0] : Fin 1 → Fin S257x1.rank)
  bcast_S257x1_S257x16384_0_1 : S257x1.BroadcastsInDim S257x16384 (![0, 1] : Fin 2 → Fin S257x16384.rank)
  bcast_S_S257x16384 : S_.BroadcastsInDim S257x16384 (![] : Fin 0 → Fin S257x16384.rank)
  dot_S400x257_S257x16384_S400x16384_1_0_0_1_n_n_wf : DotDims.WF S400x257 S257x16384 S400x16384 [1] [0] [0] [1] [] []
  dot_S400x400_S400x16384_S400x16384_1_0_0_1_n_n_wf : DotDims.WF S400x400 S400x16384 S400x16384 [1] [0] [0] [1] [] []
  dot_S600x400_S400x16384_S600x16384_1_0_0_1_n_n_wf : DotDims.WF S600x400 S400x16384 S600x16384 [1] [0] [0] [1] [] []
  dot_S600x600_S600x16384_S600x16384_1_0_0_1_n_n_wf : DotDims.WF S600x600 S600x16384 S600x16384 [1] [0] [0] [1] [] []
  dot_S257x600_S600x16384_S257x16384_1_0_0_1_n_n_wf : DotDims.WF S257x600 S600x16384 S257x16384 [1] [0] [0] [1] [] []

variable [Facts₀]

def dot_S400x257_S257x16384_S400x16384_1_0_0_1_n_n : DotDims S400x257 S257x16384 S400x16384 where
  lhsContracting := [1]
  rhsContracting := [0]
  lhsNonContracting := [0]
  rhsNonContracting := [1]
  lhsBatch := []
  rhsBatch := []
  wf := dot_S400x257_S257x16384_S400x16384_1_0_0_1_n_n_wf
def dot_S400x400_S400x16384_S400x16384_1_0_0_1_n_n : DotDims S400x400 S400x16384 S400x16384 where
  lhsContracting := [1]
  rhsContracting := [0]
  lhsNonContracting := [0]
  rhsNonContracting := [1]
  lhsBatch := []
  rhsBatch := []
  wf := dot_S400x400_S400x16384_S400x16384_1_0_0_1_n_n_wf
def dot_S600x400_S400x16384_S600x16384_1_0_0_1_n_n : DotDims S600x400 S400x16384 S600x16384 where
  lhsContracting := [1]
  rhsContracting := [0]
  lhsNonContracting := [0]
  rhsNonContracting := [1]
  lhsBatch := []
  rhsBatch := []
  wf := dot_S600x400_S400x16384_S600x16384_1_0_0_1_n_n_wf
def dot_S600x600_S600x16384_S600x16384_1_0_0_1_n_n : DotDims S600x600 S600x16384 S600x16384 where
  lhsContracting := [1]
  rhsContracting := [0]
  lhsNonContracting := [0]
  rhsNonContracting := [1]
  lhsBatch := []
  rhsBatch := []
  wf := dot_S600x600_S600x16384_S600x16384_1_0_0_1_n_n_wf
def dot_S257x600_S600x16384_S257x16384_1_0_0_1_n_n : DotDims S257x600 S600x16384 S257x16384 where
  lhsContracting := [1]
  rhsContracting := [0]
  lhsNonContracting := [0]
  rhsNonContracting := [1]
  lhsBatch := []
  rhsBatch := []
  wf := dot_S257x600_S600x16384_S257x16384_1_0_0_1_n_n_wf

class Facts : Prop extends Facts₀ where

variable [Facts]
-- ==== Proof.FrameKernel.lean ====
import proofs.«149461_j42760694399258_2_alg».proof.Proof.Gen.Kernel.Launch
import proofs.«149461_j42760694399258_2_alg».proof.Proof.Gen.Kernel.Skeleton
import proofs.«149461_j42760694399258_2_alg».proof.Proof.Gen.Kernel.Points
import Idealize.ShloMosaic.Lib.Pipeline.FrameBody
import Idealize.ShloMosaic.Lib.Ring
import Idealize.ShloMosaic.Lib.Tactic

/-! # The frame of `Kernel`

The program is a stretch of host operations followed by one grid region of 16 points over 22 windows. Windows
0, 1, 2 stage the argument arrays 0, 1, 2; windows 3 … 20 stage results of the host stretch; window 21 is the one
output. At every point the body reads each input window whole, and overwrites the whole output block with a value
that depends on the input blocks alone. Hence: every execution ends without a fault, the three staged arguments are
only ever read, and the other 32 arguments are touched by nothing after launch. -/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch contents pushed through the 28 host
    operations, in order. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is the host stretch and then the region, and the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes its own result buffer and nothing else, and no result buffer is an argument: so
    for an argument `b`, no operation of the stretch has `b` among the buffers it writes. -/
local macro "never_written" : tactic => `(tactic| (
  simp only [hostOps0, List.flatten_cons, List.flatten_nil, List.append_nil, List.cons_append, List.nil_append,
    List.Forall, StableHlo.unary_writes, StableHlo.binary_writes, StableHlo.nary_writes, StableHlo.reshape_writes,
    Finset.mem_singleton]
  repeat' apply And.intro
  all_goals exact StableHlo.devRef_ne_of_ne (by decide)))

/-! Each argument array reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by never_written))
theorem V_main_arg1 (c : Dev nD) : V m c main_arg1 = m ((c : Thread nD τ).loc main_arg1) :=
  StableHlo.after_of_forall_not_mem (b := Proc.devRef .tc main_arg1) _ _ (List.forall_iff_forall_mem.mp (by never_written))
theorem V_main_arg2 (c : Dev nD) : V m c main_arg2 = m ((c : Thread nD τ).loc main_arg2) :=
  StableHlo.after_of_forall_not_mem (b := Proc.devRef .tc main_arg2) _ _ (List.forall_iff_forall_mem.mp (by never_written))
theorem V_main_arg3 (c : Dev nD) : V m c main_arg3 = m ((c : Thread nD τ).loc main_arg3) :=
  StableHlo.after_of_forall_not_mem (b := Proc.devRef .tc main_arg3) _ _ (List.forall_iff_forall_mem.mp (by never_written))
theorem V_main_arg4 (c : Dev nD) : V m c main_arg4 = m ((c : Thread nD τ).loc main_arg4) :=
  StableHlo.after_of_forall_not_mem (b := Proc.devRef .tc main_arg4) _ _ (List.forall_iff_forall_mem.mp (by never_written))
theorem V_main_arg5 (c : Dev nD) : V m c main_arg5 = m ((c : Thread nD τ).loc main_arg5) :=
  StableHlo.after_of_forall_not_mem (b := Proc.devRef .tc main_arg5) _ _ (List.forall_iff_forall_mem.mp (by never_written))
theorem V_main_arg6 (c : Dev nD) : V m c main_arg6 = m ((c : Thread nD τ).loc main_arg6) :=
  StableHlo.after_of_forall_not_mem (b := Proc.devRef .tc main_arg6) _ _ (List.forall_iff_forall_mem.mp (by never_written))
theorem V_main_arg7 (c : Dev nD) : V m c main_arg7 = m ((c : Thread nD τ).loc main_arg7) :=
  StableHlo.after_of_forall_not_mem (b := Proc.devRef .tc main_arg7) _ _ (List.forall_iff_forall_mem.mp (by never_written))
theorem V_main_arg8 (c : Dev nD) : V m c main_arg8 = m ((c : Thread nD τ).loc main_arg8) :=
  StableHlo.after_of_forall_not_mem (b := Proc.devRef .tc main_arg8) _ _ (List.forall_iff_forall_mem.mp (by never_written))
theorem V_main_arg9 (c : Dev nD) : V m c main_arg9 = m ((c : Thread nD τ).loc main_arg9) :=
  StableHlo.after_of_forall_not_mem (b := Proc.devRef .tc main_arg9) _ _ (List.forall_iff_forall_mem.mp (by never_written))
theorem V_main_arg10 (c : Dev nD) : V m c main_arg10 = m ((c : Thread nD τ).loc main_arg10) :=
  StableHlo.after_of_forall_not_mem (b := Proc.devRef .tc main_arg10) _ _ (List.forall_iff_forall_mem.mp (by never_written))
theorem V_main_arg11 (c : Dev nD) : V m c main_arg11 = m ((c : Thread nD τ).loc main_arg11) :=
  StableHlo.after_of_forall_not_mem (b := Proc.devRef .tc main_arg11) _ _ (List.forall_iff_forall_mem.mp (by never_written))
theorem V_main_arg12 (c : Dev nD) : V m c main_arg12 = m ((c : Thread nD τ).loc main_arg12) :=
  StableHlo.after_of_forall_not_mem (b := Proc.devRef .tc main_arg12) _ _ (List.forall_iff_forall_mem.mp (by never_written))
theorem V_main_arg13 (c : Dev nD) : V m c main_arg13 = m ((c : Thread nD τ).loc main_arg13) :=
  StableHlo.after_of_forall_not_mem (b := Proc.devRef .tc main_arg13) _ _ (List.forall_iff_forall_mem.mp (by never_written))
theorem V_main_arg14 (c : Dev nD) : V m c main_arg14 = m ((c : Thread nD τ).loc main_arg14) :=
  StableHlo.after_of_forall_not_mem (b := Proc.devRef .tc main_arg14) _ _ (List.forall_iff_forall_mem.mp (by never_written))
theorem V_main_arg15 (c : Dev nD) : V m c main_arg15 = m ((c : Thread nD τ).loc main_arg15) :=
  StableHlo.after_of_forall_not_mem (b := Proc.devRef .tc main_arg15) _ _ (List.forall_iff_forall_mem.mp (by never_written))
theorem V_main_arg16 (c : Dev nD) : V m c main_arg16 = m ((c : Thread nD τ).loc main_arg16) :=
  StableHlo.after_of_forall_not_mem (b := Proc.devRef .tc main_arg16) _ _ (List.forall_iff_forall_mem.mp (by never_written))
theorem V_main_arg17 (c : Dev nD) : V m c main_arg17 = m ((c : Thread nD τ).loc main_arg17) :=
  StableHlo.after_of_forall_not_mem (b := Proc.devRef .tc main_arg17) _ _ (List.forall_iff_forall_mem.mp (by never_written))
theorem V_main_arg18 (c : Dev nD) : V m c main_arg18 = m ((c : Thread nD τ).loc main_arg18) :=
  StableHlo.after_of_forall_not_mem (b := Proc.devRef .tc main_arg18) _ _ (List.forall_iff_forall_mem.mp (by never_written))
theorem V_main_arg19 (c : Dev nD) : V m c main_arg19 = m ((c : Thread nD τ).loc main_arg19) :=
  StableHlo.after_of_forall_not_mem (b := Proc.devRef .tc main_arg19) _ _ (List.forall_iff_forall_mem.mp (by never_written))
theorem V_main_arg20 (c : Dev nD) : V m c main_arg20 = m ((c : Thread nD τ).loc main_arg20) :=
  StableHlo.after_of_forall_not_mem (b := Proc.devRef .tc main_arg20) _ _ (List.forall_iff_forall_mem.mp (by never_written))
theorem V_main_arg21 (c : Dev nD) : V m c main_arg21 = m ((c : Thread nD τ).loc main_arg21) :=
  StableHlo.after_of_forall_not_mem (b := Proc.devRef .tc main_arg21) _ _ (List.forall_iff_forall_mem.mp (by never_written))
theorem V_main_arg22 (c : Dev nD) : V m c main_arg22 = m ((c : Thread nD τ).loc main_arg22) :=
  StableHlo.after_of_forall_not_mem (b := Proc.devRef .tc main_arg22) _ _ (List.forall_iff_forall_mem.mp (by never_written))
theorem V_main_arg23 (c : Dev nD) : V m c main_arg23 = m ((c : Thread nD τ).loc main_arg23) :=
  StableHlo.after_of_forall_not_mem (b := Proc.devRef .tc main_arg23) _ _ (List.forall_iff_forall_mem.mp (by never_written))
theorem V_main_arg24 (c : Dev nD) : V m c main_arg24 = m ((c : Thread nD τ).loc main_arg24) :=
  StableHlo.after_of_forall_not_mem (b := Proc.devRef .tc main_arg24) _ _ (List.forall_iff_forall_mem.mp (by never_written))
theorem V_main_arg25 (c : Dev nD) : V m c main_arg25 = m ((c : Thread nD τ).loc main_arg25) :=
  StableHlo.after_of_forall_not_mem (b := Proc.devRef .tc main_arg25) _ _ (List.forall_iff_forall_mem.mp (by never_written))
theorem V_main_arg26 (c : Dev nD) : V m c main_arg26 = m ((c : Thread nD τ).loc main_arg26) :=
  StableHlo.after_of_forall_not_mem (b := Proc.devRef .tc main_arg26) _ _ (List.forall_iff_forall_mem.mp (by never_written))
theorem V_main_arg27 (c : Dev nD) : V m c main_arg27 = m ((c : Thread nD τ).loc main_arg27) :=
  StableHlo.after_of_forall_not_mem (b := Proc.devRef .tc main_arg27) _ _ (List.forall_iff_forall_mem.mp (by never_written))
theorem V_main_arg28 (c : Dev nD) : V m c main_arg28 = m ((c : Thread nD τ).loc main_arg28) :=
  StableHlo.after_of_forall_not_mem (b := Proc.devRef .tc main_arg28) _ _ (List.forall_iff_forall_mem.mp (by never_written))
theorem V_main_arg29 (c : Dev nD) : V m c main_arg29 = m ((c : Thread nD τ).loc main_arg29) :=
  StableHlo.after_of_forall_not_mem (b := Proc.devRef .tc main_arg29) _ _ (List.forall_iff_forall_mem.mp (by never_written))
theorem V_main_arg30 (c : Dev nD) : V m c main_arg30 = m ((c : Thread nD τ).loc main_arg30) :=
  StableHlo.after_of_forall_not_mem (b := Proc.devRef .tc main_arg30) _ _ (List.forall_iff_forall_mem.mp (by never_written))
theorem V_main_arg31 (c : Dev nD) : V m c main_arg31 = m ((c : Thread nD τ).loc main_arg31) :=
  StableHlo.after_of_forall_not_mem (b := Proc.devRef .tc main_arg31) _ _ (List.forall_iff_forall_mem.mp (by never_written))
theorem V_main_arg32 (c : Dev nD) : V m c main_arg32 = m ((c : Thread nD τ).loc main_arg32) :=
  StableHlo.after_of_forall_not_mem (b := Proc.devRef .tc main_arg32) _ _ (List.forall_iff_forall_mem.mp (by never_written))
theorem V_main_arg33 (c : Dev nD) : V m c main_arg33 = m ((c : Thread nD τ).loc main_arg33) :=
  StableHlo.after_of_forall_not_mem (b := Proc.devRef .tc main_arg33) _ _ (List.forall_iff_forall_mem.mp (by never_written))
theorem V_main_arg34 (c : Dev nD) : V m c main_arg34 = m ((c : Thread nD τ).loc main_arg34) :=
  StableHlo.after_of_forall_not_mem (b := Proc.devRef .tc main_arg34) _ _ (List.forall_iff_forall_mem.mp (by never_written))

/-! ## The windows' blocks -/

/-- Window `w`'s block at point `t`: the part of its array, as the region finds it, that the point's block index
    selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

Every access of the body is to a whole staging buffer: the rectangle at the origin with the buffer's own extents.
`r0_W` is that rectangle for window `W`. -/

abbrev r0_0 : Rect S257x1024 := Rect.unit (s := S257x1024) ![0, 0] S257x1024.size inb_S257x1024_S257x1024_0_0
abbrev r0_1 : Rect S400x1024 := Rect.unit (s := S400x1024) ![0, 0] S400x1024.size inb_S400x1024_S400x1024_0_0
abbrev r0_2 : Rect S400x1024 := Rect.unit (s := S400x1024) ![0, 0] S400x1024.size inb_S400x1024_S400x1024_0_0
abbrev r0_3 : Rect S400x257 := Rect.unit (s := S400x257) ![0, 0] S400x257.size inb_S400x257_S400x257_0_0
abbrev r0_4 : Rect S400x1 := Rect.unit (s := S400x1) ![0, 0] S400x1.size inb_S400x1_S400x1_0_0
abbrev r0_5 : Rect S1200x400 := Rect.unit (s := S1200x400) ![0, 0] S1200x400.size inb_S1200x400_S1200x400_0_0
abbrev r0_6 : Rect S1200x400 := Rect.unit (s := S1200x400) ![0, 0] S1200x400.size inb_S1200x400_S1200x400_0_0
abbrev r0_7 : Rect S800x1 := Rect.unit (s := S800x1) ![0, 0] S800x1.size inb_S800x1_S800x1_0_0
abbrev r0_8 : Rect S400x1 := Rect.unit (s := S400x1) ![0, 0] S400x1.size inb_S400x1_S400x1_0_0
abbrev r0_9 : Rect S400x1 := Rect.unit (s := S400x1) ![0, 0] S400x1.size inb_S400x1_S400x1_0_0
abbrev r0_10 : Rect S1200x400 := Rect.unit (s := S1200x400) ![0, 0] S1200x400.size inb_S1200x400_S1200x400_0_0
abbrev r0_11 : Rect S1200x400 := Rect.unit (s := S1200x400) ![0, 0] S1200x400.size inb_S1200x400_S1200x400_0_0
abbrev r0_12 : Rect S800x1 := Rect.unit (s := S800x1) ![0, 0] S800x1.size inb_S800x1_S800x1_0_0
abbrev r0_13 : Rect S400x1 := Rect.unit (s := S400x1) ![0, 0] S400x1.size inb_S400x1_S400x1_0_0
abbrev r0_14 : Rect S400x1 := Rect.unit (s := S400x1) ![0, 0] S400x1.size inb_S400x1_S400x1_0_0
abbrev r0_15 : Rect S600x400 := Rect.unit (s := S600x400) ![0, 0] S600x400.size inb_S600x400_S600x400_0_0
abbrev r0_16 : Rect S600x1 := Rect.unit (s := S600x1) ![0, 0] S600x1.size inb_S600x1_S600x1_0_0
abbrev r0_17 : Rect S600x600 := Rect.unit (s := S600x600) ![0, 0] S600x600.size inb_S600x600_S600x600_0_0
abbrev r0_18 : Rect S600x1 := Rect.unit (s := S600x1) ![0, 0] S600x1.size inb_S600x1_S600x1_0_0
abbrev r0_19 : Rect S257x600 := Rect.unit (s := S257x600) ![0, 0] S257x600.size inb_S257x600_S257x600_0_0
abbrev r0_20 : Rect S257x1 := Rect.unit (s := S257x1) ![0, 0] S257x1.size inb_S257x1_S257x1_0_0
abbrev r0_21 : Rect S257x1024 := Rect.unit (s := S257x1024) ![0, 0] S257x1024.size inb_S257x1024_S257x1024_0_0

/-! ## What the body leaves in the output buffer -/

/-- The output block as a function of the 21 input blocks: the body's single store, of the last payload applied to
    what the three parts read and compute, laid over the whole buffer. -/
def out0_21 (x0 : Vec F S257x1024 .f32) (x1 : Vec F S400x1024 .f32) (x2 : Vec F S400x1024 .f32) (x3 : Vec F S400x257 .bf16) (x4 : Vec F S400x1 .f32) (x5 : Vec F S1200x400 .bf16) (x6 : Vec F S1200x400 .bf16) (x7 : Vec F S800x1 .f32) (x8 : Vec F S400x1 .f32) (x9 : Vec F S400x1 .f32) (x10 : Vec F S1200x400 .bf16) (x11 : Vec F S1200x400 .bf16) (x12 : Vec F S800x1 .f32) (x13 : Vec F S400x1 .f32) (x14 : Vec F S400x1 .f32) (x15 : Vec F S600x400 .bf16) (x16 : Vec F S600x1 .f32) (x17 : Vec F S600x600 .bf16) (x18 : Vec F S600x1 .f32) (x19 : Vec F S257x600 .bf16) (x20 : Vec F S257x1 .f32) : Vec F S257x1024 .f32 :=
  View.canon [⟨r0_21,
      k0_pay21 (View.ld x2 r0_2) (k0_pay13 (View.ld x13 r0_13)) (k0_pay14 (View.ld x14 r0_14))
        (k0_pay17
          (View.ld x1 r0_1)
          (k0_pay2 (View.ld x8 r0_8))
          (k0_pay3 (View.ld x9 r0_9))
          (k0_pay6 (View.ld x0 r0_0) (View.ld x3 r0_3) (View.ld x4 r0_4) (View.ld x5 r0_5))
          (k0_pay7 (View.ld x0 r0_0) (View.ld x3 r0_3) (View.ld x4 r0_4) (View.ld x5 r0_5))
          (k0_pay8 (View.ld x1 r0_1) (View.ld x6 r0_6))
          (k0_pay9 (View.ld x1 r0_1) (View.ld x6 r0_6))
          (k0_pay10 (View.ld x7 r0_7))
          (k0_pay11 (View.ld x0 r0_0) (View.ld x1 r0_1) (View.ld x3 r0_3) (View.ld x4 r0_4) (View.ld x5 r0_5) (View.ld x6 r0_6) (View.ld x7 r0_7))
          (View.ld x10 r0_10))
        (k0_pay18 (View.ld x2 r0_2) (View.ld x11 r0_11))
        (k0_pay19
          (View.ld x1 r0_1)
          (View.ld x2 r0_2)
          (k0_pay2 (View.ld x8 r0_8))
          (k0_pay3 (View.ld x9 r0_9))
          (k0_pay6 (View.ld x0 r0_0) (View.ld x3 r0_3) (View.ld x4 r0_4) (View.ld x5 r0_5))
          (k0_pay7 (View.ld x0 r0_0) (View.ld x3 r0_3) (View.ld x4 r0_4) (View.ld x5 r0_5))
          (k0_pay8 (View.ld x1 r0_1) (View.ld x6 r0_6))
          (k0_pay9 (View.ld x1 r0_1) (View.ld x6 r0_6))
          (k0_pay10 (View.ld x7 r0_7))
          (k0_pay11 (View.ld x0 r0_0) (View.ld x1 r0_1) (View.ld x3 r0_3) (View.ld x4 r0_4) (View.ld x5 r0_5) (View.ld x6 r0_6) (View.ld x7 r0_7))
          (View.ld x10 r0_10)
          (View.ld x11 r0_11)
          (View.ld x12 r0_12))
        (k0_pay20
          (View.ld x1 r0_1)
          (View.ld x2 r0_2)
          (k0_pay2 (View.ld x8 r0_8))
          (k0_pay3 (View.ld x9 r0_9))
          (k0_pay6 (View.ld x0 r0_0) (View.ld x3 r0_3) (View.ld x4 r0_4) (View.ld x5 r0_5))
          (k0_pay7 (View.ld x0 r0_0) (View.ld x3 r0_3) (View.ld x4 r0_4) (View.ld x5 r0_5))
          (k0_pay8 (View.ld x1 r0_1) (View.ld x6 r0_6))
          (k0_pay9 (View.ld x1 r0_1) (View.ld x6 r0_6))
          (k0_pay10 (View.ld x7 r0_7))
          (k0_pay11 (View.ld x0 r0_0) (View.ld x1 r0_1) (View.ld x3 r0_3) (View.ld x4 r0_4) (View.ld x5 r0_5) (View.ld x6 r0_6) (View.ld x7 r0_7))
          (View.ld x10 r0_10)
          (View.ld x11 r0_11)
          (View.ld x12 r0_12))
        (View.ld x15 r0_15) (View.ld x16 r0_16) (View.ld x17 r0_17) (View.ld x18 r0_18) (View.ld x19 r0_19) (View.ld x20 r0_20)⟩]

/-- The one store is of the whole buffer, so every index of the buffer lies in it. -/
theorem cover0_21 (p0 : Vec F S257x1024 .f32) (y : S257x1024.Idx) :
    ∃ pc ∈ ([⟨r0_21, p0⟩] : List (View.Piece (Elt F) S257x1024 .f32)), y ∈ pc.1.set :=
  View.cover_of_tiled [⟨r0_21, p0⟩] S257x1024.size (by rfl) y

/-! ## The body's triple -/

set_option maxHeartbeats 4000000 in
/-- The body, run on whole staging buffers with the inputs' at contents `xW` and the output's at anything, reaches
    its continuation with every input buffer as it was and the output buffer at `out0_21` of the inputs: the
    three parts only load, the last statements load the output buffer (the value is dropped) and store the whole
    block once, and a store that covers the buffer leaves exactly the stored value. -/
theorem sound_kernel (c : Dev nD) (E : Set ℕ) (i : grid0.Coords) (arg1 : Memref sig .tc .vmem S257x1024 .f32) (harg1 : arg1.IsWhole) (arg2 : Memref sig .tc .vmem S400x1024 .f32) (harg2 : arg2.IsWhole) (arg3 : Memref sig .tc .vmem S400x1024 .f32) (harg3 : arg3.IsWhole) (arg4 : Memref sig .tc .vmem S400x257 .bf16) (harg4 : arg4.IsWhole) (arg5 : Memref sig .tc .vmem S400x1 .f32) (harg5 : arg5.IsWhole) (arg6 : Memref sig .tc .vmem S1200x400 .bf16) (harg6 : arg6.IsWhole) (arg7 : Memref sig .tc .vmem S1200x400 .bf16) (harg7 : arg7.IsWhole) (arg8 : Memref sig .tc .vmem S800x1 .f32) (harg8 : arg8.IsWhole) (arg9 : Memref sig .tc .vmem S400x1 .f32) (harg9 : arg9.IsWhole) (arg10 : Memref sig .tc .vmem S400x1 .f32) (harg10 : arg10.IsWhole) (arg11 : Memref sig .tc .vmem S1200x400 .bf16) (harg11 : arg11.IsWhole) (arg12 : Memref sig .tc .vmem S1200x400 .bf16) (harg12 : arg12.IsWhole) (arg13 : Memref sig .tc .vmem S800x1 .f32) (harg13 : arg13.IsWhole) (arg14 : Memref sig .tc .vmem S400x1 .f32) (harg14 : arg14.IsWhole) (arg15 : Memref sig .tc .vmem S400x1 .f32) (harg15 : arg15.IsWhole) (arg16 : Memref sig .tc .vmem S600x400 .bf16) (harg16 : arg16.IsWhole) (arg17 : Memref sig .tc .vmem S600x1 .f32) (harg17 : arg17.IsWhole) (arg18 : Memref sig .tc .vmem S600x600 .bf16) (harg18 : arg18.IsWhole) (arg19 : Memref sig .tc .vmem S600x1 .f32) (harg19 : arg19.IsWhole) (arg20 : Memref sig .tc .vmem S257x600 .bf16) (harg20 : arg20.IsWhole) (arg21 : Memref sig .tc .vmem S257x1 .f32) (harg21 : arg21.IsWhole) (arg22 : Memref sig .tc .vmem S257x1024 .f32) (harg22 : arg22.IsWhole)
    (x0 : Vec F S257x1024 .f32) (x1 : Vec F S400x1024 .f32) (x2 : Vec F S400x1024 .f32) (x3 : Vec F S400x257 .bf16) (x4 : Vec F S400x1 .f32) (x5 : Vec F S1200x400 .bf16) (x6 : Vec F S1200x400 .bf16) (x7 : Vec F S800x1 .f32) (x8 : Vec F S400x1 .f32) (x9 : Vec F S400x1 .f32) (x10 : Vec F S1200x400 .bf16) (x11 : Vec F S1200x400 .bf16) (x12 : Vec F S800x1 .f32) (x13 : Vec F S400x1 .f32) (x14 : Vec F S400x1 .f32) (x15 : Vec F S600x400 .bf16) (x16 : Vec F S600x1 .f32) (x17 : Vec F S600x600 .bf16) (x18 : Vec F S600x1 .f32) (x19 : Vec F S257x600 .bf16) (x20 : Vec F S257x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  try dsimp only
  exact View.read_writes_eq_canon _ _ _ (cover0_21 _)

/-! ## The region's proof data -/

/-- On core `c`: every window's array is what the region finds (`V`); after the body at point `t` an input's
    buffer still holds its block and the output's holds `out0_21` of the input blocks; the invariant is the scoped
    rest and the generator register, which the body does not touch; nothing is owed; all shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-! An input's current staging buffer holds its block at every point, fetched there or not: where it is not fetched
    its block index has not moved since the previous point, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans
    (by unfold Dat.fetched Dat.blockOf iblk; rw [A_eq]; try rfl)

/-! ## The body obligation -/

/-- What the body is handed at point `t`: the invariant, what is owed, and every window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

set_option maxHeartbeats 1000000 in
/-- At any point the inputs' buffers hold their blocks, so the body's triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body's obligation to the pipeline, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, and
    ends with every window's array at what the proof data computes (an input's: its entry contents) and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends, faultless, with each of the 35 argument arrays as launched. Arguments 0, 1, 2
    are input windows' arrays, which end at their entry contents; the other 32 are staged by no window, so they end
    as the region found them; and the region finds every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c),
      ((h c).2 main_arg34 (Pipeline.mem_restRefs_of main_arg34 (by decide) (by decide))).trans (V_main_arg34 m c)⟩) (run_main m ρ)

end Cert.Kernel.Frm

end
-- ==== Proof.FrameKernelIdeal.lean ====
import proofs.«149461_j42760694399258_2_alg».proof.Proof.Gen.KernelIdeal.Launch
import proofs.«149461_j42760694399258_2_alg».proof.Proof.Gen.KernelIdeal.Skeleton
import proofs.«149461_j42760694399258_2_alg».proof.Proof.Gen.KernelIdeal.Points
import Idealize.ShloMosaic.Lib.Pipeline.FrameBody
import Idealize.ShloMosaic.Lib.Ring
import Idealize.ShloMosaic.Lib.Tactic

/-! # The frame of `KernelIdeal`

The program is a stretch of host operations followed by one grid region of 16 points over 22 windows. Windows
0, 1, 2 stage the argument arrays 0, 1, 2; windows 3 … 20 stage results of the host stretch; window 21 is the one
output. At every point the body reads each input window whole, and overwrites the whole output block with a value
that depends on the input blocks alone. Hence: every execution ends without a fault, the three staged arguments are
only ever read, and the other 32 arguments are touched by nothing after launch. -/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch contents pushed through the 28 host
    operations, in order. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is the host stretch and then the region, and the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes its own result buffer and nothing else, and no result buffer is an argument: so
    for an argument `b`, no operation of the stretch has `b` among the buffers it writes. -/
local macro "never_written" : tactic => `(tactic| (
  simp only [hostOps0, List.flatten_cons, List.flatten_nil, List.append_nil, List.cons_append, List.nil_append,
    List.Forall, StableHlo.unary_writes, StableHlo.binary_writes, StableHlo.nary_writes, StableHlo.reshape_writes,
    Finset.mem_singleton]
  repeat' apply And.intro
  all_goals exact StableHlo.devRef_ne_of_ne (by decide)))

/-! Each argument array reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by never_written))
theorem V_main_arg1 (c : Dev nD) : V m c main_arg1 = m ((c : Thread nD τ).loc main_arg1) :=
  StableHlo.after_of_forall_not_mem (b := Proc.devRef .tc main_arg1) _ _ (List.forall_iff_forall_mem.mp (by never_written))
theorem V_main_arg2 (c : Dev nD) : V m c main_arg2 = m ((c : Thread nD τ).loc main_arg2) :=
  StableHlo.after_of_forall_not_mem (b := Proc.devRef .tc main_arg2) _ _ (List.forall_iff_forall_mem.mp (by never_written))
theorem V_main_arg3 (c : Dev nD) : V m c main_arg3 = m ((c : Thread nD τ).loc main_arg3) :=
  StableHlo.after_of_forall_not_mem (b := Proc.devRef .tc main_arg3) _ _ (List.forall_iff_forall_mem.mp (by never_written))
theorem V_main_arg4 (c : Dev nD) : V m c main_arg4 = m ((c : Thread nD τ).loc main_arg4) :=
  StableHlo.after_of_forall_not_mem (b := Proc.devRef .tc main_arg4) _ _ (List.forall_iff_forall_mem.mp (by never_written))
theorem V_main_arg5 (c : Dev nD) : V m c main_arg5 = m ((c : Thread nD τ).loc main_arg5) :=
  StableHlo.after_of_forall_not_mem (b := Proc.devRef .tc main_arg5) _ _ (List.forall_iff_forall_mem.mp (by never_written))
theorem V_main_arg6 (c : Dev nD) : V m c main_arg6 = m ((c : Thread nD τ).loc main_arg6) :=
  StableHlo.after_of_forall_not_mem (b := Proc.devRef .tc main_arg6) _ _ (List.forall_iff_forall_mem.mp (by never_written))
theorem V_main_arg7 (c : Dev nD) : V m c main_arg7 = m ((c : Thread nD τ).loc main_arg7) :=
  StableHlo.after_of_forall_not_mem (b := Proc.devRef .tc main_arg7) _ _ (List.forall_iff_forall_mem.mp (by never_written))
theorem V_main_arg8 (c : Dev nD) : V m c main_arg8 = m ((c : Thread nD τ).loc main_arg8) :=
  StableHlo.after_of_forall_not_mem (b := Proc.devRef .tc main_arg8) _ _ (List.forall_iff_forall_mem.mp (by never_written))
theorem V_main_arg9 (c : Dev nD) : V m c main_arg9 = m ((c : Thread nD τ).loc main_arg9) :=
  StableHlo.after_of_forall_not_mem (b := Proc.devRef .tc main_arg9) _ _ (List.forall_iff_forall_mem.mp (by never_written))
theorem V_main_arg10 (c : Dev nD) : V m c main_arg10 = m ((c : Thread nD τ).loc main_arg10) :=
  StableHlo.after_of_forall_not_mem (b := Proc.devRef .tc main_arg10) _ _ (List.forall_iff_forall_mem.mp (by never_written))
theorem V_main_arg11 (c : Dev nD) : V m c main_arg11 = m ((c : Thread nD τ).loc main_arg11) :=
  StableHlo.after_of_forall_not_mem (b := Proc.devRef .tc main_arg11) _ _ (List.forall_iff_forall_mem.mp (by never_written))
theorem V_main_arg12 (c : Dev nD) : V m c main_arg12 = m ((c : Thread nD τ).loc main_arg12) :=
  StableHlo.after_of_forall_not_mem (b := Proc.devRef .tc main_arg12) _ _ (List.forall_iff_forall_mem.mp (by never_written))
theorem V_main_arg13 (c : Dev nD) : V m c main_arg13 = m ((c : Thread nD τ).loc main_arg13) :=
  StableHlo.after_of_forall_not_mem (b := Proc.devRef .tc main_arg13) _ _ (List.forall_iff_forall_mem.mp (by never_written))
theorem V_main_arg14 (c : Dev nD) : V m c main_arg14 = m ((c : Thread nD τ).loc main_arg14) :=
  StableHlo.after_of_forall_not_mem (b := Proc.devRef .tc main_arg14) _ _ (List.forall_iff_forall_mem.mp (by never_written))
theorem V_main_arg15 (c : Dev nD) : V m c main_arg15 = m ((c : Thread nD τ).loc main_arg15) :=
  StableHlo.after_of_forall_not_mem (b := Proc.devRef .tc main_arg15) _ _ (List.forall_iff_forall_mem.mp (by never_written))
theorem V_main_arg16 (c : Dev nD) : V m c main_arg16 = m ((c : Thread nD τ).loc main_arg16) :=
  StableHlo.after_of_forall_not_mem (b := Proc.devRef .tc main_arg16) _ _ (List.forall_iff_forall_mem.mp (by never_written))
theorem V_main_arg17 (c : Dev nD) : V m c main_arg17 = m ((c : Thread nD τ).loc main_arg17) :=
  StableHlo.after_of_forall_not_mem (b := Proc.devRef .tc main_arg17) _ _ (List.forall_iff_forall_mem.mp (by never_written))
theorem V_main_arg18 (c : Dev nD) : V m c main_arg18 = m ((c : Thread nD τ).loc main_arg18) :=
  StableHlo.after_of_forall_not_mem (b := Proc.devRef .tc main_arg18) _ _ (List.forall_iff_forall_mem.mp (by never_written))
theorem V_main_arg19 (c : Dev nD) : V m c main_arg19 = m ((c : Thread nD τ).loc main_arg19) :=
  StableHlo.after_of_forall_not_mem (b := Proc.devRef .tc main_arg19) _ _ (List.forall_iff_forall_mem.mp (by never_written))
theorem V_main_arg20 (c : Dev nD) : V m c main_arg20 = m ((c : Thread nD τ).loc main_arg20) :=
  StableHlo.after_of_forall_not_mem (b := Proc.devRef .tc main_arg20) _ _ (List.forall_iff_forall_mem.mp (by never_written))
theorem V_main_arg21 (c : Dev nD) : V m c main_arg21 = m ((c : Thread nD τ).loc main_arg21) :=
  StableHlo.after_of_forall_not_mem (b := Proc.devRef .tc main_arg21) _ _ (List.forall_iff_forall_mem.mp (by never_written))
theorem V_main_arg22 (c : Dev nD) : V m c main_arg22 = m ((c : Thread nD τ).loc main_arg22) :=
  StableHlo.after_of_forall_not_mem (b := Proc.devRef .tc main_arg22) _ _ (List.forall_iff_forall_mem.mp (by never_written))
theorem V_main_arg23 (c : Dev nD) : V m c main_arg23 = m ((c : Thread nD τ).loc main_arg23) :=
  StableHlo.after_of_forall_not_mem (b := Proc.devRef .tc main_arg23) _ _ (List.forall_iff_forall_mem.mp (by never_written))
theorem V_main_arg24 (c : Dev nD) : V m c main_arg24 = m ((c : Thread nD τ).loc main_arg24) :=
  StableHlo.after_of_forall_not_mem (b := Proc.devRef .tc main_arg24) _ _ (List.forall_iff_forall_mem.mp (by never_written))
theorem V_main_arg25 (c : Dev nD) : V m c main_arg25 = m ((c : Thread nD τ).loc main_arg25) :=
  StableHlo.after_of_forall_not_mem (b := Proc.devRef .tc main_arg25) _ _ (List.forall_iff_forall_mem.mp (by never_written))
theorem V_main_arg26 (c : Dev nD) : V m c main_arg26 = m ((c : Thread nD τ).loc main_arg26) :=
  StableHlo.after_of_forall_not_mem (b := Proc.devRef .tc main_arg26) _ _ (List.forall_iff_forall_mem.mp (by never_written))
theorem V_main_arg27 (c : Dev nD) : V m c main_arg27 = m ((c : Thread nD τ).loc main_arg27) :=
  StableHlo.after_of_forall_not_mem (b := Proc.devRef .tc main_arg27) _ _ (List.forall_iff_forall_mem.mp (by never_written))
theorem V_main_arg28 (c : Dev nD) : V m c main_arg28 = m ((c : Thread nD τ).loc main_arg28) :=
  StableHlo.after_of_forall_not_mem (b := Proc.devRef .tc main_arg28) _ _ (List.forall_iff_forall_mem.mp (by never_written))
theorem V_main_arg29 (c : Dev nD) : V m c main_arg29 = m ((c : Thread nD τ).loc main_arg29) :=
  StableHlo.after_of_forall_not_mem (b := Proc.devRef .tc main_arg29) _ _ (List.forall_iff_forall_mem.mp (by never_written))
theorem V_main_arg30 (c : Dev nD) : V m c main_arg30 = m ((c : Thread nD τ).loc main_arg30) :=
  StableHlo.after_of_forall_not_mem (b := Proc.devRef .tc main_arg30) _ _ (List.forall_iff_forall_mem.mp (by never_written))
theorem V_main_arg31 (c : Dev nD) : V m c main_arg31 = m ((c : Thread nD τ).loc main_arg31) :=
  StableHlo.after_of_forall_not_mem (b := Proc.devRef .tc main_arg31) _ _ (List.forall_iff_forall_mem.mp (by never_written))
theorem V_main_arg32 (c : Dev nD) : V m c main_arg32 = m ((c : Thread nD τ).loc main_arg32) :=
  StableHlo.after_of_forall_not_mem (b := Proc.devRef .tc main_arg32) _ _ (List.forall_iff_forall_mem.mp (by never_written))
theorem V_main_arg33 (c : Dev nD) : V m c main_arg33 = m ((c : Thread nD τ).loc main_arg33) :=
  StableHlo.after_of_forall_not_mem (b := Proc.devRef .tc main_arg33) _ _ (List.forall_iff_forall_mem.mp (by never_written))
theorem V_main_arg34 (c : Dev nD) : V m c main_arg34 = m ((c : Thread nD τ).loc main_arg34) :=
  StableHlo.after_of_forall_not_mem (b := Proc.devRef .tc main_arg34) _ _ (List.forall_iff_forall_mem.mp (by never_written))

/-! ## The windows' blocks -/

/-- Window `w`'s block at point `t`: the part of its array, as the region finds it, that the point's block index
    selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

Every access of the body is to a whole staging buffer: the rectangle at the origin with the buffer's own extents.
`r0_W` is that rectangle for window `W`. -/

abbrev r0_0 : Rect S257x1024 := Rect.unit (s := S257x1024) ![0, 0] S257x1024.size inb_S257x1024_S257x1024_0_0
abbrev r0_1 : Rect S400x1024 := Rect.unit (s := S400x1024) ![0, 0] S400x1024.size inb_S400x1024_S400x1024_0_0
abbrev r0_2 : Rect S400x1024 := Rect.unit (s := S400x1024) ![0, 0] S400x1024.size inb_S400x1024_S400x1024_0_0
abbrev r0_3 : Rect S400x257 := Rect.unit (s := S400x257) ![0, 0] S400x257.size inb_S400x257_S400x257_0_0
abbrev r0_4 : Rect S400x1 := Rect.unit (s := S400x1) ![0, 0] S400x1.size inb_S400x1_S400x1_0_0
abbrev r0_5 : Rect S1200x400 := Rect.unit (s := S1200x400) ![0, 0] S1200x400.size inb_S1200x400_S1200x400_0_0
abbrev r0_6 : Rect S1200x400 := Rect.unit (s := S1200x400) ![0, 0] S1200x400.size inb_S1200x400_S1200x400_0_0
abbrev r0_7 : Rect S800x1 := Rect.unit (s := S800x1) ![0, 0] S800x1.size inb_S800x1_S800x1_0_0
abbrev r0_8 : Rect S400x1 := Rect.unit (s := S400x1) ![0, 0] S400x1.size inb_S400x1_S400x1_0_0
abbrev r0_9 : Rect S400x1 := Rect.unit (s := S400x1) ![0, 0] S400x1.size inb_S400x1_S400x1_0_0
abbrev r0_10 : Rect S1200x400 := Rect.unit (s := S1200x400) ![0, 0] S1200x400.size inb_S1200x400_S1200x400_0_0
abbrev r0_11 : Rect S1200x400 := Rect.unit (s := S1200x400) ![0, 0] S1200x400.size inb_S1200x400_S1200x400_0_0
abbrev r0_12 : Rect S800x1 := Rect.unit (s := S800x1) ![0, 0] S800x1.size inb_S800x1_S800x1_0_0
abbrev r0_13 : Rect S400x1 := Rect.unit (s := S400x1) ![0, 0] S400x1.size inb_S400x1_S400x1_0_0
abbrev r0_14 : Rect S400x1 := Rect.unit (s := S400x1) ![0, 0] S400x1.size inb_S400x1_S400x1_0_0
abbrev r0_15 : Rect S600x400 := Rect.unit (s := S600x400) ![0, 0] S600x400.size inb_S600x400_S600x400_0_0
abbrev r0_16 : Rect S600x1 := Rect.unit (s := S600x1) ![0, 0] S600x1.size inb_S600x1_S600x1_0_0
abbrev r0_17 : Rect S600x600 := Rect.unit (s := S600x600) ![0, 0] S600x600.size inb_S600x600_S600x600_0_0
abbrev r0_18 : Rect S600x1 := Rect.unit (s := S600x1) ![0, 0] S600x1.size inb_S600x1_S600x1_0_0
abbrev r0_19 : Rect S257x600 := Rect.unit (s := S257x600) ![0, 0] S257x600.size inb_S257x600_S257x600_0_0
abbrev r0_20 : Rect S257x1 := Rect.unit (s := S257x1) ![0, 0] S257x1.size inb_S257x1_S257x1_0_0
abbrev r0_21 : Rect S257x1024 := Rect.unit (s := S257x1024) ![0, 0] S257x1024.size inb_S257x1024_S257x1024_0_0

/-! ## What the body leaves in the output buffer -/

/-- The output block as a function of the 21 input blocks: the body's single store, of the last payload applied to
    what the three parts read and compute, laid over the whole buffer. -/
def out0_21 (x0 : Vec F S257x1024 .f32) (x1 : Vec F S400x1024 .f32) (x2 : Vec F S400x1024 .f32) (x3 : Vec F S400x257 .bf16) (x4 : Vec F S400x1 .f32) (x5 : Vec F S1200x400 .bf16) (x6 : Vec F S1200x400 .bf16) (x7 : Vec F S800x1 .f32) (x8 : Vec F S400x1 .f32) (x9 : Vec F S400x1 .f32) (x10 : Vec F S1200x400 .bf16) (x11 : Vec F S1200x400 .bf16) (x12 : Vec F S800x1 .f32) (x13 : Vec F S400x1 .f32) (x14 : Vec F S400x1 .f32) (x15 : Vec F S600x400 .bf16) (x16 : Vec F S600x1 .f32) (x17 : Vec F S600x600 .bf16) (x18 : Vec F S600x1 .f32) (x19 : Vec F S257x600 .bf16) (x20 : Vec F S257x1 .f32) : Vec F S257x1024 .f32 :=
  View.canon [⟨r0_21,
      k0_pay21 (View.ld x2 r0_2) (k0_pay13 (View.ld x13 r0_13)) (k0_pay14 (View.ld x14 r0_14))
        (k0_pay17
          (View.ld x1 r0_1)
          (k0_pay2 (View.ld x8 r0_8))
          (k0_pay3 (View.ld x9 r0_9))
          (k0_pay6 (View.ld x0 r0_0) (View.ld x3 r0_3) (View.ld x4 r0_4) (View.ld x5 r0_5))
          (k0_pay7 (View.ld x0 r0_0) (View.ld x3 r0_3) (View.ld x4 r0_4) (View.ld x5 r0_5))
          (k0_pay8 (View.ld x1 r0_1) (View.ld x6 r0_6))
          (k0_pay9 (View.ld x1 r0_1) (View.ld x6 r0_6))
          (k0_pay10 (View.ld x7 r0_7))
          (k0_pay11 (View.ld x0 r0_0) (View.ld x1 r0_1) (View.ld x3 r0_3) (View.ld x4 r0_4) (View.ld x5 r0_5) (View.ld x6 r0_6) (View.ld x7 r0_7))
          (View.ld x10 r0_10))
        (k0_pay18 (View.ld x2 r0_2) (View.ld x11 r0_11))
        (k0_pay19
          (View.ld x1 r0_1)
          (View.ld x2 r0_2)
          (k0_pay2 (View.ld x8 r0_8))
          (k0_pay3 (View.ld x9 r0_9))
          (k0_pay6 (View.ld x0 r0_0) (View.ld x3 r0_3) (View.ld x4 r0_4) (View.ld x5 r0_5))
          (k0_pay7 (View.ld x0 r0_0) (View.ld x3 r0_3) (View.ld x4 r0_4) (View.ld x5 r0_5))
          (k0_pay8 (View.ld x1 r0_1) (View.ld x6 r0_6))
          (k0_pay9 (View.ld x1 r0_1) (View.ld x6 r0_6))
          (k0_pay10 (View.ld x7 r0_7))
          (k0_pay11 (View.ld x0 r0_0) (View.ld x1 r0_1) (View.ld x3 r0_3) (View.ld x4 r0_4) (View.ld x5 r0_5) (View.ld x6 r0_6) (View.ld x7 r0_7))
          (View.ld x10 r0_10)
          (View.ld x11 r0_11)
          (View.ld x12 r0_12))
        (k0_pay20
          (View.ld x1 r0_1)
          (View.ld x2 r0_2)
          (k0_pay2 (View.ld x8 r0_8))
          (k0_pay3 (View.ld x9 r0_9))
          (k0_pay6 (View.ld x0 r0_0) (View.ld x3 r0_3) (View.ld x4 r0_4) (View.ld x5 r0_5))
          (k0_pay7 (View.ld x0 r0_0) (View.ld x3 r0_3) (View.ld x4 r0_4) (View.ld x5 r0_5))
          (k0_pay8 (View.ld x1 r0_1) (View.ld x6 r0_6))
          (k0_pay9 (View.ld x1 r0_1) (View.ld x6 r0_6))
          (k0_pay10 (View.ld x7 r0_7))
          (k0_pay11 (View.ld x0 r0_0) (View.ld x1 r0_1) (View.ld x3 r0_3) (View.ld x4 r0_4) (View.ld x5 r0_5) (View.ld x6 r0_6) (View.ld x7 r0_7))
          (View.ld x10 r0_10)
          (View.ld x11 r0_11)
          (View.ld x12 r0_12))
        (View.ld x15 r0_15) (View.ld x16 r0_16) (View.ld x17 r0_17) (View.ld x18 r0_18) (View.ld x19 r0_19) (View.ld x20 r0_20)⟩]

/-- The one store is of the whole buffer, so every index of the buffer lies in it. -/
theorem cover0_21 (p0 : Vec F S257x1024 .f32) (y : S257x1024.Idx) :
    ∃ pc ∈ ([⟨r0_21, p0⟩] : List (View.Piece (Elt F) S257x1024 .f32)), y ∈ pc.1.set :=
  View.cover_of_tiled [⟨r0_21, p0⟩] S257x1024.size (by rfl) y

/-! ## The body's triple -/

set_option maxHeartbeats 4000000 in
/-- The body, run on whole staging buffers with the inputs' at contents `xW` and the output's at anything, reaches
    its continuation with every input buffer as it was and the output buffer at `out0_21` of the inputs: the
    three parts only load, the last statements load the output buffer (the value is dropped) and store the whole
    block once, and a store that covers the buffer leaves exactly the stored value. -/
theorem sound_kernel (c : Dev nD) (E : Set ℕ) (i : grid0.Coords) (arg1 : Memref sig .tc .vmem S257x1024 .f32) (harg1 : arg1.IsWhole) (arg2 : Memref sig .tc .vmem S400x1024 .f32) (harg2 : arg2.IsWhole) (arg3 : Memref sig .tc .vmem S400x1024 .f32) (harg3 : arg3.IsWhole) (arg4 : Memref sig .tc .vmem S400x257 .bf16) (harg4 : arg4.IsWhole) (arg5 : Memref sig .tc .vmem S400x1 .f32) (harg5 : arg5.IsWhole) (arg6 : Memref sig .tc .vmem S1200x400 .bf16) (harg6 : arg6.IsWhole) (arg7 : Memref sig .tc .vmem S1200x400 .bf16) (harg7 : arg7.IsWhole) (arg8 : Memref sig .tc .vmem S800x1 .f32) (harg8 : arg8.IsWhole) (arg9 : Memref sig .tc .vmem S400x1 .f32) (harg9 : arg9.IsWhole) (arg10 : Memref sig .tc .vmem S400x1 .f32) (harg10 : arg10.IsWhole) (arg11 : Memref sig .tc .vmem S1200x400 .bf16) (harg11 : arg11.IsWhole) (arg12 : Memref sig .tc .vmem S1200x400 .bf16) (harg12 : arg12.IsWhole) (arg13 : Memref sig .tc .vmem S800x1 .f32) (harg13 : arg13.IsWhole) (arg14 : Memref sig .tc .vmem S400x1 .f32) (harg14 : arg14.IsWhole) (arg15 : Memref sig .tc .vmem S400x1 .f32) (harg15 : arg15.IsWhole) (arg16 : Memref sig .tc .vmem S600x400 .bf16) (harg16 : arg16.IsWhole) (arg17 : Memref sig .tc .vmem S600x1 .f32) (harg17 : arg17.IsWhole) (arg18 : Memref sig .tc .vmem S600x600 .bf16) (harg18 : arg18.IsWhole) (arg19 : Memref sig .tc .vmem S600x1 .f32) (harg19 : arg19.IsWhole) (arg20 : Memref sig .tc .vmem S257x600 .bf16) (harg20 : arg20.IsWhole) (arg21 : Memref sig .tc .vmem S257x1 .f32) (harg21 : arg21.IsWhole) (arg22 : Memref sig .tc .vmem S257x1024 .f32) (harg22 : arg22.IsWhole)
    (x0 : Vec F S257x1024 .f32) (x1 : Vec F S400x1024 .f32) (x2 : Vec F S400x1024 .f32) (x3 : Vec F S400x257 .bf16) (x4 : Vec F S400x1 .f32) (x5 : Vec F S1200x400 .bf16) (x6 : Vec F S1200x400 .bf16) (x7 : Vec F S800x1 .f32) (x8 : Vec F S400x1 .f32) (x9 : Vec F S400x1 .f32) (x10 : Vec F S1200x400 .bf16) (x11 : Vec F S1200x400 .bf16) (x12 : Vec F S800x1 .f32) (x13 : Vec F S400x1 .f32) (x14 : Vec F S400x1 .f32) (x15 : Vec F S600x400 .bf16) (x16 : Vec F S600x1 .f32) (x17 : Vec F S600x600 .bf16) (x18 : Vec F S600x1 .f32) (x19 : Vec F S257x600 .bf16) (x20 : Vec F S257x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  try dsimp only
  exact View.read_writes_eq_canon _ _ _ (cover0_21 _)

/-! ## The region's proof data -/

/-- On core `c`: every window's array is what the region finds (`V`); after the body at point `t` an input's
    buffer still holds its block and the output's holds `out0_21` of the input blocks; the invariant is the scoped
    rest and the generator register, which the body does not touch; nothing is owed; all shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-! An input's current staging buffer holds its block at every point, fetched there or not: where it is not fetched
    its block index has not moved since the previous point, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans
    (by unfold Dat.fetched Dat.blockOf iblk; rw [A_eq]; try rfl)

/-! ## The body obligation -/

/-- What the body is handed at point `t`: the invariant, what is owed, and every window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

set_option maxHeartbeats 1000000 in
/-- At any point the inputs' buffers hold their blocks, so the body's triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body's obligation to the pipeline, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, and
    ends with every window's array at what the proof data computes (an input's: its entry contents) and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends, faultless, with each of the 35 argument arrays as launched. Arguments 0, 1, 2
    are input windows' arrays, which end at their entry contents; the other 32 are staged by no window, so they end
    as the region found them; and the region finds every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c),
      ((h c).2 main_arg34 (Pipeline.mem_restRefs_of main_arg34 (by decide) (by decide))).trans (V_main_arg34 m c)⟩) (run_main m ρ)

end Cert.KernelIdeal.Frm

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Spec.lean ====
/-
  The network both programs compute, written once over plain index functions.

  A batch of B columns runs through: a dense layer 257 → 400, two GRU cells of width 400 (each with its own carried
  state), two dense layers with a ramp (400 → 600 → 600) and a dense layer 600 → 257 under the logistic function.
  Every layer acts on each column separately: entry (p, q) of a layer's result depends on column q of its operands
  only. A matrix is a function of a row and a column, a bias a function of a row; the extended reals carry the
  arithmetic, and the float literals 1.0 and 0.0 stay the binary words both programs print.
-/
import Idealize.ShloMosaic.PureOps.Ideal
import Idealize.ShloMosaic.Lib.ValueIdx
import Idealize.ShloMosaic.Lib.IdealHost

noncomputable section

open scoped BigOperators

namespace Cert.GruNet

open Idealize.ShloMosaic Idealize.ShloMosaic.ValueIdx

/-- A rank-2 array as a function of its row and its column. -/
def M {a b : ℕ} (x : (⟨2, ![a, b]⟩ : Shape).Idx → EReal) : Fin a → Fin b → EReal := fun p q => x (ix2 p q)
/-- A rank-1 array as a function of its position. -/
def Cv {a : ℕ} (x : (⟨1, ![a]⟩ : Shape).Idx → EReal) : Fin a → EReal := fun p => x (ix1 p)
/-- A function of a row and a column as a rank-2 array. -/
def unM {a b : ℕ} (f : Fin a → Fin b → EReal) : (⟨2, ![a, b]⟩ : Shape).Idx → EReal := fun i => f (i 0) (i 1)

/-- The matrix product W·X at row p and column q. -/
def mm {a k B : ℕ} (W : Fin a → Fin k → EReal) (X : Fin k → Fin B → EReal) (p : Fin a) (q : Fin B) : EReal :=
  ∑ j : Fin k, W p j * X j q

/-- The literal 1.0, as the word the programs print. -/
def one : EReal := Ideal.ofBits .f32 0x3F800000#32
/-- The literal 0.0, as the word the programs print. -/
def zero : EReal := Ideal.ofBits .f32 0x00000000#32

/-- The logistic function spelt as the quotient 1 / (1 + e^(-x)) over the literal 1.0. -/
def sg (x : EReal) : EReal := Ideal.div one (one + Ideal.exp (-x))

/-- The literal 1.0 is the extended real one, so the quotient is the logistic function itself. -/
theorem sg_eq_logistic (x : EReal) : sg x = Ideal.logistic x := by
  unfold sg one Ideal.logistic
  rw [Ideal.ofBits_one_f32]

/-- The ramp max(x, 0) over the literal 0.0. -/
def ramp (x : EReal) : EReal := max x zero

/-- A dense layer W·X + b, the bias added along every column. -/
def dense {a k B : ℕ} (W : Fin a → Fin k → EReal) (b : Fin a → EReal) (X : Fin k → Fin B → EReal)
    (p : Fin a) (q : Fin B) : EReal := mm W X p q + b p

/-- One GRU cell's weights: input-side and state-side matrices and biases of the update (z), reset (r) and candidate (n) gates. -/
structure GruP where
  Wiz : Fin 400 → Fin 400 → EReal
  Wir : Fin 400 → Fin 400 → EReal
  Win : Fin 400 → Fin 400 → EReal
  Whz : Fin 400 → Fin 400 → EReal
  Whr : Fin 400 → Fin 400 → EReal
  Whn : Fin 400 → Fin 400 → EReal
  biz : Fin 400 → EReal
  bir : Fin 400 → EReal
  bin : Fin 400 → EReal
  bhz : Fin 400 → EReal
  bhr : Fin 400 → EReal
  bhn : Fin 400 → EReal

/-- The reset gate r = σ(Wir·X + bir + Whr·H + bhr). -/
def gateR {B : ℕ} (P : GruP) (X H : Fin 400 → Fin B → EReal) (p : Fin 400) (q : Fin B) : EReal :=
  sg (mm P.Wir X p q + P.bir p + mm P.Whr H p q + P.bhr p)
/-- The update gate z = σ(Wiz·X + biz + Whz·H + bhz). -/
def gateZ {B : ℕ} (P : GruP) (X H : Fin 400 → Fin B → EReal) (p : Fin 400) (q : Fin B) : EReal :=
  sg (mm P.Wiz X p q + P.biz p + mm P.Whz H p q + P.bhz p)
/-- The candidate n = tanh(Win·X + bin + r ⊙ (Whn·H + bhn)). -/
def cand {B : ℕ} (P : GruP) (X H : Fin 400 → Fin B → EReal) (p : Fin 400) (q : Fin B) : EReal :=
  Ideal.tanh (mm P.Win X p q + P.bin p + gateR P X H p q * (mm P.Whn H p q + P.bhn p))
/-- The cell's new state (1 − z) ⊙ n + z ⊙ H. -/
def gru {B : ℕ} (P : GruP) (X H : Fin 400 → Fin B → EReal) (p : Fin 400) (q : Fin B) : EReal :=
  (one - gateZ P X H p q) * cand P X H p q + gateZ P X H p q * H p q

/-- The whole network's weights. -/
structure NetP where
  Wfc1 : Fin 400 → Fin 257 → EReal
  bfc1 : Fin 400 → EReal
  g1 : GruP
  g2 : GruP
  Wfc2 : Fin 600 → Fin 400 → EReal
  bfc2 : Fin 600 → EReal
  Wfc3 : Fin 600 → Fin 600 → EReal
  bfc3 : Fin 600 → EReal
  Wfc4 : Fin 257 → Fin 600 → EReal
  bfc4 : Fin 257 → EReal

/-- The network's weights read off the programs' thirty-two weight arguments, in the order both programs take them:
    the first dense layer, the first cell (update, reset, candidate; input side, state side; then the six biases), the
    second cell likewise, the three last dense layers. -/
def params (x3 : (⟨2, ![400, 257]⟩ : Shape).Idx → EReal)
    (x4 : (⟨1, ![400]⟩ : Shape).Idx → EReal)
    (x5 : (⟨2, ![400, 400]⟩ : Shape).Idx → EReal)
    (x6 : (⟨2, ![400, 400]⟩ : Shape).Idx → EReal)
    (x7 : (⟨2, ![400, 400]⟩ : Shape).Idx → EReal)
    (x8 : (⟨2, ![400, 400]⟩ : Shape).Idx → EReal)
    (x9 : (⟨2, ![400, 400]⟩ : Shape).Idx → EReal)
    (x10 : (⟨2, ![400, 400]⟩ : Shape).Idx → EReal)
    (x11 : (⟨1, ![400]⟩ : Shape).Idx → EReal)
    (x12 : (⟨1, ![400]⟩ : Shape).Idx → EReal)
    (x13 : (⟨1, ![400]⟩ : Shape).Idx → EReal)
    (x14 : (⟨1, ![400]⟩ : Shape).Idx → EReal)
    (x15 : (⟨1, ![400]⟩ : Shape).Idx → EReal)
    (x16 : (⟨1, ![400]⟩ : Shape).Idx → EReal)
    (x17 : (⟨2, ![400, 400]⟩ : Shape).Idx → EReal)
    (x18 : (⟨2, ![400, 400]⟩ : Shape).Idx → EReal)
    (x19 : (⟨2, ![400, 400]⟩ : Shape).Idx → EReal)
    (x20 : (⟨2, ![400, 400]⟩ : Shape).Idx → EReal)
    (x21 : (⟨2, ![400, 400]⟩ : Shape).Idx → EReal)
    (x22 : (⟨2, ![400, 400]⟩ : Shape).Idx → EReal)
    (x23 : (⟨1, ![400]⟩ : Shape).Idx → EReal)
    (x24 : (⟨1, ![400]⟩ : Shape).Idx → EReal)
    (x25 : (⟨1, ![400]⟩ : Shape).Idx → EReal)
    (x26 : (⟨1, ![400]⟩ : Shape).Idx → EReal)
    (x27 : (⟨1, ![400]⟩ : Shape).Idx → EReal)
    (x28 : (⟨1, ![400]⟩ : Shape).Idx → EReal)
    (x29 : (⟨2, ![600, 400]⟩ : Shape).Idx → EReal)
    (x30 : (⟨1, ![600]⟩ : Shape).Idx → EReal)
    (x31 : (⟨2, ![600, 600]⟩ : Shape).Idx → EReal)
    (x32 : (⟨1, ![600]⟩ : Shape).Idx → EReal)
    (x33 : (⟨2, ![257, 600]⟩ : Shape).Idx → EReal)
    (x34 : (⟨1, ![257]⟩ : Shape).Idx → EReal) : NetP :=
  { Wfc1 := M x3, bfc1 := Cv x4,
    g1 := { Wiz := M x5, Wir := M x6, Win := M x7, Whz := M x8, Whr := M x9, Whn := M x10, biz := Cv x11, bir := Cv x12, bin := Cv x13, bhz := Cv x14, bhr := Cv x15, bhn := Cv x16 },
    g2 := { Wiz := M x17, Wir := M x18, Win := M x19, Whz := M x20, Whr := M x21, Whn := M x22, biz := Cv x23, bir := Cv x24, bin := Cv x25, bhz := Cv x26, bhr := Cv x27, bhn := Cv x28 },
    Wfc2 := M x29, bfc2 := Cv x30, Wfc3 := M x31, bfc3 := Cv x32, Wfc4 := M x33, bfc4 := Cv x34 }

/-- The first dense layer. -/
def l1 {B : ℕ} (P : NetP) (X : Fin 257 → Fin B → EReal) : Fin 400 → Fin B → EReal := dense P.Wfc1 P.bfc1 X
/-- The first cell's new state. -/
def l2 {B : ℕ} (P : NetP) (X : Fin 257 → Fin B → EReal) (H1 : Fin 400 → Fin B → EReal) : Fin 400 → Fin B → EReal :=
  gru P.g1 (l1 P X) H1
/-- The second cell's new state. -/
def l3 {B : ℕ} (P : NetP) (X : Fin 257 → Fin B → EReal) (H1 H2 : Fin 400 → Fin B → EReal) : Fin 400 → Fin B → EReal :=
  gru P.g2 (l2 P X H1) H2
/-- The second dense layer under the ramp. -/
def l4 {B : ℕ} (P : NetP) (X : Fin 257 → Fin B → EReal) (H1 H2 : Fin 400 → Fin B → EReal) : Fin 600 → Fin B → EReal :=
  fun p q => ramp (dense P.Wfc2 P.bfc2 (l3 P X H1 H2) p q)
/-- The third dense layer under the ramp. -/
def l5 {B : ℕ} (P : NetP) (X : Fin 257 → Fin B → EReal) (H1 H2 : Fin 400 → Fin B → EReal) : Fin 600 → Fin B → EReal :=
  fun p q => ramp (dense P.Wfc3 P.bfc3 (l4 P X H1 H2) p q)
/-- The network's output: the last dense layer under the logistic function. -/
def net {B : ℕ} (P : NetP) (X : Fin 257 → Fin B → EReal) (H1 H2 : Fin 400 → Fin B → EReal) : Fin 257 → Fin B → EReal :=
  fun p q => sg (dense P.Wfc4 P.bfc4 (l5 P X H1 H2) p q)

/-- Every layer treats the columns separately: the network run on a selection f of the columns is the selected
    columns of the network's result. -/
theorem net_cols {B B' : ℕ} (P : NetP) (f : Fin B' → Fin B) (X : Fin 257 → Fin B → EReal) (H1 H2 : Fin 400 → Fin B → EReal)
    (p : Fin 257) (q : Fin B') :
    net P (fun k c => X k (f c)) (fun k c => H1 k (f c)) (fun k c => H2 k (f c)) p q = net P X H1 H2 p (f q) := rfl

/-- The sum of four terms in the order one program adds them is the sum in the other's order
    (addition of extended reals is commutative and associative, infinities included). -/
theorem add4_reorder (a b c d : EReal) : a + c + (b + d) = a + b + c + d := by
  rw [add_add_add_comm, add_assoc, add_assoc, add_assoc]

end Cert.GruNet

end
-- ==== Proof.KernelNet.lean ====
/-
  The network as the kernel arranges it, and why that is the same network.

  The kernel stacks each cell's three input-side matrices into one 1200 × 400 matrix (reset rows first, then update,
  then candidate), likewise the three state-side matrices, and adds the reset and update gates' two biases beforehand
  into one 800-vector. Rows 0–399, 400–799 and 800–1199 of a stacked product are the three gates' products, and
  (a + c) + (b + d) = ((a + b) + c) + d on the extended reals, so a stacked cell is the plain cell.
-/
import proofs.«149461_j42760694399258_2_alg».proof.Proof.Spec

noncomputable section

open scoped BigOperators

namespace Cert.GruNet

open Idealize.ShloMosaic Idealize.ShloMosaic.ValueIdx

/-- A rank-2 array with one column as a function of its row. -/
def Col {a : ℕ} (x : (⟨2, ![a, 1]⟩ : Shape).Idx → EReal) : Fin a → EReal := fun p => x (ix2 p (0 : Fin 1))

/-- Row o + p of a stack of N rows, for p below 400. -/
def rowAt (o N : ℕ) (h : o + 400 ≤ N) (p : Fin 400) : Fin N := ⟨o + p.val, by have := p.isLt; omega⟩

/-- Column 1024·t + q of the whole batch, for the t-th block of 1024 columns (t below 16). -/
def colAt (t : ℕ) (ht : t < 16) (q : Fin 1024) : Fin 16384 := ⟨1024 * t + q.val, by have := q.isLt; omega⟩

/-- The reset gate of a stacked cell: rows 0–399 of both stacked products and of the summed bias. -/
def rK {B : ℕ} (Wi Wh : Fin 1200 → Fin 400 → EReal) (brz : Fin 800 → EReal) (X H : Fin 400 → Fin B → EReal)
    (p : Fin 400) (q : Fin B) : EReal :=
  Ideal.logistic (mm Wi X (rowAt 0 1200 (by omega) p) q + mm Wh H (rowAt 0 1200 (by omega) p) q + brz (rowAt 0 800 (by omega) p))
/-- The update gate of a stacked cell: rows 400–799. -/
def zK {B : ℕ} (Wi Wh : Fin 1200 → Fin 400 → EReal) (brz : Fin 800 → EReal) (X H : Fin 400 → Fin B → EReal)
    (p : Fin 400) (q : Fin B) : EReal :=
  Ideal.logistic (mm Wi X (rowAt 400 1200 (by omega) p) q + mm Wh H (rowAt 400 1200 (by omega) p) q + brz (rowAt 400 800 (by omega) p))
/-- The candidate of a stacked cell: rows 800–1199, the two candidate biases kept apart. -/
def nK {B : ℕ} (Wi Wh : Fin 1200 → Fin 400 → EReal) (brz : Fin 800 → EReal) (bn cn : Fin 400 → EReal)
    (X H : Fin 400 → Fin B → EReal) (p : Fin 400) (q : Fin B) : EReal :=
  Ideal.tanh (mm Wi X (rowAt 800 1200 (by omega) p) q + bn p + rK Wi Wh brz X H p q * (mm Wh H (rowAt 800 1200 (by omega) p) q + cn p))
/-- A stacked cell's new state. -/
def cellK {B : ℕ} (Wi Wh : Fin 1200 → Fin 400 → EReal) (brz : Fin 800 → EReal) (bn cn : Fin 400 → EReal)
    (X H : Fin 400 → Fin B → EReal) (p : Fin 400) (q : Fin B) : EReal :=
  (one - zK Wi Wh brz X H p q) * nK Wi Wh brz bn cn X H p q + zK Wi Wh brz X H p q * H p q

/-- What it means for stacked weights to hold a cell's weights. -/
structure Stacks (P : GruP) (Wi Wh : Fin 1200 → Fin 400 → EReal) (brz : Fin 800 → EReal) (bn cn : Fin 400 → EReal) : Prop where
  ir : ∀ p j, Wi (rowAt 0 1200 (by omega) p) j = P.Wir p j
  iz : ∀ p j, Wi (rowAt 400 1200 (by omega) p) j = P.Wiz p j
  inn : ∀ p j, Wi (rowAt 800 1200 (by omega) p) j = P.Win p j
  hr : ∀ p j, Wh (rowAt 0 1200 (by omega) p) j = P.Whr p j
  hz : ∀ p j, Wh (rowAt 400 1200 (by omega) p) j = P.Whz p j
  hn : ∀ p j, Wh (rowAt 800 1200 (by omega) p) j = P.Whn p j
  br : ∀ p, brz (rowAt 0 800 (by omega) p) = P.bir p + P.bhr p
  bz : ∀ p, brz (rowAt 400 800 (by omega) p) = P.biz p + P.bhz p
  bn : ∀ p, bn p = P.bin p
  cn : ∀ p, cn p = P.bhn p

/-- A product with a stack, read at a row of the stack, is the product with the matrix that row block holds. -/
theorem mm_row {B N : ℕ} (W : Fin N → Fin 400 → EReal) (W' : Fin 400 → Fin 400 → EReal) (r : Fin 400 → Fin N)
    (h : ∀ p j, W (r p) j = W' p j) (X : Fin 400 → Fin B → EReal) (p : Fin 400) (q : Fin B) :
    mm W X (r p) q = mm W' X p q := by
  unfold mm
  exact Finset.sum_congr rfl fun j _ => by rw [h]

/-- A stacked cell is the plain cell. -/
theorem cellK_eq_gru {B : ℕ} (P : GruP) (Wi Wh : Fin 1200 → Fin 400 → EReal) (brz : Fin 800 → EReal) (bn cn : Fin 400 → EReal)
    (S : Stacks P Wi Wh brz bn cn) (X H : Fin 400 → Fin B → EReal) : cellK Wi Wh brz bn cn X H = gru P X H := by
  funext p q
  have er : rK Wi Wh brz X H p q = gateR P X H p q := by
    unfold rK gateR
    rw [mm_row Wi P.Wir _ S.ir, mm_row Wh P.Whr _ S.hr, S.br, add4_reorder, sg_eq_logistic]
  have ez : zK Wi Wh brz X H p q = gateZ P X H p q := by
    unfold zK gateZ
    rw [mm_row Wi P.Wiz _ S.iz, mm_row Wh P.Whz _ S.hz, S.bz, add4_reorder, sg_eq_logistic]
  have en : nK Wi Wh brz bn cn X H p q = cand P X H p q := by
    unfold nK cand
    rw [mm_row Wi P.Win _ S.inn, mm_row Wh P.Whn _ S.hn, S.bn, S.cn, er]
  unfold cellK gru
  rw [ez, en]

/-- The network with stacked cells, the last layer under the logistic function itself. -/
def netK {B : ℕ} (Wfc1 : Fin 400 → Fin 257 → EReal) (bfc1 : Fin 400 → EReal)
    (Wi1 Wh1 : Fin 1200 → Fin 400 → EReal) (brz1 : Fin 800 → EReal) (bn1 cn1 : Fin 400 → EReal)
    (Wi2 Wh2 : Fin 1200 → Fin 400 → EReal) (brz2 : Fin 800 → EReal) (bn2 cn2 : Fin 400 → EReal)
    (Wfc2 : Fin 600 → Fin 400 → EReal) (bfc2 : Fin 600 → EReal) (Wfc3 : Fin 600 → Fin 600 → EReal) (bfc3 : Fin 600 → EReal)
    (Wfc4 : Fin 257 → Fin 600 → EReal) (bfc4 : Fin 257 → EReal)
    (X : Fin 257 → Fin B → EReal) (H1 H2 : Fin 400 → Fin B → EReal) : Fin 257 → Fin B → EReal :=
  fun p q => Ideal.logistic (dense Wfc4 bfc4
    (fun p q => ramp (dense Wfc3 bfc3
      (fun p q => ramp (dense Wfc2 bfc2
        (cellK Wi2 Wh2 brz2 bn2 cn2 (cellK Wi1 Wh1 brz1 bn1 cn1 (dense Wfc1 bfc1 X) H1) H2) p q)) p q)) p q)

/-- With the dense layers' weights the network's own and both cells' weights stacked, it is the network. -/
theorem netK_eq_net {B : ℕ} (P : NetP)
    (Wi1 Wh1 : Fin 1200 → Fin 400 → EReal) (brz1 : Fin 800 → EReal) (bn1 cn1 : Fin 400 → EReal)
    (Wi2 Wh2 : Fin 1200 → Fin 400 → EReal) (brz2 : Fin 800 → EReal) (bn2 cn2 : Fin 400 → EReal)
    (S1 : Stacks P.g1 Wi1 Wh1 brz1 bn1 cn1) (S2 : Stacks P.g2 Wi2 Wh2 brz2 bn2 cn2)
    (X : Fin 257 → Fin B → EReal) (H1 H2 : Fin 400 → Fin B → EReal) :
    netK P.Wfc1 P.bfc1 Wi1 Wh1 brz1 bn1 cn1 Wi2 Wh2 brz2 bn2 cn2 P.Wfc2 P.bfc2 P.Wfc3 P.bfc3 P.Wfc4 P.bfc4 X H1 H2
      = net P X H1 H2 := by
  unfold netK
  rw [cellK_eq_gru P.g1 Wi1 Wh1 brz1 bn1 cn1 S1, cellK_eq_gru P.g2 Wi2 Wh2 brz2 bn2 cn2 S2]
  funext p q
  rw [← sg_eq_logistic]
  rfl

/-- The same from entry-by-entry facts, on a block of columns: the dense layers' weights agree entry by entry with the
    network's, both cells' weights are stacked, and the three batch blocks are the columns f selects of three whole
    batches; then the stacked network on the blocks is, at column q, the network on the whole batches at column f q. -/
theorem netK_eq_net' {B B' : ℕ} (P : NetP) (f : Fin B' → Fin B)
    (Wfc1 : Fin 400 → Fin 257 → EReal) (bfc1 : Fin 400 → EReal)
    (Wi1 Wh1 : Fin 1200 → Fin 400 → EReal) (brz1 : Fin 800 → EReal) (bn1 cn1 : Fin 400 → EReal)
    (Wi2 Wh2 : Fin 1200 → Fin 400 → EReal) (brz2 : Fin 800 → EReal) (bn2 cn2 : Fin 400 → EReal)
    (Wfc2 : Fin 600 → Fin 400 → EReal) (bfc2 : Fin 600 → EReal) (Wfc3 : Fin 600 → Fin 600 → EReal) (bfc3 : Fin 600 → EReal)
    (Wfc4 : Fin 257 → Fin 600 → EReal) (bfc4 : Fin 257 → EReal)
    (X : Fin 257 → Fin B' → EReal) (H1 H2 : Fin 400 → Fin B' → EReal)
    (X' : Fin 257 → Fin B → EReal) (H1' H2' : Fin 400 → Fin B → EReal)
    (hW1 : ∀ p j, Wfc1 p j = P.Wfc1 p j) (hb1 : ∀ p, bfc1 p = P.bfc1 p)
    (S1 : Stacks P.g1 Wi1 Wh1 brz1 bn1 cn1) (S2 : Stacks P.g2 Wi2 Wh2 brz2 bn2 cn2)
    (hW2 : ∀ p j, Wfc2 p j = P.Wfc2 p j) (hb2 : ∀ p, bfc2 p = P.bfc2 p)
    (hW3 : ∀ p j, Wfc3 p j = P.Wfc3 p j) (hb3 : ∀ p, bfc3 p = P.bfc3 p)
    (hW4 : ∀ p j, Wfc4 p j = P.Wfc4 p j) (hb4 : ∀ p, bfc4 p = P.bfc4 p)
    (hX : ∀ k q, X k q = X' k (f q)) (hH1 : ∀ k q, H1 k q = H1' k (f q)) (hH2 : ∀ k q, H2 k q = H2' k (f q))
    (p : Fin 257) (q : Fin B') :
    netK Wfc1 bfc1 Wi1 Wh1 brz1 bn1 cn1 Wi2 Wh2 brz2 bn2 cn2 Wfc2 bfc2 Wfc3 bfc3 Wfc4 bfc4 X H1 H2 p q
      = net P X' H1' H2' p (f q) := by
  obtain rfl : Wfc1 = P.Wfc1 := funext fun p => funext fun j => hW1 p j
  obtain rfl : bfc1 = P.bfc1 := funext hb1
  obtain rfl : Wfc2 = P.Wfc2 := funext fun p => funext fun j => hW2 p j
  obtain rfl : bfc2 = P.bfc2 := funext hb2
  obtain rfl : Wfc3 = P.Wfc3 := funext fun p => funext fun j => hW3 p j
  obtain rfl : bfc3 = P.bfc3 := funext hb3
  obtain rfl : Wfc4 = P.Wfc4 := funext fun p => funext fun j => hW4 p j
  obtain rfl : bfc4 = P.bfc4 := funext hb4
  obtain rfl : X = fun k c => X' k (f c) := funext fun k => funext fun c => hX k c
  obtain rfl : H1 = fun k c => H1' k (f c) := funext fun k => funext fun c => hH1 k c
  obtain rfl : H2 = fun k c => H2' k (f c) := funext fun k => funext fun c => hH2 k c
  rw [netK_eq_net P Wi1 Wh1 brz1 bn1 cn1 Wi2 Wh2 brz2 bn2 cn2 S1 S2]
  exact net_cols P f X' H1' H2' p q

end Cert.GruNet

end
-- ==== Proof.KernelPay.lean ====
/-
  The kernel body's arithmetic, read one entry at a time.

  Each named value of the body is a function of the blocks the body loaded. At the extended reals a change of float
  format is the identity and a matrix-unit product into zeros is the sum over the inner position, so a product of a
  weight block with a batch block reads, at (p, q), as the matrix product of Spec.lean; a bias kept as a one-column
  block and spread over the columns reads its row; a row range cut out of a stacked product reads the stack at the
  shifted row. Entry by entry the body's output block is the stacked network of KernelNet.lean run on the batch blocks.
-/
import proofs.«149461_j42760694399258_2_alg».proof.Proof.Gen.KernelIdeal.Skeleton
import proofs.«149461_j42760694399258_2_alg».proof.Proof.LibDotIx2
import proofs.«149461_j42760694399258_2_alg».proof.Proof.LibColumnLayout
import proofs.«149461_j42760694399258_2_alg».proof.Proof.KernelNet
import Idealize.ShloMosaic.Lib.ValueLayout
import Idealize.ShloMosaic.Lib.Pipeline.Value

noncomputable section

open scoped BigOperators

namespace Cert.GruNet.Ker

open Cert.KernelIdeal Cert.KernelIdeal.Gen Cert.GruNet
open Idealize.ShloMosaic Idealize.ShloMosaic.ValueIdx

/-- `dot_S400x257_S257x1024_S400x1024_1_0_0_1_n_n` contracts the left operand's columns with the right operand's rows and batches nothing. -/
theorem plain_fc1 : PlainDot dot_S400x257_S257x1024_S400x1024_1_0_0_1_n_n where
  rank := rfl
  size := rfl
  l0 := fun j q => by
    unfold DotDims.lhsIdx
    rw [dif_neg (show ¬(0 : Fin S400x257.rank) ∈ dot_S400x257_S257x1024_S400x1024_1_0_0_1_n_n.lhsBatch by decide), dif_pos (show (0 : Fin S400x257.rank) ∈ dot_S400x257_S257x1024_S400x1024_1_0_0_1_n_n.lhsNonContracting by decide)]
    rfl
  l1 := fun j q => dot_S400x257_S257x1024_S400x1024_1_0_0_1_n_n.lhsIdx_val_of_single rfl j q
  r0 := fun j q => dot_S400x257_S257x1024_S400x1024_1_0_0_1_n_n.rhsIdx_val_of_single rfl j q
  r1 := fun j q => by
    unfold DotDims.rhsIdx
    rw [dif_neg (show ¬(1 : Fin S257x1024.rank) ∈ dot_S400x257_S257x1024_S400x1024_1_0_0_1_n_n.rhsBatch by decide), dif_pos (show (1 : Fin S257x1024.rank) ∈ dot_S400x257_S257x1024_S400x1024_1_0_0_1_n_n.rhsNonContracting by decide)]
    rfl

/-- `dot_S1200x400_S400x1024_S1200x1024_1_0_0_1_n_n` contracts the left operand's columns with the right operand's rows and batches nothing. -/
theorem plain_gru : PlainDot dot_S1200x400_S400x1024_S1200x1024_1_0_0_1_n_n where
  rank := rfl
  size := rfl
  l0 := fun j q => by
    unfold DotDims.lhsIdx
    rw [dif_neg (show ¬(0 : Fin S1200x400.rank) ∈ dot_S1200x400_S400x1024_S1200x1024_1_0_0_1_n_n.lhsBatch by decide), dif_pos (show (0 : Fin S1200x400.rank) ∈ dot_S1200x400_S400x1024_S1200x1024_1_0_0_1_n_n.lhsNonContracting by decide)]
    rfl
  l1 := fun j q => dot_S1200x400_S400x1024_S1200x1024_1_0_0_1_n_n.lhsIdx_val_of_single rfl j q
  r0 := fun j q => dot_S1200x400_S400x1024_S1200x1024_1_0_0_1_n_n.rhsIdx_val_of_single rfl j q
  r1 := fun j q => by
    unfold DotDims.rhsIdx
    rw [dif_neg (show ¬(1 : Fin S400x1024.rank) ∈ dot_S1200x400_S400x1024_S1200x1024_1_0_0_1_n_n.rhsBatch by decide), dif_pos (show (1 : Fin S400x1024.rank) ∈ dot_S1200x400_S400x1024_S1200x1024_1_0_0_1_n_n.rhsNonContracting by decide)]
    rfl

/-- `dot_S600x400_S400x1024_S600x1024_1_0_0_1_n_n` contracts the left operand's columns with the right operand's rows and batches nothing. -/
theorem plain_fc2 : PlainDot dot_S600x400_S400x1024_S600x1024_1_0_0_1_n_n where
  rank := rfl
  size := rfl
  l0 := fun j q => by
    unfold DotDims.lhsIdx
    rw [dif_neg (show ¬(0 : Fin S600x400.rank) ∈ dot_S600x400_S400x1024_S600x1024_1_0_0_1_n_n.lhsBatch by decide), dif_pos (show (0 : Fin S600x400.rank) ∈ dot_S600x400_S400x1024_S600x1024_1_0_0_1_n_n.lhsNonContracting by decide)]
    rfl
  l1 := fun j q => dot_S600x400_S400x1024_S600x1024_1_0_0_1_n_n.lhsIdx_val_of_single rfl j q
  r0 := fun j q => dot_S600x400_S400x1024_S600x1024_1_0_0_1_n_n.rhsIdx_val_of_single rfl j q
  r1 := fun j q => by
    unfold DotDims.rhsIdx
    rw [dif_neg (show ¬(1 : Fin S400x1024.rank) ∈ dot_S600x400_S400x1024_S600x1024_1_0_0_1_n_n.rhsBatch by decide), dif_pos (show (1 : Fin S400x1024.rank) ∈ dot_S600x400_S400x1024_S600x1024_1_0_0_1_n_n.rhsNonContracting by decide)]
    rfl

/-- `dot_S600x600_S600x1024_S600x1024_1_0_0_1_n_n` contracts the left operand's columns with the right operand's rows and batches nothing. -/
theorem plain_fc3 : PlainDot dot_S600x600_S600x1024_S600x1024_1_0_0_1_n_n where
  rank := rfl
  size := rfl
  l0 := fun j q => by
    unfold DotDims.lhsIdx
    rw [dif_neg (show ¬(0 : Fin S600x600.rank) ∈ dot_S600x600_S600x1024_S600x1024_1_0_0_1_n_n.lhsBatch by decide), dif_pos (show (0 : Fin S600x600.rank) ∈ dot_S600x600_S600x1024_S600x1024_1_0_0_1_n_n.lhsNonContracting by decide)]
    rfl
  l1 := fun j q => dot_S600x600_S600x1024_S600x1024_1_0_0_1_n_n.lhsIdx_val_of_single rfl j q
  r0 := fun j q => dot_S600x600_S600x1024_S600x1024_1_0_0_1_n_n.rhsIdx_val_of_single rfl j q
  r1 := fun j q => by
    unfold DotDims.rhsIdx
    rw [dif_neg (show ¬(1 : Fin S600x1024.rank) ∈ dot_S600x600_S600x1024_S600x1024_1_0_0_1_n_n.rhsBatch by decide), dif_pos (show (1 : Fin S600x1024.rank) ∈ dot_S600x600_S600x1024_S600x1024_1_0_0_1_n_n.rhsNonContracting by decide)]
    rfl

/-- `dot_S257x600_S600x1024_S257x1024_1_0_0_1_n_n` contracts the left operand's columns with the right operand's rows and batches nothing. -/
theorem plain_fc4 : PlainDot dot_S257x600_S600x1024_S257x1024_1_0_0_1_n_n where
  rank := rfl
  size := rfl
  l0 := fun j q => by
    unfold DotDims.lhsIdx
    rw [dif_neg (show ¬(0 : Fin S257x600.rank) ∈ dot_S257x600_S600x1024_S257x1024_1_0_0_1_n_n.lhsBatch by decide), dif_pos (show (0 : Fin S257x600.rank) ∈ dot_S257x600_S600x1024_S257x1024_1_0_0_1_n_n.lhsNonContracting by decide)]
    rfl
  l1 := fun j q => dot_S257x600_S600x1024_S257x1024_1_0_0_1_n_n.lhsIdx_val_of_single rfl j q
  r0 := fun j q => dot_S257x600_S600x1024_S257x1024_1_0_0_1_n_n.rhsIdx_val_of_single rfl j q
  r1 := fun j q => by
    unfold DotDims.rhsIdx
    rw [dif_neg (show ¬(1 : Fin S600x1024.rank) ∈ dot_S257x600_S600x1024_S257x1024_1_0_0_1_n_n.rhsBatch by decide), dif_pos (show (1 : Fin S600x1024.rank) ∈ dot_S257x600_S600x1024_S257x1024_1_0_0_1_n_n.rhsNonContracting by decide)]
    rfl

/-- Products agree when their right operands agree entry by entry. -/
theorem mm_congr {a k B : ℕ} (W : Fin a → Fin k → EReal) (X X' : Fin k → Fin B → EReal) (h : ∀ j c, X j c = X' j c)
    (p : Fin a) (q : Fin B) : mm W X p q = mm W X' p q := by
  unfold mm
  exact Finset.sum_congr rfl fun j _ => by rw [h]

/-- A weight block (its cast to its own shape dropped) times a batch block rounded on the way in, into zeros, at (p, q). -/
theorem mmK_at {a k B : ℕ} {d : DotDims (⟨2, ![a, k]⟩ : Shape) (⟨2, ![k, B]⟩ : Shape) (⟨2, ![a, B]⟩ : Shape)} (hd : PlainDot d)
    (W : FVec Ideal (⟨2, ![a, k]⟩ : Shape) .bf16) (X : FVec Ideal (⟨2, ![k, B]⟩ : Shape) .f32)
    (h1 : (⟨2, ![a, k]⟩ : Shape).ShapeCasts ⟨2, ![a, k]⟩) (h2 : FTy.bf16.bits < FTy.f32.bits) (p : Fin a) (q : Fin B) :
    matmul d none (shapeCast (⟨2, ![a, k]⟩ : Shape) W h1) (truncf .bf16 X h2) (constant (⟨2, ![a, B]⟩ : Shape) .f32 0x00000000#32) (ix2 p q)
      = mm (M W) (M X) p q := by
  refine (matmul_zero_ix2_any hd none _ _ p q).trans ?_
  rw [shapeCast_self]
  rfl

/-- A one-column bias block (its cast to its own shape dropped) spread over the columns, at (p, q): the bias at row p. -/
theorem bcol_at {a B : ℕ} (b : FVec Ideal (⟨2, ![a, 1]⟩ : Shape) .f32)
    (h3 : (⟨2, ![a, 1]⟩ : Shape).ShapeCasts ⟨2, ![a, 1]⟩) (h4 : (⟨2, ![a, 1]⟩ : Shape).Broadcasts ⟨2, ![a, B]⟩) (p : Fin a) (q : Fin B) :
    broadcastTo (⟨2, ![a, B]⟩ : Shape) (shapeCast (⟨2, ![a, 1]⟩ : Shape) b h3) h4 (ix2 p q) = Col b p := by
  rw [broadcastTo_a1_ab_apply, shapeCast_self]
  rfl

/-- A dense layer of the body at (p, q): weight block times batch block plus the bias block's row, the batch block
    known entry by entry as X'. -/
theorem dense_at {a k B : ℕ} {d : DotDims (⟨2, ![a, k]⟩ : Shape) (⟨2, ![k, B]⟩ : Shape) (⟨2, ![a, B]⟩ : Shape)} (hd : PlainDot d)
    (W : FVec Ideal (⟨2, ![a, k]⟩ : Shape) .bf16) (X : FVec Ideal (⟨2, ![k, B]⟩ : Shape) .f32) (bias : FVec Ideal (⟨2, ![a, 1]⟩ : Shape) .f32)
    (h1 : (⟨2, ![a, k]⟩ : Shape).ShapeCasts ⟨2, ![a, k]⟩) (h2 : FTy.bf16.bits < FTy.f32.bits)
    (h3 : (⟨2, ![a, 1]⟩ : Shape).ShapeCasts ⟨2, ![a, 1]⟩) (h4 : (⟨2, ![a, 1]⟩ : Shape).Broadcasts ⟨2, ![a, B]⟩)
    (X' : Fin k → Fin B → EReal) (hX : ∀ j c, X (ix2 j c) = X' j c) (p : Fin a) (q : Fin B) :
    addf (matmul d none (shapeCast (⟨2, ![a, k]⟩ : Shape) W h1) (truncf .bf16 X h2) (constant (⟨2, ![a, B]⟩ : Shape) .f32 0x00000000#32))
        (broadcastTo (⟨2, ![a, B]⟩ : Shape) (shapeCast (⟨2, ![a, 1]⟩ : Shape) bias h3) h4) (ix2 p q)
      = dense (M W) (Col bias) X' p q :=
  congrArg₂ (· + ·) ((mmK_at hd W X h1 h2 p q).trans (mm_congr _ _ _ hX p q)) (bcol_at bias h3 h4 p q)

/-- The same under the ramp against the literal 0.0. -/
theorem rampdense_at {a k B : ℕ} {d : DotDims (⟨2, ![a, k]⟩ : Shape) (⟨2, ![k, B]⟩ : Shape) (⟨2, ![a, B]⟩ : Shape)} (hd : PlainDot d)
    (W : FVec Ideal (⟨2, ![a, k]⟩ : Shape) .bf16) (X : FVec Ideal (⟨2, ![k, B]⟩ : Shape) .f32) (bias : FVec Ideal (⟨2, ![a, 1]⟩ : Shape) .f32)
    (h1 : (⟨2, ![a, k]⟩ : Shape).ShapeCasts ⟨2, ![a, k]⟩) (h2 : FTy.bf16.bits < FTy.f32.bits)
    (h3 : (⟨2, ![a, 1]⟩ : Shape).ShapeCasts ⟨2, ![a, 1]⟩) (h4 : (⟨2, ![a, 1]⟩ : Shape).Broadcasts ⟨2, ![a, B]⟩)
    (X' : Fin k → Fin B → EReal) (hX : ∀ j c, X (ix2 j c) = X' j c) (p : Fin a) (q : Fin B) :
    maximumf (addf (matmul d none (shapeCast (⟨2, ![a, k]⟩ : Shape) W h1) (truncf .bf16 X h2) (constant (⟨2, ![a, B]⟩ : Shape) .f32 0x00000000#32))
        (broadcastTo (⟨2, ![a, B]⟩ : Shape) (shapeCast (⟨2, ![a, 1]⟩ : Shape) bias h3) h4))
        (broadcast (⟨2, ![a, B]⟩ : Shape) (Scalar.ofBits (F := Ideal) .f32 0x00000000#32)) (ix2 p q)
      = ramp (dense (M W) (Col bias) X' p q) :=
  congrArg (fun x => max x zero) (dense_at hd W X bias h1 h2 h3 h4 X' hX p q)

variable (v0 : Vec Ideal S257x1024 .f32) (v1 v2 : Vec Ideal S400x1024 .f32) (v3 : Vec Ideal S400x257 .bf16) (v7 : Vec Ideal S400x1 .f32)
  (v11 v13 : Vec Ideal S1200x400 .bf16) (v15 : Vec Ideal S800x1 .f32) (v17 v19 : Vec Ideal S400x1 .f32)
  (v53 v55 : Vec Ideal S1200x400 .bf16) (v57 : Vec Ideal S800x1 .f32) (v59 v61 : Vec Ideal S400x1 .f32)
  (v95 : Vec Ideal S600x400 .bf16) (v99 : Vec Ideal S600x1 .f32) (v105 : Vec Ideal S600x600 .bf16) (v109 : Vec Ideal S600x1 .f32)
  (v115 : Vec Ideal S257x600 .bf16) (v119 : Vec Ideal S257x1 .f32)

/-! ## The first cell's stacked products -/

/-- The first cell's input-side stacked product, fed the first dense layer. -/
theorem pay4_at (r : Fin 1200) (q : Fin 1024) :
    k0_pay4 (F := Ideal) v0 v3 v7 v11 (ix2 r q) = mm (M v11) (dense (M v3) (Col v7) (M v0)) r q := by
  unfold k0_pay4
  exact (mmK_at plain_gru v11 _ _ _ r q).trans (mm_congr _ _ _ (fun j c => dense_at plain_fc1 v3 v0 v7 _ _ _ _ (M v0) (fun _ _ => rfl) j c) r q)

/-- The first cell's state-side stacked product. -/
theorem pay5_at (r : Fin 1200) (q : Fin 1024) :
    k0_pay5 (F := Ideal) v1 v13 (ix2 r q) = mm (M v13) (M v1) r q := by
  unfold k0_pay5
  exact mmK_at plain_gru v13 v1 _ _ r q

theorem pay6_at (p : Fin 400) (q : Fin 1024) :
    k0_pay6 (F := Ideal) v0 v3 v7 v11 (ix2 p q) = mm (M v11) (dense (M v3) (Col v7) (M v0)) (rowAt 400 1200 (by omega) p) q := by
  unfold k0_pay6
  exact (slice2_axis0_eq 400 _ _ p q).trans (pay4_at v0 v3 v7 v11 _ q)
theorem pay7_at (p : Fin 400) (q : Fin 1024) :
    k0_pay7 (F := Ideal) v0 v3 v7 v11 (ix2 p q) = mm (M v11) (dense (M v3) (Col v7) (M v0)) (rowAt 800 1200 (by omega) p) q := by
  unfold k0_pay7
  exact (slice2_axis0_eq 800 _ _ p q).trans (pay4_at v0 v3 v7 v11 _ q)
theorem pay8_at (p : Fin 400) (q : Fin 1024) :
    k0_pay8 (F := Ideal) v1 v13 (ix2 p q) = mm (M v13) (M v1) (rowAt 400 1200 (by omega) p) q := by
  unfold k0_pay8
  exact (slice2_axis0_eq 400 _ _ p q).trans (pay5_at v1 v13 _ q)
theorem pay9_at (p : Fin 400) (q : Fin 1024) :
    k0_pay9 (F := Ideal) v1 v13 (ix2 p q) = mm (M v13) (M v1) (rowAt 800 1200 (by omega) p) q := by
  unfold k0_pay9
  exact (slice2_axis0_eq 800 _ _ p q).trans (pay5_at v1 v13 _ q)

/-- The update gate's summed bias: rows 400–799 of the stacked bias block. -/
theorem pay10_at (p : Fin 400) (u : Fin 1) :
    k0_pay10 (F := Ideal) v15 (ix2 p u) = v15 (ix2 (rowAt 400 800 (by omega) p) u) := by
  unfold k0_pay10 k0_pay1
  refine (slice2_axis0_eq 400 _ _ p u).trans ?_
  rw [shapeCast_self]
  rfl

/-- The reset gate's argument: rows 0–399 of both stacked products and of the stacked bias block. -/
theorem pay11_at (p : Fin 400) (q : Fin 1024) :
    k0_pay11 (F := Ideal) v0 v1 v3 v7 v11 v13 v15 (ix2 p q)
      = mm (M v11) (dense (M v3) (Col v7) (M v0)) (rowAt 0 1200 (by omega) p) q + mm (M v13) (M v1) (rowAt 0 1200 (by omega) p) q
        + Col v15 (rowAt 0 800 (by omega) p) := by
  unfold k0_pay11 k0_pay1
  refine congrArg₂ (· + ·) (congrArg₂ (· + ·) ((slice2_axis0_eq 0 _ _ p q).trans (pay4_at v0 v3 v7 v11 _ q))
    ((slice2_axis0_eq 0 _ _ p q).trans (pay5_at v1 v13 _ q))) ?_
  refine (broadcastTo_a1_ab_apply _ _ p q).trans ((slice2_axis0_eq 0 _ _ p (0 : Fin 1)).trans ?_)
  rw [shapeCast_self]
  rfl

/-- The candidate's two bias blocks are loaded as they are. -/
theorem pay2_eq : k0_pay2 (F := Ideal) v17 = v17 := by unfold k0_pay2; exact shapeCast_self _ _
theorem pay3_eq : k0_pay3 (F := Ideal) v19 = v19 := by unfold k0_pay3; exact shapeCast_self _ _
theorem pay13_eq : k0_pay13 (F := Ideal) v59 = v59 := by unfold k0_pay13; exact shapeCast_self _ _
theorem pay14_eq : k0_pay14 (F := Ideal) v61 = v61 := by unfold k0_pay14; exact shapeCast_self _ _

/-! ## A cell's new state from the gate arguments the body has at hand -/

/-- The new state at (j, c) from: the state block h, the update gate's two products zi and zh and its bias column bz,
    the candidate's products ni and nh and bias columns bn and cn, and the reset gate's whole argument rarg. -/
def newState (h zi ni zh nh rarg : S400x1024.Idx → EReal) (bn cn bz : S400x1.Idx → EReal) (j : Fin 400) (c : Fin 1024) : EReal :=
  (one - Ideal.logistic (zi (ix2 j c) + zh (ix2 j c) + Col bz j))
      * Ideal.tanh (ni (ix2 j c) + Col bn j + Ideal.logistic (rarg (ix2 j c)) * (nh (ix2 j c) + Col cn j))
    + Ideal.logistic (zi (ix2 j c) + zh (ix2 j c) + Col bz j) * h (ix2 j c)

/-- The same with the two gates already formed (the second cell's way through the body). -/
def newState' (h ni nh r z : S400x1024.Idx → EReal) (bn cn : S400x1.Idx → EReal) (j : Fin 400) (c : Fin 1024) : EReal :=
  (one - z (ix2 j c)) * Ideal.tanh (ni (ix2 j c) + Col bn j + r (ix2 j c) * (nh (ix2 j c) + Col cn j)) + z (ix2 j c) * h (ix2 j c)

variable (v18 v20 v32 : FVec Ideal S400x1 .f32) (v26 v27 v29 v30 v35 : FVec Ideal S400x1024 .f32)

/-- The second cell's input-side stacked product, fed the first cell's new state. -/
theorem pay15_at (r : Fin 1200) (q : Fin 1024) :
    k0_pay15 (F := Ideal) v1 v18 v20 v26 v27 v29 v30 v32 v35 v53 (ix2 r q)
      = mm (M v53) (newState v1 v26 v27 v29 v30 v35 v18 v20 v32) r q := by
  unfold k0_pay15
  refine (mmK_at plain_gru v53 _ _ _ r q).trans (mm_congr _ _ _ (fun j c => ?_) r q)
  show (one - Ideal.logistic (v26 (ix2 j c) + v29 (ix2 j c) + broadcastTo S400x1024 v32 _ (ix2 j c)))
        * Ideal.tanh (v27 (ix2 j c) + broadcastTo S400x1024 v18 _ (ix2 j c) + Ideal.logistic (v35 (ix2 j c)) * (v30 (ix2 j c) + broadcastTo S400x1024 v20 _ (ix2 j c)))
      + Ideal.logistic (v26 (ix2 j c) + v29 (ix2 j c) + broadcastTo S400x1024 v32 _ (ix2 j c)) * v1 (ix2 j c) = _
  rw [broadcastTo_a1_ab_apply, broadcastTo_a1_ab_apply, broadcastTo_a1_ab_apply]
  rfl

/-- The second cell's state-side stacked product. -/
theorem pay16_at (r : Fin 1200) (q : Fin 1024) :
    k0_pay16 (F := Ideal) v2 v55 (ix2 r q) = mm (M v55) (M v2) r q := by
  unfold k0_pay16
  exact mmK_at plain_gru v55 v2 _ _ r q

theorem pay17_at (p : Fin 400) (q : Fin 1024) :
    k0_pay17 (F := Ideal) v1 v18 v20 v26 v27 v29 v30 v32 v35 v53 (ix2 p q)
      = mm (M v53) (newState v1 v26 v27 v29 v30 v35 v18 v20 v32) (rowAt 800 1200 (by omega) p) q := by
  unfold k0_pay17
  exact (slice2_axis0_eq 800 _ _ p q).trans (pay15_at v1 v53 v18 v20 v32 v26 v27 v29 v30 v35 _ q)
theorem pay18_at (p : Fin 400) (q : Fin 1024) :
    k0_pay18 (F := Ideal) v2 v55 (ix2 p q) = mm (M v55) (M v2) (rowAt 800 1200 (by omega) p) q := by
  unfold k0_pay18
  exact (slice2_axis0_eq 800 _ _ p q).trans (pay16_at v2 v55 _ q)

/-- The second cell's reset gate. -/
theorem pay19_at (p : Fin 400) (q : Fin 1024) :
    k0_pay19 (F := Ideal) v1 v2 v18 v20 v26 v27 v29 v30 v32 v35 v53 v55 v57 (ix2 p q)
      = Ideal.logistic (mm (M v53) (newState v1 v26 v27 v29 v30 v35 v18 v20 v32) (rowAt 0 1200 (by omega) p) q
          + mm (M v55) (M v2) (rowAt 0 1200 (by omega) p) q + Col v57 (rowAt 0 800 (by omega) p)) := by
  unfold k0_pay19 k0_pay12
  refine congrArg Ideal.logistic (congrArg₂ (· + ·) (congrArg₂ (· + ·)
    ((slice2_axis0_eq 0 _ _ p q).trans (pay15_at v1 v53 v18 v20 v32 v26 v27 v29 v30 v35 _ q))
    ((slice2_axis0_eq 0 _ _ p q).trans (pay16_at v2 v55 _ q))) ?_)
  refine (broadcastTo_a1_ab_apply _ _ p q).trans ((slice2_axis0_eq 0 _ _ p (0 : Fin 1)).trans ?_)
  rw [shapeCast_self]
  rfl

/-- The second cell's update gate. -/
theorem pay20_at (p : Fin 400) (q : Fin 1024) :
    k0_pay20 (F := Ideal) v1 v2 v18 v20 v26 v27 v29 v30 v32 v35 v53 v55 v57 (ix2 p q)
      = Ideal.logistic (mm (M v53) (newState v1 v26 v27 v29 v30 v35 v18 v20 v32) (rowAt 400 1200 (by omega) p) q
          + mm (M v55) (M v2) (rowAt 400 1200 (by omega) p) q + Col v57 (rowAt 400 800 (by omega) p)) := by
  unfold k0_pay20 k0_pay12
  refine congrArg Ideal.logistic (congrArg₂ (· + ·) (congrArg₂ (· + ·)
    ((slice2_axis0_eq 400 _ _ p q).trans (pay15_at v1 v53 v18 v20 v32 v26 v27 v29 v30 v35 _ q))
    ((slice2_axis0_eq 400 _ _ p q).trans (pay16_at v2 v55 _ q))) ?_)
  refine (broadcastTo_a1_ab_apply _ _ p q).trans ((slice2_axis0_eq 400 _ _ p (0 : Fin 1)).trans ?_)
  rw [shapeCast_self]
  rfl

variable (v60 v62 : FVec Ideal S400x1 .f32) (v69 v72 v78 v82 : FVec Ideal S400x1024 .f32)

/-- The body's output block: the second cell's new state through the three last dense layers. -/
theorem pay21_at (p : Fin 257) (q : Fin 1024) :
    k0_pay21 (F := Ideal) v2 v60 v62 v69 v72 v78 v82 v95 v99 v105 v109 v115 v119 (ix2 p q)
      = Ideal.logistic (dense (M v115) (Col v119)
          (fun p q => ramp (dense (M v105) (Col v109)
            (fun p q => ramp (dense (M v95) (Col v99) (newState' v2 v69 v72 v78 v82 v60 v62) p q)) p q)) p q) := by
  unfold k0_pay21
  refine congrArg Ideal.logistic (dense_at plain_fc4 v115 _ v119 _ _ _ _ _ (fun j c => ?_) p q)
  refine rampdense_at plain_fc3 v105 _ v109 _ _ _ _ _ (fun j c => ?_) j c
  refine rampdense_at plain_fc2 v95 _ v99 _ _ _ _ _ (fun j c => ?_) j c
  show (one - v82 (ix2 j c)) * Ideal.tanh (v69 (ix2 j c) + broadcastTo S400x1024 v60 _ (ix2 j c) + v78 (ix2 j c) * (v72 (ix2 j c) + broadcastTo S400x1024 v62 _ (ix2 j c)))
      + v82 (ix2 j c) * v2 (ix2 j c) = _
  rw [broadcastTo_a1_ab_apply, broadcastTo_a1_ab_apply]
  rfl

end Cert.GruNet.Ker

end
-- ==== Proof.Windows.lean ====
import proofs.«149461_j42760694399258_2_alg».proof.Proof.FrameKernelIdeal
import proofs.«149461_j42760694399258_2_alg».proof.Proof.KernelNet
import Idealize.ShloMosaic.Lib.Pipeline.Value
import Idealize.ShloMosaic.Lib.ValueIdx

/-! # What the windows hold, and where the output blocks lie

At grid point `t` the three batch windows and the output window hold columns 1024·t … 1024·t + 1023 of their arrays,
all rows; the eighteen weight windows hold their whole arrays at every point. A weight window's array is a result of
the host stretch, which at the ideal instance is plain rearrangement and addition of argument arrays: a change of
float format is the identity, a stack of matrices is read block of rows by block of rows, a vector made into a
one-column matrix is read at its row, and two pairs of bias vectors are added entrywise and stacked. So every entry
of every input block is an entry (or a sum of two entries) of the argument arrays as launched, and the sixteen
output blocks, one per point, partition the output array by columns. -/

set_option maxRecDepth 16384

noncomputable section

namespace Cert.KernelIdeal.Win

open Cert.KernelIdeal Cert.KernelIdeal.Gen Cert.GruNet
open Idealize.ShloMosaic Idealize.ShloMosaic.TcCoe Idealize.ShloMosaic.ValueIdx Idealize.SL.Sem
open Idealize.ShloMosaic.Pipeline (Dat)

/-! ## The block index of every window at every point -/

/-- The batch windows and the output window: block row 0, block column `t`. -/
theorem idx_batch : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_21.index t (0 : Fin 2) = 0 ∧ win0_21.index t (1 : Fin 2) = t.val :=
  (by decide +kernel : ∀ t : Fin grid0.N, _)

/-! The weight windows: block (0, 0) at every point. -/
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)

/-! ## The batch windows

Entry (k, q) of the block at point `t` is entry (k, 1024·t + q) of the array, and the region finds the array as
launched. -/

theorem blk0 (m : (ℓ : Loc nD τ sig) → Buf (Elt Ideal) ℓ) (c : Dev nD) (t : Fin cfg0.N) (ht : t.val < 16) (k : Fin 257) (q : Fin 1024) :
    Frm.iblk m c 0 t (ix2 k q) = (m ((c : Thread nD τ).loc main_arg0) : S257x16384.Idx → EReal) (ix2 k (colAt t.val ht q)) := by
  rw [← Frm.V_main_arg0 m c]
  show Frm.V m c main_arg0 (((cfg0.win 0).blk t).view.emb (ix2 k q)) = Frm.V m c main_arg0 (ix2 k (colAt t.val ht q))
  obtain ⟨e0, e1, -⟩ := idx_batch t
  refine congrArg _ (funext fun a => Fin.ext ?_)
  match a with
  | ⟨0, _⟩ => show win0_0.index t (0 : Fin 2) * 257 + 1 * k.val = k.val; omega
  | ⟨1, _⟩ => show win0_0.index t (1 : Fin 2) * 1024 + 1 * q.val = 1024 * t.val + q.val; omega

theorem blk1 (m : (ℓ : Loc nD τ sig) → Buf (Elt Ideal) ℓ) (c : Dev nD) (t : Fin cfg0.N) (ht : t.val < 16) (k : Fin 400) (q : Fin 1024) :
    Frm.iblk m c 1 t (ix2 k q) = (m ((c : Thread nD τ).loc main_arg1) : S400x16384.Idx → EReal) (ix2 k (colAt t.val ht q)) := by
  rw [← Frm.V_main_arg1 m c]
  show Frm.V m c main_arg1 (((cfg0.win 1).blk t).view.emb (ix2 k q)) = Frm.V m c main_arg1 (ix2 k (colAt t.val ht q))
  obtain ⟨-, -, e0, e1, -⟩ := idx_batch t
  refine congrArg _ (funext fun a => Fin.ext ?_)
  match a with
  | ⟨0, _⟩ => show win0_1.index t (0 : Fin 2) * 400 + 1 * k.val = k.val; omega
  | ⟨1, _⟩ => show win0_1.index t (1 : Fin 2) * 1024 + 1 * q.val = 1024 * t.val + q.val; omega

theorem blk2 (m : (ℓ : Loc nD τ sig) → Buf (Elt Ideal) ℓ) (c : Dev nD) (t : Fin cfg0.N) (ht : t.val < 16) (k : Fin 400) (q : Fin 1024) :
    Frm.iblk m c 2 t (ix2 k q) = (m ((c : Thread nD τ).loc main_arg2) : S400x16384.Idx → EReal) (ix2 k (colAt t.val ht q)) := by
  rw [← Frm.V_main_arg2 m c]
  show Frm.V m c main_arg2 (((cfg0.win 2).blk t).view.emb (ix2 k q)) = Frm.V m c main_arg2 (ix2 k (colAt t.val ht q))
  obtain ⟨-, -, -, -, e0, e1, -⟩ := idx_batch t
  refine congrArg _ (funext fun a => Fin.ext ?_)
  match a with
  | ⟨0, _⟩ => show win0_2.index t (0 : Fin 2) * 400 + 1 * k.val = k.val; omega
  | ⟨1, _⟩ => show win0_2.index t (1 : Fin 2) * 1024 + 1 * q.val = 1024 * t.val + q.val; omega

/-! ## The weight windows: a block is the whole array -/

theorem whole3 (m : (ℓ : Loc nD τ sig) → Buf (Elt Ideal) ℓ) (c : Dev nD) (t : Fin cfg0.N) (p : Fin 400) (j : Fin 257) :
    Frm.iblk m c 3 t (ix2 p j) = (Frm.V m c main_v0 : S400x257.Idx → EReal) (ix2 p j) := by
  show Frm.V m c main_v0 (((cfg0.win 3).blk t).view.emb (ix2 p j)) = Frm.V m c main_v0 (ix2 p j)
  obtain ⟨e0, e1⟩ := idx3 t
  refine congrArg _ (funext fun a => Fin.ext ?_)
  match a with
  | ⟨0, _⟩ => show win0_3.index t (0 : Fin 2) * 400 + 1 * p.val = p.val; omega
  | ⟨1, _⟩ => show win0_3.index t (1 : Fin 2) * 257 + 1 * j.val = j.val; omega
theorem whole4 (m : (ℓ : Loc nD τ sig) → Buf (Elt Ideal) ℓ) (c : Dev nD) (t : Fin cfg0.N) (p : Fin 400) (j : Fin 1) :
    Frm.iblk m c 4 t (ix2 p j) = (Frm.V m c main_v17 : S400x1.Idx → EReal) (ix2 p j) := by
  show Frm.V m c main_v17 (((cfg0.win 4).blk t).view.emb (ix2 p j)) = Frm.V m c main_v17 (ix2 p j)
  obtain ⟨e0, e1⟩ := idx4 t
  refine congrArg _ (funext fun a => Fin.ext ?_)
  match a with
  | ⟨0, _⟩ => show win0_4.index t (0 : Fin 2) * 400 + 1 * p.val = p.val; omega
  | ⟨1, _⟩ => show win0_4.index t (1 : Fin 2) * 1 + 1 * j.val = j.val; omega
theorem whole5 (m : (ℓ : Loc nD τ sig) → Buf (Elt Ideal) ℓ) (c : Dev nD) (t : Fin cfg0.N) (p : Fin 1200) (j : Fin 400) :
    Frm.iblk m c 5 t (ix2 p j) = (Frm.V m c main_v2 : S1200x400.Idx → EReal) (ix2 p j) := by
  show Frm.V m c main_v2 (((cfg0.win 5).blk t).view.emb (ix2 p j)) = Frm.V m c main_v2 (ix2 p j)
  obtain ⟨e0, e1⟩ := idx5 t
  refine congrArg _ (funext fun a => Fin.ext ?_)
  match a with
  | ⟨0, _⟩ => show win0_5.index t (0 : Fin 2) * 1200 + 1 * p.val = p.val; omega
  | ⟨1, _⟩ => show win0_5.index t (1 : Fin 2) * 400 + 1 * j.val = j.val; omega
theorem whole6 (m : (ℓ : Loc nD τ sig) → Buf (Elt Ideal) ℓ) (c : Dev nD) (t : Fin cfg0.N) (p : Fin 1200) (j : Fin 400) :
    Frm.iblk m c 6 t (ix2 p j) = (Frm.V m c main_v4 : S1200x400.Idx → EReal) (ix2 p j) := by
  show Frm.V m c main_v4 (((cfg0.win 6).blk t).view.emb (ix2 p j)) = Frm.V m c main_v4 (ix2 p j)
  obtain ⟨e0, e1⟩ := idx6 t
  refine congrArg _ (funext fun a => Fin.ext ?_)
  match a with
  | ⟨0, _⟩ => show win0_6.index t (0 : Fin 2) * 1200 + 1 * p.val = p.val; omega
  | ⟨1, _⟩ => show win0_6.index t (1 : Fin 2) * 400 + 1 * j.val = j.val; omega
theorem whole7 (m : (ℓ : Loc nD τ sig) → Buf (Elt Ideal) ℓ) (c : Dev nD) (t : Fin cfg0.N) (p : Fin 800) (j : Fin 1) :
    Frm.iblk m c 7 t (ix2 p j) = (Frm.V m c main_v12 : S800x1.Idx → EReal) (ix2 p j) := by
  show Frm.V m c main_v12 (((cfg0.win 7).blk t).view.emb (ix2 p j)) = Frm.V m c main_v12 (ix2 p j)
  obtain ⟨e0, e1⟩ := idx7 t
  refine congrArg _ (funext fun a => Fin.ext ?_)
  match a with
  | ⟨0, _⟩ => show win0_7.index t (0 : Fin 2) * 800 + 1 * p.val = p.val; omega
  | ⟨1, _⟩ => show win0_7.index t (1 : Fin 2) * 1 + 1 * j.val = j.val; omega
theorem whole8 (m : (ℓ : Loc nD τ sig) → Buf (Elt Ideal) ℓ) (c : Dev nD) (t : Fin cfg0.N) (p : Fin 400) (j : Fin 1) :
    Frm.iblk m c 8 t (ix2 p j) = (Frm.V m c main_v18 : S400x1.Idx → EReal) (ix2 p j) := by
  show Frm.V m c main_v18 (((cfg0.win 8).blk t).view.emb (ix2 p j)) = Frm.V m c main_v18 (ix2 p j)
  obtain ⟨e0, e1⟩ := idx8 t
  refine congrArg _ (funext fun a => Fin.ext ?_)
  match a with
  | ⟨0, _⟩ => show win0_8.index t (0 : Fin 2) * 400 + 1 * p.val = p.val; omega
  | ⟨1, _⟩ => show win0_8.index t (1 : Fin 2) * 1 + 1 * j.val = j.val; omega
theorem whole9 (m : (ℓ : Loc nD τ sig) → Buf (Elt Ideal) ℓ) (c : Dev nD) (t : Fin cfg0.N) (p : Fin 400) (j : Fin 1) :
    Frm.iblk m c 9 t (ix2 p j) = (Frm.V m c main_v19 : S400x1.Idx → EReal) (ix2 p j) := by
  show Frm.V m c main_v19 (((cfg0.win 9).blk t).view.emb (ix2 p j)) = Frm.V m c main_v19 (ix2 p j)
  obtain ⟨e0, e1⟩ := idx9 t
  refine congrArg _ (funext fun a => Fin.ext ?_)
  match a with
  | ⟨0, _⟩ => show win0_9.index t (0 : Fin 2) * 400 + 1 * p.val = p.val; omega
  | ⟨1, _⟩ => show win0_9.index t (1 : Fin 2) * 1 + 1 * j.val = j.val; omega
theorem whole10 (m : (ℓ : Loc nD τ sig) → Buf (Elt Ideal) ℓ) (c : Dev nD) (t : Fin cfg0.N) (p : Fin 1200) (j : Fin 400) :
    Frm.iblk m c 10 t (ix2 p j) = (Frm.V m c main_v6 : S1200x400.Idx → EReal) (ix2 p j) := by
  show Frm.V m c main_v6 (((cfg0.win 10).blk t).view.emb (ix2 p j)) = Frm.V m c main_v6 (ix2 p j)
  obtain ⟨e0, e1⟩ := idx10 t
  refine congrArg _ (funext fun a => Fin.ext ?_)
  match a with
  | ⟨0, _⟩ => show win0_10.index t (0 : Fin 2) * 1200 + 1 * p.val = p.val; omega
  | ⟨1, _⟩ => show win0_10.index t (1 : Fin 2) * 400 + 1 * j.val = j.val; omega
theorem whole11 (m : (ℓ : Loc nD τ sig) → Buf (Elt Ideal) ℓ) (c : Dev nD) (t : Fin cfg0.N) (p : Fin 1200) (j : Fin 400) :
    Frm.iblk m c 11 t (ix2 p j) = (Frm.V m c main_v8 : S1200x400.Idx → EReal) (ix2 p j) := by
  show Frm.V m c main_v8 (((cfg0.win 11).blk t).view.emb (ix2 p j)) = Frm.V m c main_v8 (ix2 p j)
  obtain ⟨e0, e1⟩ := idx11 t
  refine congrArg _ (funext fun a => Fin.ext ?_)
  match a with
  | ⟨0, _⟩ => show win0_11.index t (0 : Fin 2) * 1200 + 1 * p.val = p.val; omega
  | ⟨1, _⟩ => show win0_11.index t (1 : Fin 2) * 400 + 1 * j.val = j.val; omega
theorem whole12 (m : (ℓ : Loc nD τ sig) → Buf (Elt Ideal) ℓ) (c : Dev nD) (t : Fin cfg0.N) (p : Fin 800) (j : Fin 1) :
    Frm.iblk m c 12 t (ix2 p j) = (Frm.V m c main_v16 : S800x1.Idx → EReal) (ix2 p j) := by
  show Frm.V m c main_v16 (((cfg0.win 12).blk t).view.emb (ix2 p j)) = Frm.V m c main_v16 (ix2 p j)
  obtain ⟨e0, e1⟩ := idx12 t
  refine congrArg _ (funext fun a => Fin.ext ?_)
  match a with
  | ⟨0, _⟩ => show win0_12.index t (0 : Fin 2) * 800 + 1 * p.val = p.val; omega
  | ⟨1, _⟩ => show win0_12.index t (1 : Fin 2) * 1 + 1 * j.val = j.val; omega
theorem whole13 (m : (ℓ : Loc nD τ sig) → Buf (Elt Ideal) ℓ) (c : Dev nD) (t : Fin cfg0.N) (p : Fin 400) (j : Fin 1) :
    Frm.iblk m c 13 t (ix2 p j) = (Frm.V m c main_v20 : S400x1.Idx → EReal) (ix2 p j) := by
  show Frm.V m c main_v20 (((cfg0.win 13).blk t).view.emb (ix2 p j)) = Frm.V m c main_v20 (ix2 p j)
  obtain ⟨e0, e1⟩ := idx13 t
  refine congrArg _ (funext fun a => Fin.ext ?_)
  match a with
  | ⟨0, _⟩ => show win0_13.index t (0 : Fin 2) * 400 + 1 * p.val = p.val; omega
  | ⟨1, _⟩ => show win0_13.index t (1 : Fin 2) * 1 + 1 * j.val = j.val; omega
theorem whole14 (m : (ℓ : Loc nD τ sig) → Buf (Elt Ideal) ℓ) (c : Dev nD) (t : Fin cfg0.N) (p : Fin 400) (j : Fin 1) :
    Frm.iblk m c 14 t (ix2 p j) = (Frm.V m c main_v21 : S400x1.Idx → EReal) (ix2 p j) := by
  show Frm.V m c main_v21 (((cfg0.win 14).blk t).view.emb (ix2 p j)) = Frm.V m c main_v21 (ix2 p j)
  obtain ⟨e0, e1⟩ := idx14 t
  refine congrArg _ (funext fun a => Fin.ext ?_)
  match a with
  | ⟨0, _⟩ => show win0_14.index t (0 : Fin 2) * 400 + 1 * p.val = p.val; omega
  | ⟨1, _⟩ => show win0_14.index t (1 : Fin 2) * 1 + 1 * j.val = j.val; omega
theorem whole15 (m : (ℓ : Loc nD τ sig) → Buf (Elt Ideal) ℓ) (c : Dev nD) (t : Fin cfg0.N) (p : Fin 600) (j : Fin 400) :
    Frm.iblk m c 15 t (ix2 p j) = (Frm.V m c main_v25 : S600x400.Idx → EReal) (ix2 p j) := by
  show Frm.V m c main_v25 (((cfg0.win 15).blk t).view.emb (ix2 p j)) = Frm.V m c main_v25 (ix2 p j)
  obtain ⟨e0, e1⟩ := idx15 t
  refine congrArg _ (funext fun a => Fin.ext ?_)
  match a with
  | ⟨0, _⟩ => show win0_15.index t (0 : Fin 2) * 600 + 1 * p.val = p.val; omega
  | ⟨1, _⟩ => show win0_15.index t (1 : Fin 2) * 400 + 1 * j.val = j.val; omega
theorem whole16 (m : (ℓ : Loc nD τ sig) → Buf (Elt Ideal) ℓ) (c : Dev nD) (t : Fin cfg0.N) (p : Fin 600) (j : Fin 1) :
    Frm.iblk m c 16 t (ix2 p j) = (Frm.V m c main_v22 : S600x1.Idx → EReal) (ix2 p j) := by
  show Frm.V m c main_v22 (((cfg0.win 16).blk t).view.emb (ix2 p j)) = Frm.V m c main_v22 (ix2 p j)
  obtain ⟨e0, e1⟩ := idx16 t
  refine congrArg _ (funext fun a => Fin.ext ?_)
  match a with
  | ⟨0, _⟩ => show win0_16.index t (0 : Fin 2) * 600 + 1 * p.val = p.val; omega
  | ⟨1, _⟩ => show win0_16.index t (1 : Fin 2) * 1 + 1 * j.val = j.val; omega
theorem whole17 (m : (ℓ : Loc nD τ sig) → Buf (Elt Ideal) ℓ) (c : Dev nD) (t : Fin cfg0.N) (p : Fin 600) (j : Fin 600) :
    Frm.iblk m c 17 t (ix2 p j) = (Frm.V m c main_v26 : S600x600.Idx → EReal) (ix2 p j) := by
  show Frm.V m c main_v26 (((cfg0.win 17).blk t).view.emb (ix2 p j)) = Frm.V m c main_v26 (ix2 p j)
  obtain ⟨e0, e1⟩ := idx17 t
  refine congrArg _ (funext fun a => Fin.ext ?_)
  match a with
  | ⟨0, _⟩ => show win0_17.index t (0 : Fin 2) * 600 + 1 * p.val = p.val; omega
  | ⟨1, _⟩ => show win0_17.index t (1 : Fin 2) * 600 + 1 * j.val = j.val; omega
theorem whole18 (m : (ℓ : Loc nD τ sig) → Buf (Elt Ideal) ℓ) (c : Dev nD) (t : Fin cfg0.N) (p : Fin 600) (j : Fin 1) :
    Frm.iblk m c 18 t (ix2 p j) = (Frm.V m c main_v23 : S600x1.Idx → EReal) (ix2 p j) := by
  show Frm.V m c main_v23 (((cfg0.win 18).blk t).view.emb (ix2 p j)) = Frm.V m c main_v23 (ix2 p j)
  obtain ⟨e0, e1⟩ := idx18 t
  refine congrArg _ (funext fun a => Fin.ext ?_)
  match a with
  | ⟨0, _⟩ => show win0_18.index t (0 : Fin 2) * 600 + 1 * p.val = p.val; omega
  | ⟨1, _⟩ => show win0_18.index t (1 : Fin 2) * 1 + 1 * j.val = j.val; omega
theorem whole19 (m : (ℓ : Loc nD τ sig) → Buf (Elt Ideal) ℓ) (c : Dev nD) (t : Fin cfg0.N) (p : Fin 257) (j : Fin 600) :
    Frm.iblk m c 19 t (ix2 p j) = (Frm.V m c main_v27 : S257x600.Idx → EReal) (ix2 p j) := by
  show Frm.V m c main_v27 (((cfg0.win 19).blk t).view.emb (ix2 p j)) = Frm.V m c main_v27 (ix2 p j)
  obtain ⟨e0, e1⟩ := idx19 t
  refine congrArg _ (funext fun a => Fin.ext ?_)
  match a with
  | ⟨0, _⟩ => show win0_19.index t (0 : Fin 2) * 257 + 1 * p.val = p.val; omega
  | ⟨1, _⟩ => show win0_19.index t (1 : Fin 2) * 600 + 1 * j.val = j.val; omega
theorem whole20 (m : (ℓ : Loc nD τ sig) → Buf (Elt Ideal) ℓ) (c : Dev nD) (t : Fin cfg0.N) (p : Fin 257) (j : Fin 1) :
    Frm.iblk m c 20 t (ix2 p j) = (Frm.V m c main_v24 : S257x1.Idx → EReal) (ix2 p j) := by
  show Frm.V m c main_v24 (((cfg0.win 20).blk t).view.emb (ix2 p j)) = Frm.V m c main_v24 (ix2 p j)
  obtain ⟨e0, e1⟩ := idx20 t
  refine congrArg _ (funext fun a => Fin.ext ?_)
  match a with
  | ⟨0, _⟩ => show win0_20.index t (0 : Fin 2) * 257 + 1 * p.val = p.val; omega
  | ⟨1, _⟩ => show win0_20.index t (1 : Fin 2) * 1 + 1 * j.val = j.val; omega

/-! ## Stacks read at a row

Three 400 × 400 matrices stacked along the rows: row o + p of the stack, for o = 0, 400, 800, is row p of the first,
second, third. Two 400-vectors stacked: entry o + p, for o = 0, 400, is entry p of the first, second. -/

theorem stack3_r (x0 x1 x2 : S400x400.Idx → EReal) (h : Shape.Concatenates [S400x400, S400x400, S400x400] S1200x400 0) (p j : Fin 400) :
    concatenate S1200x400 0 [⟨S400x400, x0⟩, ⟨S400x400, x1⟩, ⟨S400x400, x2⟩] h (ix2 (rowAt 0 1200 (by omega) p) j) = x0 (ix2 p j) :=
  concatenate_apply_piece (t := S1200x400) (0 : Fin 2) [⟨S400x400, x0⟩, ⟨S400x400, x1⟩, ⟨S400x400, x2⟩] h
    (ix2 (rowAt 0 1200 (by omega) p) j) 0 (by show (0 : ℕ) < 3; omega) S400x400 x0 rfl rfl 0 (by rfl) (ix2 p j)
    (fun b hb => by match b with | ⟨0, _⟩ => exact absurd rfl hb | ⟨1, _⟩ => rfl)
    (by rfl)
theorem stack3_z (x0 x1 x2 : S400x400.Idx → EReal) (h : Shape.Concatenates [S400x400, S400x400, S400x400] S1200x400 0) (p j : Fin 400) :
    concatenate S1200x400 0 [⟨S400x400, x0⟩, ⟨S400x400, x1⟩, ⟨S400x400, x2⟩] h (ix2 (rowAt 400 1200 (by omega) p) j) = x1 (ix2 p j) :=
  concatenate_apply_piece (t := S1200x400) (0 : Fin 2) [⟨S400x400, x0⟩, ⟨S400x400, x1⟩, ⟨S400x400, x2⟩] h
    (ix2 (rowAt 400 1200 (by omega) p) j) 1 (by show (1 : ℕ) < 3; omega) S400x400 x1 rfl rfl 400 (by rfl) (ix2 p j)
    (fun b hb => by match b with | ⟨0, _⟩ => exact absurd rfl hb | ⟨1, _⟩ => rfl)
    (by rfl)
theorem stack3_n (x0 x1 x2 : S400x400.Idx → EReal) (h : Shape.Concatenates [S400x400, S400x400, S400x400] S1200x400 0) (p j : Fin 400) :
    concatenate S1200x400 0 [⟨S400x400, x0⟩, ⟨S400x400, x1⟩, ⟨S400x400, x2⟩] h (ix2 (rowAt 800 1200 (by omega) p) j) = x2 (ix2 p j) :=
  concatenate_apply_piece (t := S1200x400) (0 : Fin 2) [⟨S400x400, x0⟩, ⟨S400x400, x1⟩, ⟨S400x400, x2⟩] h
    (ix2 (rowAt 800 1200 (by omega) p) j) 2 (by show (2 : ℕ) < 3; omega) S400x400 x2 rfl rfl 800 (by rfl) (ix2 p j)
    (fun b hb => by match b with | ⟨0, _⟩ => exact absurd rfl hb | ⟨1, _⟩ => rfl)
    (by rfl)

theorem stack2_r (x0 x1 : S400.Idx → EReal) (h : Shape.Concatenates [S400, S400] S800 0) (p : Fin 400) :
    concatenate S800 0 [⟨S400, x0⟩, ⟨S400, x1⟩] h (ix1 (rowAt 0 800 (by omega) p)) = x0 (ix1 p) :=
  concatenate_pair_apply_left (t := S800) (s₁ := S400) (s₂ := S400) (0 : Fin 1) x0 x1 h (ix1 (rowAt 0 800 (by omega) p)) rfl (ix1 p) (fun b => by
    match b with | ⟨0, _⟩ => show p.val = 0 + p.val; omega)
theorem stack2_z (x0 x1 : S400.Idx → EReal) (h : Shape.Concatenates [S400, S400] S800 0) (p : Fin 400) :
    concatenate S800 0 [⟨S400, x0⟩, ⟨S400, x1⟩] h (ix1 (rowAt 400 800 (by omega) p)) = x1 (ix1 p) :=
  concatenate_pair_apply_right (t := S800) (s₁ := S400) (s₂ := S400) (0 : Fin 1) x0 x1 h (ix1 (rowAt 400 800 (by omega) p)) rfl rfl (ix1 p)
    (fun b hb => by match b with | ⟨0, _⟩ => exact absurd rfl hb)
    (by show p.val + 400 = 400 + p.val; omega)

/-- A vector made into a one-column matrix, read at row `r`, is the vector at `r`. -/
theorem column_at {a : ℕ} (x : (⟨1, ![a]⟩ : Shape).Idx → EReal) (h : (⟨1, ![a]⟩ : Shape).ShapeCasts ⟨2, ![a, 1]⟩) (r : Fin a) :
    shapeCast (⟨2, ![a, 1]⟩ : Shape) x h (ix2 r (0 : Fin 1)) = x (ix1 r) :=
  shapeCast_apply x h (ix2 r (0 : Fin 1)) (ix1 r) (by
    rw [Shape.rowMajor_val_one, Shape.rowMajor_val_two]; show r.val = r.val * 1 + 0; omega)

/-! ## What the host stretch wrote, entry by entry

Each weight window's array, as the region finds it, in terms of the argument arrays as launched. -/

/-- `main_v0` is argument 3 in another float format: at the ideal instance, argument 3. -/
theorem host3 (m : (ℓ : Loc nD τ sig) → Buf (Elt Ideal) ℓ) (c : Dev nD) (i : S400x257.Idx) :
    (Frm.V m c main_v0 : S400x257.Idx → EReal) i = (m ((c : Thread nD τ).loc main_arg3) : S400x257.Idx → EReal) i := by
  dsimp only [Frm.V]
  simp only [hostOps0, List.flatten_cons, List.flatten_nil, List.append_nil]
  after_results
  rfl
/-- `main_v17` is argument 4 as a one-column matrix. -/
theorem host4 (m : (ℓ : Loc nD τ sig) → Buf (Elt Ideal) ℓ) (c : Dev nD) (p : Fin 400) :
    (Frm.V m c main_v17 : S400x1.Idx → EReal) (ix2 p (0 : Fin 1)) = (m ((c : Thread nD τ).loc main_arg4) : S400.Idx → EReal) (ix1 p) := by
  dsimp only [Frm.V]
  simp only [hostOps0, List.flatten_cons, List.flatten_nil, List.append_nil]
  after_results
  exact column_at _ _ p
/-- `main_v2` is the stack of arguments 6, 5, 7, in that order, in another float format. -/
theorem host5 (m : (ℓ : Loc nD τ sig) → Buf (Elt Ideal) ℓ) (c : Dev nD) (i : S1200x400.Idx) :
    (Frm.V m c main_v2 : S1200x400.Idx → EReal) i
      = concatenate S1200x400 0 [⟨S400x400, (m ((c : Thread nD τ).loc main_arg6) : S400x400.Idx → EReal)⟩, ⟨S400x400, (m ((c : Thread nD τ).loc main_arg5) : S400x400.Idx → EReal)⟩, ⟨S400x400, (m ((c : Thread nD τ).loc main_arg7) : S400x400.Idx → EReal)⟩]
          concatenates_S400x400_S400x400_S400x400_S1200x400_d0 i := by
  dsimp only [Frm.V]
  simp only [hostOps0, List.flatten_cons, List.flatten_nil, List.append_nil]
  after_results
  after_results_simp
  rfl
/-- `main_v4` is the stack of arguments 9, 8, 10, in that order, in another float format. -/
theorem host6 (m : (ℓ : Loc nD τ sig) → Buf (Elt Ideal) ℓ) (c : Dev nD) (i : S1200x400.Idx) :
    (Frm.V m c main_v4 : S1200x400.Idx → EReal) i
      = concatenate S1200x400 0 [⟨S400x400, (m ((c : Thread nD τ).loc main_arg9) : S400x400.Idx → EReal)⟩, ⟨S400x400, (m ((c : Thread nD τ).loc main_arg8) : S400x400.Idx → EReal)⟩, ⟨S400x400, (m ((c : Thread nD τ).loc main_arg10) : S400x400.Idx → EReal)⟩]
          concatenates_S400x400_S400x400_S400x400_S1200x400_d0 i := by
  dsimp only [Frm.V]
  simp only [hostOps0, List.flatten_cons, List.flatten_nil, List.append_nil]
  after_results
  after_results_simp
  rfl
set_option maxHeartbeats 1000000 in
/-- `main_v12` is, as a one-column matrix, the stack of argument 12 + argument 15 and argument 11 + argument 14. -/
theorem host7 (m : (ℓ : Loc nD τ sig) → Buf (Elt Ideal) ℓ) (c : Dev nD) (r : Fin 800) :
    (Frm.V m c main_v12 : S800x1.Idx → EReal) (ix2 r (0 : Fin 1))
      = concatenate S800 0 [⟨S400, addf (F := Ideal) (φ := .f32) (m ((c : Thread nD τ).loc main_arg12) : S400.Idx → EReal) (m ((c : Thread nD τ).loc main_arg15) : S400.Idx → EReal)⟩, ⟨S400, addf (F := Ideal) (φ := .f32) (m ((c : Thread nD τ).loc main_arg11) : S400.Idx → EReal) (m ((c : Thread nD τ).loc main_arg14) : S400.Idx → EReal)⟩]
          concatenates_S400_S400_S800_d0 (ix1 r) := by
  dsimp only [Frm.V]
  simp only [hostOps0, List.flatten_cons, List.flatten_nil, List.append_nil]
  after_results_simp
  exact column_at _ _ r
/-- `main_v18` is argument 13 as a one-column matrix. -/
theorem host8 (m : (ℓ : Loc nD τ sig) → Buf (Elt Ideal) ℓ) (c : Dev nD) (p : Fin 400) :
    (Frm.V m c main_v18 : S400x1.Idx → EReal) (ix2 p (0 : Fin 1)) = (m ((c : Thread nD τ).loc main_arg13) : S400.Idx → EReal) (ix1 p) := by
  dsimp only [Frm.V]
  simp only [hostOps0, List.flatten_cons, List.flatten_nil, List.append_nil]
  after_results
  exact column_at _ _ p
/-- `main_v19` is argument 16 as a one-column matrix. -/
theorem host9 (m : (ℓ : Loc nD τ sig) → Buf (Elt Ideal) ℓ) (c : Dev nD) (p : Fin 400) :
    (Frm.V m c main_v19 : S400x1.Idx → EReal) (ix2 p (0 : Fin 1)) = (m ((c : Thread nD τ).loc main_arg16) : S400.Idx → EReal) (ix1 p) := by
  dsimp only [Frm.V]
  simp only [hostOps0, List.flatten_cons, List.flatten_nil, List.append_nil]
  after_results
  exact column_at _ _ p
/-- `main_v6` is the stack of arguments 18, 17, 19, in that order, in another float format. -/
theorem host10 (m : (ℓ : Loc nD τ sig) → Buf (Elt Ideal) ℓ) (c : Dev nD) (i : S1200x400.Idx) :
    (Frm.V m c main_v6 : S1200x400.Idx → EReal) i
      = concatenate S1200x400 0 [⟨S400x400, (m ((c : Thread nD τ).loc main_arg18) : S400x400.Idx → EReal)⟩, ⟨S400x400, (m ((c : Thread nD τ).loc main_arg17) : S400x400.Idx → EReal)⟩, ⟨S400x400, (m ((c : Thread nD τ).loc main_arg19) : S400x400.Idx → EReal)⟩]
          concatenates_S400x400_S400x400_S400x400_S1200x400_d0 i := by
  dsimp only [Frm.V]
  simp only [hostOps0, List.flatten_cons, List.flatten_nil, List.append_nil]
  after_results
  after_results_simp
  rfl
/-- `main_v8` is the stack of arguments 21, 20, 22, in that order, in another float format. -/
theorem host11 (m : (ℓ : Loc nD τ sig) → Buf (Elt Ideal) ℓ) (c : Dev nD) (i : S1200x400.Idx) :
    (Frm.V m c main_v8 : S1200x400.Idx → EReal) i
      = concatenate S1200x400 0 [⟨S400x400, (m ((c : Thread nD τ).loc main_arg21) : S400x400.Idx → EReal)⟩, ⟨S400x400, (m ((c : Thread nD τ).loc main_arg20) : S400x400.Idx → EReal)⟩, ⟨S400x400, (m ((c : Thread nD τ).loc main_arg22) : S400x400.Idx → EReal)⟩]
          concatenates_S400x400_S400x400_S400x400_S1200x400_d0 i := by
  dsimp only [Frm.V]
  simp only [hostOps0, List.flatten_cons, List.flatten_nil, List.append_nil]
  after_results
  after_results_simp
  rfl
set_option maxHeartbeats 1000000 in
/-- `main_v16` is, as a one-column matrix, the stack of argument 24 + argument 27 and argument 23 + argument 26. -/
theorem host12 (m : (ℓ : Loc nD τ sig) → Buf (Elt Ideal) ℓ) (c : Dev nD) (r : Fin 800) :
    (Frm.V m c main_v16 : S800x1.Idx → EReal) (ix2 r (0 : Fin 1))
      = concatenate S800 0 [⟨S400, addf (F := Ideal) (φ := .f32) (m ((c : Thread nD τ).loc main_arg24) : S400.Idx → EReal) (m ((c : Thread nD τ).loc main_arg27) : S400.Idx → EReal)⟩, ⟨S400, addf (F := Ideal) (φ := .f32) (m ((c : Thread nD τ).loc main_arg23) : S400.Idx → EReal) (m ((c : Thread nD τ).loc main_arg26) : S400.Idx → EReal)⟩]
          concatenates_S400_S400_S800_d0 (ix1 r) := by
  dsimp only [Frm.V]
  simp only [hostOps0, List.flatten_cons, List.flatten_nil, List.append_nil]
  after_results_simp
  exact column_at _ _ r
/-- `main_v20` is argument 25 as a one-column matrix. -/
theorem host13 (m : (ℓ : Loc nD τ sig) → Buf (Elt Ideal) ℓ) (c : Dev nD) (p : Fin 400) :
    (Frm.V m c main_v20 : S400x1.Idx → EReal) (ix2 p (0 : Fin 1)) = (m ((c : Thread nD τ).loc main_arg25) : S400.Idx → EReal) (ix1 p) := by
  dsimp only [Frm.V]
  simp only [hostOps0, List.flatten_cons, List.flatten_nil, List.append_nil]
  after_results
  exact column_at _ _ p
/-- `main_v21` is argument 28 as a one-column matrix. -/
theorem host14 (m : (ℓ : Loc nD τ sig) → Buf (Elt Ideal) ℓ) (c : Dev nD) (p : Fin 400) :
    (Frm.V m c main_v21 : S400x1.Idx → EReal) (ix2 p (0 : Fin 1)) = (m ((c : Thread nD τ).loc main_arg28) : S400.Idx → EReal) (ix1 p) := by
  dsimp only [Frm.V]
  simp only [hostOps0, List.flatten_cons, List.flatten_nil, List.append_nil]
  after_results
  exact column_at _ _ p
/-- `main_v25` is argument 29 in another float format: at the ideal instance, argument 29. -/
theorem host15 (m : (ℓ : Loc nD τ sig) → Buf (Elt Ideal) ℓ) (c : Dev nD) (i : S600x400.Idx) :
    (Frm.V m c main_v25 : S600x400.Idx → EReal) i = (m ((c : Thread nD τ).loc main_arg29) : S600x400.Idx → EReal) i := by
  dsimp only [Frm.V]
  simp only [hostOps0, List.flatten_cons, List.flatten_nil, List.append_nil]
  after_results
  rfl
/-- `main_v22` is argument 30 as a one-column matrix. -/
theorem host16 (m : (ℓ : Loc nD τ sig) → Buf (Elt Ideal) ℓ) (c : Dev nD) (p : Fin 600) :
    (Frm.V m c main_v22 : S600x1.Idx → EReal) (ix2 p (0 : Fin 1)) = (m ((c : Thread nD τ).loc main_arg30) : S600.Idx → EReal) (ix1 p) := by
  dsimp only [Frm.V]
  simp only [hostOps0, List.flatten_cons, List.flatten_nil, List.append_nil]
  after_results
  exact column_at _ _ p
/-- `main_v26` is argument 31 in another float format: at the ideal instance, argument 31. -/
theorem host17 (m : (ℓ : Loc nD τ sig) → Buf (Elt Ideal) ℓ) (c : Dev nD) (i : S600x600.Idx) :
    (Frm.V m c main_v26 : S600x600.Idx → EReal) i = (m ((c : Thread nD τ).loc main_arg31) : S600x600.Idx → EReal) i := by
  dsimp only [Frm.V]
  simp only [hostOps0, List.flatten_cons, List.flatten_nil, List.append_nil]
  after_results
  rfl
/-- `main_v23` is argument 32 as a one-column matrix. -/
theorem host18 (m : (ℓ : Loc nD τ sig) → Buf (Elt Ideal) ℓ) (c : Dev nD) (p : Fin 600) :
    (Frm.V m c main_v23 : S600x1.Idx → EReal) (ix2 p (0 : Fin 1)) = (m ((c : Thread nD τ).loc main_arg32) : S600.Idx → EReal) (ix1 p) := by
  dsimp only [Frm.V]
  simp only [hostOps0, List.flatten_cons, List.flatten_nil, List.append_nil]
  after_results
  exact column_at _ _ p
/-- `main_v27` is argument 33 in another float format: at the ideal instance, argument 33. -/
theorem host19 (m : (ℓ : Loc nD τ sig) → Buf (Elt Ideal) ℓ) (c : Dev nD) (i : S257x600.Idx) :
    (Frm.V m c main_v27 : S257x600.Idx → EReal) i = (m ((c : Thread nD τ).loc main_arg33) : S257x600.Idx → EReal) i := by
  dsimp only [Frm.V]
  simp only [hostOps0, List.flatten_cons, List.flatten_nil, List.append_nil]
  after_results
  rfl
/-- `main_v24` is argument 34 as a one-column matrix. -/
theorem host20 (m : (ℓ : Loc nD τ sig) → Buf (Elt Ideal) ℓ) (c : Dev nD) (p : Fin 257) :
    (Frm.V m c main_v24 : S257x1.Idx → EReal) (ix2 p (0 : Fin 1)) = (m ((c : Thread nD τ).loc main_arg34) : S257.Idx → EReal) (ix1 p) := by
  dsimp only [Frm.V]
  simp only [hostOps0, List.flatten_cons, List.flatten_nil, List.append_nil]
  after_results
  exact column_at _ _ p

/-! ## The weight windows' entries -/

theorem w3 (m : (ℓ : Loc nD τ sig) → Buf (Elt Ideal) ℓ) (c : Dev nD) (t : Fin cfg0.N) (p : Fin 400) (j : Fin 257) :
    Frm.iblk m c 3 t (ix2 p j) = (m ((c : Thread nD τ).loc main_arg3) : S400x257.Idx → EReal) (ix2 p j) :=
  (whole3 m c t p j).trans (host3 m c (ix2 p j))
theorem w4 (m : (ℓ : Loc nD τ sig) → Buf (Elt Ideal) ℓ) (c : Dev nD) (t : Fin cfg0.N) (p : Fin 400) :
    Frm.iblk m c 4 t (ix2 p (0 : Fin 1)) = (m ((c : Thread nD τ).loc main_arg4) : S400.Idx → EReal) (ix1 p) :=
  (whole4 m c t p 0).trans (host4 m c p)
theorem w5r (m : (ℓ : Loc nD τ sig) → Buf (Elt Ideal) ℓ) (c : Dev nD) (t : Fin cfg0.N) (p : Fin 400) (j : Fin 400) :
    Frm.iblk m c 5 t (ix2 (rowAt 0 1200 (by omega) p) j) = (m ((c : Thread nD τ).loc main_arg6) : S400x400.Idx → EReal) (ix2 p j) :=
  (whole5 m c t _ j).trans ((host5 m c _).trans (stack3_r _ _ _ _ p j))
theorem w5z (m : (ℓ : Loc nD τ sig) → Buf (Elt Ideal) ℓ) (c : Dev nD) (t : Fin cfg0.N) (p : Fin 400) (j : Fin 400) :
    Frm.iblk m c 5 t (ix2 (rowAt 400 1200 (by omega) p) j) = (m ((c : Thread nD τ).loc main_arg5) : S400x400.Idx → EReal) (ix2 p j) :=
  (whole5 m c t _ j).trans ((host5 m c _).trans (stack3_z _ _ _ _ p j))
theorem w5n (m : (ℓ : Loc nD τ sig) → Buf (Elt Ideal) ℓ) (c : Dev nD) (t : Fin cfg0.N) (p : Fin 400) (j : Fin 400) :
    Frm.iblk m c 5 t (ix2 (rowAt 800 1200 (by omega) p) j) = (m ((c : Thread nD τ).loc main_arg7) : S400x400.Idx → EReal) (ix2 p j) :=
  (whole5 m c t _ j).trans ((host5 m c _).trans (stack3_n _ _ _ _ p j))
theorem w6r (m : (ℓ : Loc nD τ sig) → Buf (Elt Ideal) ℓ) (c : Dev nD) (t : Fin cfg0.N) (p : Fin 400) (j : Fin 400) :
    Frm.iblk m c 6 t (ix2 (rowAt 0 1200 (by omega) p) j) = (m ((c : Thread nD τ).loc main_arg9) : S400x400.Idx → EReal) (ix2 p j) :=
  (whole6 m c t _ j).trans ((host6 m c _).trans (stack3_r _ _ _ _ p j))
theorem w6z (m : (ℓ : Loc nD τ sig) → Buf (Elt Ideal) ℓ) (c : Dev nD) (t : Fin cfg0.N) (p : Fin 400) (j : Fin 400) :
    Frm.iblk m c 6 t (ix2 (rowAt 400 1200 (by omega) p) j) = (m ((c : Thread nD τ).loc main_arg8) : S400x400.Idx → EReal) (ix2 p j) :=
  (whole6 m c t _ j).trans ((host6 m c _).trans (stack3_z _ _ _ _ p j))
theorem w6n (m : (ℓ : Loc nD τ sig) → Buf (Elt Ideal) ℓ) (c : Dev nD) (t : Fin cfg0.N) (p : Fin 400) (j : Fin 400) :
    Frm.iblk m c 6 t (ix2 (rowAt 800 1200 (by omega) p) j) = (m ((c : Thread nD τ).loc main_arg10) : S400x400.Idx → EReal) (ix2 p j) :=
  (whole6 m c t _ j).trans ((host6 m c _).trans (stack3_n _ _ _ _ p j))
theorem w7r (m : (ℓ : Loc nD τ sig) → Buf (Elt Ideal) ℓ) (c : Dev nD) (t : Fin cfg0.N) (p : Fin 400) :
    Frm.iblk m c 7 t (ix2 (rowAt 0 800 (by omega) p) (0 : Fin 1)) = HAdd.hAdd (α := EReal) (β := EReal) (γ := EReal) ((m ((c : Thread nD τ).loc main_arg12) : S400.Idx → EReal) (ix1 p)) ((m ((c : Thread nD τ).loc main_arg15) : S400.Idx → EReal) (ix1 p)) :=
  (whole7 m c t _ 0).trans ((host7 m c _).trans ((stack2_r _ _ _ p).trans rfl))
theorem w7z (m : (ℓ : Loc nD τ sig) → Buf (Elt Ideal) ℓ) (c : Dev nD) (t : Fin cfg0.N) (p : Fin 400) :
    Frm.iblk m c 7 t (ix2 (rowAt 400 800 (by omega) p) (0 : Fin 1)) = HAdd.hAdd (α := EReal) (β := EReal) (γ := EReal) ((m ((c : Thread nD τ).loc main_arg11) : S400.Idx → EReal) (ix1 p)) ((m ((c : Thread nD τ).loc main_arg14) : S400.Idx → EReal) (ix1 p)) :=
  (whole7 m c t _ 0).trans ((host7 m c _).trans ((stack2_z _ _ _ p).trans rfl))
theorem w8 (m : (ℓ : Loc nD τ sig) → Buf (Elt Ideal) ℓ) (c : Dev nD) (t : Fin cfg0.N) (p : Fin 400) :
    Frm.iblk m c 8 t (ix2 p (0 : Fin 1)) = (m ((c : Thread nD τ).loc main_arg13) : S400.Idx → EReal) (ix1 p) :=
  (whole8 m c t p 0).trans (host8 m c p)
theorem w9 (m : (ℓ : Loc nD τ sig) → Buf (Elt Ideal) ℓ) (c : Dev nD) (t : Fin cfg0.N) (p : Fin 400) :
    Frm.iblk m c 9 t (ix2 p (0 : Fin 1)) = (m ((c : Thread nD τ).loc main_arg16) : S400.Idx → EReal) (ix1 p) :=
  (whole9 m c t p 0).trans (host9 m c p)
theorem w10r (m : (ℓ : Loc nD τ sig) → Buf (Elt Ideal) ℓ) (c : Dev nD) (t : Fin cfg0.N) (p : Fin 400) (j : Fin 400) :
    Frm.iblk m c 10 t (ix2 (rowAt 0 1200 (by omega) p) j) = (m ((c : Thread nD τ).loc main_arg18) : S400x400.Idx → EReal) (ix2 p j) :=
  (whole10 m c t _ j).trans ((host10 m c _).trans (stack3_r _ _ _ _ p j))
theorem w10z (m : (ℓ : Loc nD τ sig) → Buf (Elt Ideal) ℓ) (c : Dev nD) (t : Fin cfg0.N) (p : Fin 400) (j : Fin 400) :
    Frm.iblk m c 10 t (ix2 (rowAt 400 1200 (by omega) p) j) = (m ((c : Thread nD τ).loc main_arg17) : S400x400.Idx → EReal) (ix2 p j) :=
  (whole10 m c t _ j).trans ((host10 m c _).trans (stack3_z _ _ _ _ p j))
theorem w10n (m : (ℓ : Loc nD τ sig) → Buf (Elt Ideal) ℓ) (c : Dev nD) (t : Fin cfg0.N) (p : Fin 400) (j : Fin 400) :
    Frm.iblk m c 10 t (ix2 (rowAt 800 1200 (by omega) p) j) = (m ((c : Thread nD τ).loc main_arg19) : S400x400.Idx → EReal) (ix2 p j) :=
  (whole10 m c t _ j).trans ((host10 m c _).trans (stack3_n _ _ _ _ p j))
theorem w11r (m : (ℓ : Loc nD τ sig) → Buf (Elt Ideal) ℓ) (c : Dev nD) (t : Fin cfg0.N) (p : Fin 400) (j : Fin 400) :
    Frm.iblk m c 11 t (ix2 (rowAt 0 1200 (by omega) p) j) = (m ((c : Thread nD τ).loc main_arg21) : S400x400.Idx → EReal) (ix2 p j) :=
  (whole11 m c t _ j).trans ((host11 m c _).trans (stack3_r _ _ _ _ p j))
theorem w11z (m : (ℓ : Loc nD τ sig) → Buf (Elt Ideal) ℓ) (c : Dev nD) (t : Fin cfg0.N) (p : Fin 400) (j : Fin 400) :
    Frm.iblk m c 11 t (ix2 (rowAt 400 1200 (by omega) p) j) = (m ((c : Thread nD τ).loc main_arg20) : S400x400.Idx → EReal) (ix2 p j) :=
  (whole11 m c t _ j).trans ((host11 m c _).trans (stack3_z _ _ _ _ p j))
theorem w11n (m : (ℓ : Loc nD τ sig) → Buf (Elt Ideal) ℓ) (c : Dev nD) (t : Fin cfg0.N) (p : Fin 400) (j : Fin 400) :
    Frm.iblk m c 11 t (ix2 (rowAt 800 1200 (by omega) p) j) = (m ((c : Thread nD τ).loc main_arg22) : S400x400.Idx → EReal) (ix2 p j) :=
  (whole11 m c t _ j).trans ((host11 m c _).trans (stack3_n _ _ _ _ p j))
theorem w12r (m : (ℓ : Loc nD τ sig) → Buf (Elt Ideal) ℓ) (c : Dev nD) (t : Fin cfg0.N) (p : Fin 400) :
    Frm.iblk m c 12 t (ix2 (rowAt 0 800 (by omega) p) (0 : Fin 1)) = HAdd.hAdd (α := EReal) (β := EReal) (γ := EReal) ((m ((c : Thread nD τ).loc main_arg24) : S400.Idx → EReal) (ix1 p)) ((m ((c : Thread nD τ).loc main_arg27) : S400.Idx → EReal) (ix1 p)) :=
  (whole12 m c t _ 0).trans ((host12 m c _).trans ((stack2_r _ _ _ p).trans rfl))
theorem w12z (m : (ℓ : Loc nD τ sig) → Buf (Elt Ideal) ℓ) (c : Dev nD) (t : Fin cfg0.N) (p : Fin 400) :
    Frm.iblk m c 12 t (ix2 (rowAt 400 800 (by omega) p) (0 : Fin 1)) = HAdd.hAdd (α := EReal) (β := EReal) (γ := EReal) ((m ((c : Thread nD τ).loc main_arg23) : S400.Idx → EReal) (ix1 p)) ((m ((c : Thread nD τ).loc main_arg26) : S400.Idx → EReal) (ix1 p)) :=
  (whole12 m c t _ 0).trans ((host12 m c _).trans ((stack2_z _ _ _ p).trans rfl))
theorem w13 (m : (ℓ : Loc nD τ sig) → Buf (Elt Ideal) ℓ) (c : Dev nD) (t : Fin cfg0.N) (p : Fin 400) :
    Frm.iblk m c 13 t (ix2 p (0 : Fin 1)) = (m ((c : Thread nD τ).loc main_arg25) : S400.Idx → EReal) (ix1 p) :=
  (whole13 m c t p 0).trans (host13 m c p)
theorem w14 (m : (ℓ : Loc nD τ sig) → Buf (Elt Ideal) ℓ) (c : Dev nD) (t : Fin cfg0.N) (p : Fin 400) :
    Frm.iblk m c 14 t (ix2 p (0 : Fin 1)) = (m ((c : Thread nD τ).loc main_arg28) : S400.Idx → EReal) (ix1 p) :=
  (whole14 m c t p 0).trans (host14 m c p)
theorem w15 (m : (ℓ : Loc nD τ sig) → Buf (Elt Ideal) ℓ) (c : Dev nD) (t : Fin cfg0.N) (p : Fin 600) (j : Fin 400) :
    Frm.iblk m c 15 t (ix2 p j) = (m ((c : Thread nD τ).loc main_arg29) : S600x400.Idx → EReal) (ix2 p j) :=
  (whole15 m c t p j).trans (host15 m c (ix2 p j))
theorem w16 (m : (ℓ : Loc nD τ sig) → Buf (Elt Ideal) ℓ) (c : Dev nD) (t : Fin cfg0.N) (p : Fin 600) :
    Frm.iblk m c 16 t (ix2 p (0 : Fin 1)) = (m ((c : Thread nD τ).loc main_arg30) : S600.Idx → EReal) (ix1 p) :=
  (whole16 m c t p 0).trans (host16 m c p)
theorem w17 (m : (ℓ : Loc nD τ sig) → Buf (Elt Ideal) ℓ) (c : Dev nD) (t : Fin cfg0.N) (p : Fin 600) (j : Fin 600) :
    Frm.iblk m c 17 t (ix2 p j) = (m ((c : Thread nD τ).loc main_arg31) : S600x600.Idx → EReal) (ix2 p j) :=
  (whole17 m c t p j).trans (host17 m c (ix2 p j))
theorem w18 (m : (ℓ : Loc nD τ sig) → Buf (Elt Ideal) ℓ) (c : Dev nD) (t : Fin cfg0.N) (p : Fin 600) :
    Frm.iblk m c 18 t (ix2 p (0 : Fin 1)) = (m ((c : Thread nD τ).loc main_arg32) : S600.Idx → EReal) (ix1 p) :=
  (whole18 m c t p 0).trans (host18 m c p)
theorem w19 (m : (ℓ : Loc nD τ sig) → Buf (Elt Ideal) ℓ) (c : Dev nD) (t : Fin cfg0.N) (p : Fin 257) (j : Fin 600) :
    Frm.iblk m c 19 t (ix2 p j) = (m ((c : Thread nD τ).loc main_arg33) : S257x600.Idx → EReal) (ix2 p j) :=
  (whole19 m c t p j).trans (host19 m c (ix2 p j))
theorem w20 (m : (ℓ : Loc nD τ sig) → Buf (Elt Ideal) ℓ) (c : Dev nD) (t : Fin cfg0.N) (p : Fin 257) :
    Frm.iblk m c 20 t (ix2 p (0 : Fin 1)) = (m ((c : Thread nD τ).loc main_arg34) : S257.Idx → EReal) (ix1 p) :=
  (whole20 m c t p 0).trans (host20 m c p)

/-! ## The output window

Entry (p, q) of the output block at point `t` is entry (p, 1024·t + q) of the output array; entry (r, s) of the
array lies in the block of point s / 1024, which is written back. -/

theorem emb21 (m : (ℓ : Loc nD τ sig) → Buf (Elt Ideal) ℓ) (c : Dev nD) (t : Fin cfg0.N) (ht : t.val < 16) (p : Fin 257) (q : Fin 1024) :
    ((cfg0.win 21).blk t).view.emb (ix2 p q) = ix2 p (colAt t.val ht q) := by
  obtain ⟨-, -, -, -, -, -, e0, e1⟩ := idx_batch t
  funext a; apply Fin.ext
  match a with
  | ⟨0, _⟩ => show win0_21.index t (0 : Fin 2) * 257 + 1 * p.val = p.val; omega
  | ⟨1, _⟩ => show win0_21.index t (1 : Fin 2) * 1024 + 1 * q.val = 1024 * t.val + q.val; omega

/-- An index of the output array is in point `t`'s block iff each coordinate is in the block's range on its axis. -/
theorem mem_blk21 (t : Fin cfg0.N) (i : S257x16384.Idx) :
    i ∈ ((cfg0.win 21).blk t).view.set ↔ ∀ a : Fin 2, win0_21.index t a * S257x1024.size a ≤ (i a).val ∧ (i a).val < win0_21.index t a * S257x1024.size a + S257x1024.size a := by
  show i ∈ ((View.whole main_v28).slice (win0_21.rect t)).set ↔ _
  rw [View.set_slice_whole, Rect.mem_set_unit]
  exact Iff.rfl

theorem cover21 (m : (ℓ : Loc nD τ sig) → Buf (Elt Ideal) ℓ) (c : Dev nD) :
    ∀ i : S257x16384.Idx, ∃ t : Fin cfg0.N, (cfg0.win 21).flush t = true ∧ i ∈ ((cfg0.win 21).blk t).view.set := by
  intro i
  have h0 : (i 0).val < 257 := idx2_lt0 i
  have h1 : (i 1).val < 16384 := idx2_lt1 i
  have hN : cfg0.N = 16 := N_0
  let t : Fin cfg0.N := ⟨(i 1).val / 1024, by rw [hN]; omega⟩
  obtain ⟨-, -, -, -, -, -, e0, e1⟩ := idx_batch t
  have et : t.val = (i 1).val / 1024 := rfl
  refine ⟨t, flush0_21 t, ?_⟩
  rw [mem_blk21]
  intro a
  match a with
  | ⟨0, _⟩ => show win0_21.index t (0 : Fin 2) * 257 ≤ (i 0).val ∧ (i 0).val < win0_21.index t (0 : Fin 2) * 257 + 257; omega
  | ⟨1, _⟩ => show win0_21.index t (1 : Fin 2) * 1024 ≤ (i 1).val ∧ (i 1).val < win0_21.index t (1 : Fin 2) * 1024 + 1024; omega

end Cert.KernelIdeal.Win

end
-- ==== Proof.KernelValue.lean ====
/-
  What the kernel program leaves in its result array.

  Grid point t takes columns 1024·t … 1024·t + 1023 of the three batch arrays and every weight array whole, and writes
  back one 257 × 1024 block of the result. Entry by entry that block is the stacked network run on the batch blocks
  (KernelPay.lean); the weight blocks hold the network's weights, stacked (Windows.lean), so the block is columns
  1024·t … of the network run on the whole batch (KernelNet.lean). The sixteen blocks tile the result array.
-/
import proofs.«149461_j42760694399258_2_alg».proof.Proof.FrameKernelIdeal
import proofs.«149461_j42760694399258_2_alg».proof.Proof.KernelPay
import proofs.«149461_j42760694399258_2_alg».proof.Proof.Windows

noncomputable section

open scoped BigOperators

namespace Cert.KernelIdeal.Val

open Cert.KernelIdeal Cert.KernelIdeal.Gen Cert.KernelIdeal.Frm Cert.GruNet Cert.GruNet.Ker
open Idealize.ShloMosaic Idealize.ShloMosaic.TcCoe Idealize.ShloMosaic.ValueIdx
open Idealize.SL Idealize.SL.Sem

theorem hz : (![0, 0] : Fin 2 → Nat) = fun _ => 0 := funext fun a => by fin_cases a <;> rfl

section Block
variable (x0 : Vec Ideal S257x1024 .f32) (x1 x2 : Vec Ideal S400x1024 .f32) (x3 : Vec Ideal S400x257 .bf16) (x4 : Vec Ideal S400x1 .f32)
  (x5 x6 : Vec Ideal S1200x400 .bf16) (x7 : Vec Ideal S800x1 .f32) (x8 x9 : Vec Ideal S400x1 .f32)
  (x10 x11 : Vec Ideal S1200x400 .bf16) (x12 : Vec Ideal S800x1 .f32) (x13 x14 : Vec Ideal S400x1 .f32)
  (x15 : Vec Ideal S600x400 .bf16) (x16 : Vec Ideal S600x1 .f32) (x17 : Vec Ideal S600x600 .bf16) (x18 : Vec Ideal S600x1 .f32)
  (x19 : Vec Ideal S257x600 .bf16) (x20 : Vec Ideal S257x1 .f32)
/-- The first cell's new state, from the gate arguments as the body forms them, is the stacked cell fed the first dense layer. -/
theorem state1_eq :
    newState x1 (k0_pay6 (F := Ideal) x0 x3 x4 x5) (k0_pay7 (F := Ideal) x0 x3 x4 x5) (k0_pay8 (F := Ideal) x1 x6) (k0_pay9 (F := Ideal) x1 x6) (k0_pay11 (F := Ideal) x0 x1 x3 x4 x5 x6 x7) (k0_pay2 (F := Ideal) x8) (k0_pay3 (F := Ideal) x9) (k0_pay10 (F := Ideal) x7)
      = cellK (M x5) (M x6) (Col x7) (Col x8) (Col x9) (dense (M x3) (Col x4) (M x0)) (M x1) := by
  funext j c
  unfold newState cellK zK nK rK
  rw [pay6_at, pay7_at, pay8_at, pay9_at, pay11_at, pay2_eq, pay3_eq]
  unfold Col
  rw [pay10_at]
  rfl

/-- The second cell's new state likewise, fed the first cell's. -/
theorem state2_eq :
    newState' x2 (k0_pay17 (F := Ideal) x1 (k0_pay2 (F := Ideal) x8) (k0_pay3 (F := Ideal) x9) (k0_pay6 (F := Ideal) x0 x3 x4 x5) (k0_pay7 (F := Ideal) x0 x3 x4 x5) (k0_pay8 (F := Ideal) x1 x6) (k0_pay9 (F := Ideal) x1 x6) (k0_pay10 (F := Ideal) x7) (k0_pay11 (F := Ideal) x0 x1 x3 x4 x5 x6 x7) x10) (k0_pay18 (F := Ideal) x2 x11)
        (k0_pay19 (F := Ideal) x1 x2 (k0_pay2 (F := Ideal) x8) (k0_pay3 (F := Ideal) x9) (k0_pay6 (F := Ideal) x0 x3 x4 x5) (k0_pay7 (F := Ideal) x0 x3 x4 x5) (k0_pay8 (F := Ideal) x1 x6) (k0_pay9 (F := Ideal) x1 x6) (k0_pay10 (F := Ideal) x7) (k0_pay11 (F := Ideal) x0 x1 x3 x4 x5 x6 x7) x10 x11 x12) (k0_pay20 (F := Ideal) x1 x2 (k0_pay2 (F := Ideal) x8) (k0_pay3 (F := Ideal) x9) (k0_pay6 (F := Ideal) x0 x3 x4 x5) (k0_pay7 (F := Ideal) x0 x3 x4 x5) (k0_pay8 (F := Ideal) x1 x6) (k0_pay9 (F := Ideal) x1 x6) (k0_pay10 (F := Ideal) x7) (k0_pay11 (F := Ideal) x0 x1 x3 x4 x5 x6 x7) x10 x11 x12)
        (k0_pay13 (F := Ideal) x13) (k0_pay14 (F := Ideal) x14)
      = cellK (M x10) (M x11) (Col x12) (Col x13) (Col x14)
          (cellK (M x5) (M x6) (Col x7) (Col x8) (Col x9) (dense (M x3) (Col x4) (M x0)) (M x1)) (M x2) := by
  funext j c
  unfold newState' cellK zK nK rK
  rw [pay17_at, pay18_at, pay19_at, pay20_at, pay13_eq, pay14_eq, state1_eq]
  rfl

/-- The body's output block, entry by entry: the stacked network run on the three batch blocks. -/
theorem out_at (p : Fin 257) (q : Fin 1024) :
    out0_21 (F := Ideal) x0 x1 x2 x3 x4 x5 x6 x7 x8 x9 x10 x11 x12 x13 x14 x15 x16 x17 x18 x19 x20 (ix2 p q) = netK (M x3) (Col x4) (M x5) (M x6) (Col x7) (Col x8) (Col x9) (M x10) (M x11) (Col x12) (Col x13) (Col x14) (M x15) (Col x16) (M x17) (Col x18) (M x19) (Col x20) (M x0) (M x1) (M x2) p q := by
  unfold out0_21
  rw [View.canon_unit_zero hz]
  simp only [View.ld_unit_zero (S := S257x1024) hz, View.ld_unit_zero (S := S400x1024) hz, View.ld_unit_zero (S := S400x257) hz,
    View.ld_unit_zero (S := S400x1) hz, View.ld_unit_zero (S := S1200x400) hz, View.ld_unit_zero (S := S800x1) hz,
    View.ld_unit_zero (S := S600x400) hz, View.ld_unit_zero (S := S600x1) hz, View.ld_unit_zero (S := S600x600) hz,
    View.ld_unit_zero (S := S257x600) hz, View.ld_unit_zero (S := S257x1) hz]
  rw [pay21_at, state2_eq]
  rfl

/-- One block of the result from facts about the blocks: if the weight blocks hold a network's weights (the cells' stacked)
    and the three batch blocks are the columns f selects of three whole batches, the body's output block is, at
    (p, q), the network's output on the whole batches at (p, f q). -/
theorem block_eq (P : NetP) (f : Fin 1024 → Fin 16384)
    (X' : Fin 257 → Fin 16384 → EReal) (H1' H2' : Fin 400 → Fin 16384 → EReal)
    (hX : ∀ k q, x0 (ix2 k q) = X' k (f q)) (hH1 : ∀ k q, x1 (ix2 k q) = H1' k (f q)) (hH2 : ∀ k q, x2 (ix2 k q) = H2' k (f q))
    (h3 : ∀ p j, x3 (ix2 p j) = P.Wfc1 p j) (h4 : ∀ p, x4 (ix2 p (0 : Fin 1)) = P.bfc1 p)
    (h5r : ∀ p j, x5 (ix2 (rowAt 0 1200 (by omega) p) j) = P.g1.Wir p j)
    (h5z : ∀ p j, x5 (ix2 (rowAt 400 1200 (by omega) p) j) = P.g1.Wiz p j)
    (h5n : ∀ p j, x5 (ix2 (rowAt 800 1200 (by omega) p) j) = P.g1.Win p j)
    (h6r : ∀ p j, x6 (ix2 (rowAt 0 1200 (by omega) p) j) = P.g1.Whr p j)
    (h6z : ∀ p j, x6 (ix2 (rowAt 400 1200 (by omega) p) j) = P.g1.Whz p j)
    (h6n : ∀ p j, x6 (ix2 (rowAt 800 1200 (by omega) p) j) = P.g1.Whn p j)
    (h7r : ∀ p, x7 (ix2 (rowAt 0 800 (by omega) p) (0 : Fin 1)) = P.g1.bir p + P.g1.bhr p)
    (h7z : ∀ p, x7 (ix2 (rowAt 400 800 (by omega) p) (0 : Fin 1)) = P.g1.biz p + P.g1.bhz p)
    (h8 : ∀ p, x8 (ix2 p (0 : Fin 1)) = P.g1.bin p) (h9 : ∀ p, x9 (ix2 p (0 : Fin 1)) = P.g1.bhn p)
    (h10r : ∀ p j, x10 (ix2 (rowAt 0 1200 (by omega) p) j) = P.g2.Wir p j)
    (h10z : ∀ p j, x10 (ix2 (rowAt 400 1200 (by omega) p) j) = P.g2.Wiz p j)
    (h10n : ∀ p j, x10 (ix2 (rowAt 800 1200 (by omega) p) j) = P.g2.Win p j)
    (h11r : ∀ p j, x11 (ix2 (rowAt 0 1200 (by omega) p) j) = P.g2.Whr p j)
    (h11z : ∀ p j, x11 (ix2 (rowAt 400 1200 (by omega) p) j) = P.g2.Whz p j)
    (h11n : ∀ p j, x11 (ix2 (rowAt 800 1200 (by omega) p) j) = P.g2.Whn p j)
    (h12r : ∀ p, x12 (ix2 (rowAt 0 800 (by omega) p) (0 : Fin 1)) = P.g2.bir p + P.g2.bhr p)
    (h12z : ∀ p, x12 (ix2 (rowAt 400 800 (by omega) p) (0 : Fin 1)) = P.g2.biz p + P.g2.bhz p)
    (h13 : ∀ p, x13 (ix2 p (0 : Fin 1)) = P.g2.bin p) (h14 : ∀ p, x14 (ix2 p (0 : Fin 1)) = P.g2.bhn p)
    (h15 : ∀ p j, x15 (ix2 p j) = P.Wfc2 p j) (h16 : ∀ p, x16 (ix2 p (0 : Fin 1)) = P.bfc2 p)
    (h17 : ∀ p j, x17 (ix2 p j) = P.Wfc3 p j) (h18 : ∀ p, x18 (ix2 p (0 : Fin 1)) = P.bfc3 p)
    (h19 : ∀ p j, x19 (ix2 p j) = P.Wfc4 p j) (h20 : ∀ p, x20 (ix2 p (0 : Fin 1)) = P.bfc4 p)
    (p : Fin 257) (q : Fin 1024) :
    out0_21 (F := Ideal) x0 x1 x2 x3 x4 x5 x6 x7 x8 x9 x10 x11 x12 x13 x14 x15 x16 x17 x18 x19 x20 (ix2 p q) = net P X' H1' H2' p (f q) :=
  (out_at x0 x1 x2 x3 x4 x5 x6 x7 x8 x9 x10 x11 x12 x13 x14 x15 x16 x17 x18 x19 x20 p q).trans
    (netK_eq_net' P f (M x3) (Col x4) (M x5) (M x6) (Col x7) (Col x8) (Col x9) (M x10) (M x11) (Col x12) (Col x13) (Col x14)
      (M x15) (Col x16) (M x17) (Col x18) (M x19) (Col x20) (M x0) (M x1) (M x2) X' H1' H2'
      h3 h4 ⟨h5r, h5z, h5n, h6r, h6z, h6n, h7r, h7z, h8, h9⟩ ⟨h10r, h10z, h10n, h11r, h11z, h11n, h12r, h12z, h13, h14⟩
      h15 h16 h17 h18 h19 h20 hX hH1 hH2 p q)

end Block

variable (m : (ℓ : Loc nD τ sig) → Buf (Elt Ideal) ℓ) (ρ : Dev nD → PrngReg)

/-- The network's weights, read off the launch contents of the thirty-two weight arguments on core c. -/
def weights (c : Dev nD) : NetP := params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34))

/-- The result array: the network run on the three batch arguments as launched. -/
def result (c : Dev nD) : S257x16384.Idx → EReal :=
  unM (net (weights m c) (M (m ((c : Thread nD τ).loc main_arg0))) (M (m ((c : Thread nD τ).loc main_arg1))) (M (m ((c : Thread nD τ).loc main_arg2))))

/-- Point t writes back block t of the result: columns 1024·t … of the network's output. -/
theorem flushed_eq (c : Dev nD) (t : Fin cfg0.N) :
    (dats m 0 c).flushed 21 t = ((cfg0.win 21).blk t).view.read (Elt Ideal) (result m c) := by
  have ht : t.val < 16 := by
    have h := t.isLt
    have hN : cfg0.N = 16 := N_0
    omega
  show (cfg0.win 21).cut (grid0.coords t) ((dats m 0 c).after 21 t) = _
  rw [after0_21]
  funext y
  obtain ⟨p, q, rfl⟩ : ∃ (p : Fin 257) (q : Fin 1024), y = ix2 p q := ⟨y 0, y 1, eq_ix2 y⟩
  refine Eq.trans ?_ (congrArg (result m c) (Win.emb21 m c t ht p q)).symm
  exact block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (weights m c) (colAt t.val ht)
    (M (m ((c : Thread nD τ).loc main_arg0))) (M (m ((c : Thread nD τ).loc main_arg1))) (M (m ((c : Thread nD τ).loc main_arg2)))
    (fun k q => Win.blk0 m c t ht k q) (fun k q => Win.blk1 m c t ht k q) (fun k q => Win.blk2 m c t ht k q)
    (fun p j => Win.w3 m c t p j) (fun p => Win.w4 m c t p)
    (fun p j => Win.w5r m c t p j) (fun p j => Win.w5z m c t p j) (fun p j => Win.w5n m c t p j)
    (fun p j => Win.w6r m c t p j) (fun p j => Win.w6z m c t p j) (fun p j => Win.w6n m c t p j)
    (fun p => Win.w7r m c t p) (fun p => Win.w7z m c t p) (fun p => Win.w8 m c t p) (fun p => Win.w9 m c t p)
    (fun p j => Win.w10r m c t p j) (fun p j => Win.w10z m c t p j) (fun p j => Win.w10n m c t p j)
    (fun p j => Win.w11r m c t p j) (fun p j => Win.w11z m c t p j) (fun p j => Win.w11n m c t p j)
    (fun p => Win.w12r m c t p) (fun p => Win.w12z m c t p) (fun p => Win.w13 m c t p) (fun p => Win.w14 m c t p)
    (fun p j => Win.w15 m c t p j) (fun p => Win.w16 m c t p)
    (fun p j => Win.w17 m c t p j) (fun p => Win.w18 m c t p)
    (fun p j => Win.w19 m c t p j) (fun p => Win.w20 m c t p) p q

/-- The sixteen blocks tile the result array, so after the run it holds the network's output. -/
theorem final (c : Dev nD) : (dats m 0 c).arrAt 21 cfg0.N = result m c :=
  (dats m 0 c).arrAt_eq_of_cover 21 (result m c) (fun t _ => flushed_eq m c t) (Win.cover21 m c)

/-- The kernel program's run, read: the result array holds the network's output and every argument array is as launched. -/
theorem run : θ_run defs (onTc (τ := τ) (main (F := Ideal))) ⟨m, fun _ => 0, ρ⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34) :=
  (θ_run defs _ _).mono (fun r h c => ⟨((h c).1 21).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c),
      ((h c).2 main_arg34 (Pipeline.mem_restRefs_of main_arg34 (by decide) (by decide))).trans (V_main_arg34 m c)⟩)
    (run_main m ρ)

end Cert.KernelIdeal.Val

end
-- ==== Proof.RefValue.lean ====
/-
  The reference program's result, read one entry at a time, is the network of Spec.lean run on the whole batch.

  The generated reading lemmas give each host operation at an index from its operands at an index: a matrix product
  as a sum over the inner position, a bias broadcast as the bias at the row, everything else entry by entry. Layer by
  layer these are the layers of the network: the products' operand indices are (row, inner) and (inner, column), a
  broadcast bias reads its row, and the jnp expansion of the logistic function, 1 / (1 + e^(-x)), is the quotient the
  specification spells.
-/
import proofs.«149461_j42760694399258_2_alg».proof.Proof.Gen.ReferenceIdeal.Read
import proofs.«149461_j42760694399258_2_alg».proof.Proof.Spec

noncomputable section

open scoped BigOperators

namespace Cert.GruNet.Ref

open Cert.ReferenceIdeal Cert.ReferenceIdeal.Read Cert.GruNet
open Idealize.ShloMosaic Idealize.ShloMosaic.ValueIdx

/-- Two rank-2 indices with the same two coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-- A sum over the inner position k of a left operand read at (p, k) times a right operand read at (k, b), the right
    operand's column b known as the function R, is the matrix product at (p, b). -/
theorem sum_mm {a k B : ℕ} (l : (⟨2, ![a, k]⟩ : Shape).Idx → EReal) (r : (⟨2, ![k, B]⟩ : Shape).Idx → EReal)
    (li : Fin k → (⟨2, ![a, k]⟩ : Shape).Idx) (ri : Fin k → (⟨2, ![k, B]⟩ : Shape).Idx) (p : Fin a) (b : Fin B)
    (R : Fin k → Fin B → EReal) (hl : ∀ j, li j = ix2 p j) (hr : ∀ j, ri j = ix2 j b) (hR : ∀ j, r (ix2 j b) = R j b) :
    ∑ j : Fin k, l (li j) * r (ri j) = mm (M l) R p b := by
  unfold mm M
  exact Finset.sum_congr rfl fun j _ => by rw [hl, hr, hR]

variable (x0 : (⟨S257x16384, .f32⟩ : BufTy).Contents (Elt Ideal)) (x1 x2 : (⟨S400x16384, .f32⟩ : BufTy).Contents (Elt Ideal)) (x3 : (⟨S400x257, .f32⟩ : BufTy).Contents (Elt Ideal)) (x4 : (⟨S400, .f32⟩ : BufTy).Contents (Elt Ideal)) (x5 x6 x7 x8 x9 x10 : (⟨S400x400, .f32⟩ : BufTy).Contents (Elt Ideal)) (x11 x12 x13 x14 x15 x16 : (⟨S400, .f32⟩ : BufTy).Contents (Elt Ideal)) (x17 x18 x19 x20 x21 x22 : (⟨S400x400, .f32⟩ : BufTy).Contents (Elt Ideal)) (x23 x24 x25 x26 x27 x28 : (⟨S400, .f32⟩ : BufTy).Contents (Elt Ideal)) (x29 : (⟨S600x400, .f32⟩ : BufTy).Contents (Elt Ideal)) (x30 : (⟨S600, .f32⟩ : BufTy).Contents (Elt Ideal)) (x31 : (⟨S600x600, .f32⟩ : BufTy).Contents (Elt Ideal)) (x32 : (⟨S600, .f32⟩ : BufTy).Contents (Elt Ideal)) (x33 : (⟨S257x600, .f32⟩ : BufTy).Contents (Elt Ideal)) (x34 : (⟨S257, .f32⟩ : BufTy).Contents (Elt Ideal))
include x0 x1 x2 x3 x4 x5 x6 x7 x8 x9 x10 x11 x12 x13 x14 x15 x16 x17 x18 x19 x20 x21 x22 x23 x24 x25 x26 x27 x28 x29 x30 x31 x32 x33 x34

/-- The first dense layer: W_fc1·x + b_fc1. -/
theorem at_l1 (p : Fin 400) (b : Fin 16384) :
    val_main_v3 (F := Ideal) x0 x3 x4 (ix2 p b) = l1 (params x3 x4 x5 x6 x7 x8 x9 x10 x11 x12 x13 x14 x15 x16 x17 x18 x19 x20 x21 x22 x23 x24 x25 x26 x27 x28 x29 x30 x31 x32 x33 x34) (M x0) p b := by
  have d_w : val_main_v0 (F := Ideal) x0 x3 (ix2 p b) = mm (M x3) (M x0) p b :=
    (val_main_v0_apply x0 x3 (ix2 p b)).trans (sum_mm x3 _ _ _ p b _ (fun j => by idx2) (fun j => by idx2) (fun j => rfl))
  have b_w : val_main_v2 (F := Ideal) x4 (ix2 p b) = Cv x4 p := by
    rw [val_main_v2_apply, val_main_v1_apply]; exact congrArg x4 (by idx1)
  simp only [val_main_v3_apply, d_w, b_w]
  rfl

/-- The first cell: its three gates from the first layer's result and the state h1, then the new state. -/
theorem at_l2 (p : Fin 400) (b : Fin 16384) :
    val_main_v49 (F := Ideal) x0 x1 x3 x4 x5 x6 x7 x8 x9 x10 x11 x12 x13 x14 x15 x16 (ix2 p b) = l2 (params x3 x4 x5 x6 x7 x8 x9 x10 x11 x12 x13 x14 x15 x16 x17 x18 x19 x20 x21 x22 x23 x24 x25 x26 x27 x28 x29 x30 x31 x32 x33 x34) (M x0) (M x1) p b := by
  have hin : ∀ j : Fin 400, val_main_v3 (F := Ideal) x0 x3 x4 (ix2 j b) = (l1 (params x3 x4 x5 x6 x7 x8 x9 x10 x11 x12 x13 x14 x15 x16 x17 x18 x19 x20 x21 x22 x23 x24 x25 x26 x27 x28 x29 x30 x31 x32 x33 x34) (M x0)) j b := fun j => at_l1 x0 x1 x2 x3 x4 x5 x6 x7 x8 x9 x10 x11 x12 x13 x14 x15 x16 x17 x18 x19 x20 x21 x22 x23 x24 x25 x26 x27 x28 x29 x30 x31 x32 x33 x34 j b
  have d_ri : val_main_v4 (F := Ideal) x0 x3 x4 x6 (ix2 p b) = mm (M x6) (l1 (params x3 x4 x5 x6 x7 x8 x9 x10 x11 x12 x13 x14 x15 x16 x17 x18 x19 x20 x21 x22 x23 x24 x25 x26 x27 x28 x29 x30 x31 x32 x33 x34) (M x0)) p b :=
    (val_main_v4_apply x0 x3 x4 x6 (ix2 p b)).trans (sum_mm x6 _ _ _ p b _ (fun j => by idx2) (fun j => by idx2) hin)
  have d_rh : val_main_v8 (F := Ideal) x1 x9 (ix2 p b) = mm (M x9) (M x1) p b :=
    (val_main_v8_apply x1 x9 (ix2 p b)).trans (sum_mm x9 _ _ _ p b _ (fun j => by idx2) (fun j => by idx2) (fun j => rfl))
  have d_zi : val_main_v19 (F := Ideal) x0 x3 x4 x5 (ix2 p b) = mm (M x5) (l1 (params x3 x4 x5 x6 x7 x8 x9 x10 x11 x12 x13 x14 x15 x16 x17 x18 x19 x20 x21 x22 x23 x24 x25 x26 x27 x28 x29 x30 x31 x32 x33 x34) (M x0)) p b :=
    (val_main_v19_apply x0 x3 x4 x5 (ix2 p b)).trans (sum_mm x5 _ _ _ p b _ (fun j => by idx2) (fun j => by idx2) hin)
  have d_zh : val_main_v23 (F := Ideal) x1 x8 (ix2 p b) = mm (M x8) (M x1) p b :=
    (val_main_v23_apply x1 x8 (ix2 p b)).trans (sum_mm x8 _ _ _ p b _ (fun j => by idx2) (fun j => by idx2) (fun j => rfl))
  have d_ni : val_main_v34 (F := Ideal) x0 x3 x4 x7 (ix2 p b) = mm (M x7) (l1 (params x3 x4 x5 x6 x7 x8 x9 x10 x11 x12 x13 x14 x15 x16 x17 x18 x19 x20 x21 x22 x23 x24 x25 x26 x27 x28 x29 x30 x31 x32 x33 x34) (M x0)) p b :=
    (val_main_v34_apply x0 x3 x4 x7 (ix2 p b)).trans (sum_mm x7 _ _ _ p b _ (fun j => by idx2) (fun j => by idx2) hin)
  have d_nh : val_main_v38 (F := Ideal) x1 x10 (ix2 p b) = mm (M x10) (M x1) p b :=
    (val_main_v38_apply x1 x10 (ix2 p b)).trans (sum_mm x10 _ _ _ p b _ (fun j => by idx2) (fun j => by idx2) (fun j => rfl))
  have b_ri : val_main_v6 (F := Ideal) x12 (ix2 p b) = Cv x12 p := by
    rw [val_main_v6_apply, val_main_v5_apply]; exact congrArg x12 (by idx1)
  have b_rh : val_main_v11 (F := Ideal) x15 (ix2 p b) = Cv x15 p := by
    rw [val_main_v11_apply, val_main_v10_apply]; exact congrArg x15 (by idx1)
  have b_zi : val_main_v21 (F := Ideal) x11 (ix2 p b) = Cv x11 p := by
    rw [val_main_v21_apply, val_main_v20_apply]; exact congrArg x11 (by idx1)
  have b_zh : val_main_v26 (F := Ideal) x14 (ix2 p b) = Cv x14 p := by
    rw [val_main_v26_apply, val_main_v25_apply]; exact congrArg x14 (by idx1)
  have b_ni : val_main_v36 (F := Ideal) x13 (ix2 p b) = Cv x13 p := by
    rw [val_main_v36_apply, val_main_v35_apply]; exact congrArg x13 (by idx1)
  have b_nh : val_main_v40 (F := Ideal) x16 (ix2 p b) = Cv x16 p := by
    rw [val_main_v40_apply, val_main_v39_apply]; exact congrArg x16 (by idx1)
  simp only [val_main_v49_apply, val_main_v48_apply, val_main_v47_apply, val_main_v46_apply, val_main_v45_apply, val_main_cst_3_apply, val_main_v44_apply, val_main_v43_apply, val_main_v42_apply, val_main_v41_apply, val_main_v37_apply, val_main_v33_apply, val_main_v32_apply, val_main_cst_2_apply, val_main_v31_apply, val_main_v30_apply, val_main_cst_1_apply, val_main_v29_apply, val_main_v28_apply, val_main_v27_apply, val_main_v24_apply, val_main_v22_apply, val_main_v18_apply, val_main_v17_apply, val_main_cst_0_apply, val_main_v16_apply, val_main_v15_apply, val_main_cst_apply, val_main_v14_apply, val_main_v13_apply, val_main_v12_apply, val_main_v9_apply, val_main_v7_apply,
    d_ri, d_rh, d_zi, d_zh, d_ni, d_nh, b_ri, b_rh, b_zi, b_zh, b_ni, b_nh]
  rfl

/-- The second cell, fed the first cell's new state and the state h2. -/
theorem at_l3 (p : Fin 400) (b : Fin 16384) :
    val_main_v95 (F := Ideal) x0 x1 x2 x3 x4 x5 x6 x7 x8 x9 x10 x11 x12 x13 x14 x15 x16 x17 x18 x19 x20 x21 x22 x23 x24 x25 x26 x27 x28 (ix2 p b) = l3 (params x3 x4 x5 x6 x7 x8 x9 x10 x11 x12 x13 x14 x15 x16 x17 x18 x19 x20 x21 x22 x23 x24 x25 x26 x27 x28 x29 x30 x31 x32 x33 x34) (M x0) (M x1) (M x2) p b := by
  have hin : ∀ j : Fin 400, val_main_v49 (F := Ideal) x0 x1 x3 x4 x5 x6 x7 x8 x9 x10 x11 x12 x13 x14 x15 x16 (ix2 j b) = (l2 (params x3 x4 x5 x6 x7 x8 x9 x10 x11 x12 x13 x14 x15 x16 x17 x18 x19 x20 x21 x22 x23 x24 x25 x26 x27 x28 x29 x30 x31 x32 x33 x34) (M x0) (M x1)) j b := fun j => at_l2 x0 x1 x2 x3 x4 x5 x6 x7 x8 x9 x10 x11 x12 x13 x14 x15 x16 x17 x18 x19 x20 x21 x22 x23 x24 x25 x26 x27 x28 x29 x30 x31 x32 x33 x34 j b
  have d_ri : val_main_v50 (F := Ideal) x0 x1 x3 x4 x5 x6 x7 x8 x9 x10 x11 x12 x13 x14 x15 x16 x18 (ix2 p b) = mm (M x18) (l2 (params x3 x4 x5 x6 x7 x8 x9 x10 x11 x12 x13 x14 x15 x16 x17 x18 x19 x20 x21 x22 x23 x24 x25 x26 x27 x28 x29 x30 x31 x32 x33 x34) (M x0) (M x1)) p b :=
    (val_main_v50_apply x0 x1 x3 x4 x5 x6 x7 x8 x9 x10 x11 x12 x13 x14 x15 x16 x18 (ix2 p b)).trans (sum_mm x18 _ _ _ p b _ (fun j => by idx2) (fun j => by idx2) hin)
  have d_rh : val_main_v54 (F := Ideal) x2 x21 (ix2 p b) = mm (M x21) (M x2) p b :=
    (val_main_v54_apply x2 x21 (ix2 p b)).trans (sum_mm x21 _ _ _ p b _ (fun j => by idx2) (fun j => by idx2) (fun j => rfl))
  have d_zi : val_main_v65 (F := Ideal) x0 x1 x3 x4 x5 x6 x7 x8 x9 x10 x11 x12 x13 x14 x15 x16 x17 (ix2 p b) = mm (M x17) (l2 (params x3 x4 x5 x6 x7 x8 x9 x10 x11 x12 x13 x14 x15 x16 x17 x18 x19 x20 x21 x22 x23 x24 x25 x26 x27 x28 x29 x30 x31 x32 x33 x34) (M x0) (M x1)) p b :=
    (val_main_v65_apply x0 x1 x3 x4 x5 x6 x7 x8 x9 x10 x11 x12 x13 x14 x15 x16 x17 (ix2 p b)).trans (sum_mm x17 _ _ _ p b _ (fun j => by idx2) (fun j => by idx2) hin)
  have d_zh : val_main_v69 (F := Ideal) x2 x20 (ix2 p b) = mm (M x20) (M x2) p b :=
    (val_main_v69_apply x2 x20 (ix2 p b)).trans (sum_mm x20 _ _ _ p b _ (fun j => by idx2) (fun j => by idx2) (fun j => rfl))
  have d_ni : val_main_v80 (F := Ideal) x0 x1 x3 x4 x5 x6 x7 x8 x9 x10 x11 x12 x13 x14 x15 x16 x19 (ix2 p b) = mm (M x19) (l2 (params x3 x4 x5 x6 x7 x8 x9 x10 x11 x12 x13 x14 x15 x16 x17 x18 x19 x20 x21 x22 x23 x24 x25 x26 x27 x28 x29 x30 x31 x32 x33 x34) (M x0) (M x1)) p b :=
    (val_main_v80_apply x0 x1 x3 x4 x5 x6 x7 x8 x9 x10 x11 x12 x13 x14 x15 x16 x19 (ix2 p b)).trans (sum_mm x19 _ _ _ p b _ (fun j => by idx2) (fun j => by idx2) hin)
  have d_nh : val_main_v84 (F := Ideal) x2 x22 (ix2 p b) = mm (M x22) (M x2) p b :=
    (val_main_v84_apply x2 x22 (ix2 p b)).trans (sum_mm x22 _ _ _ p b _ (fun j => by idx2) (fun j => by idx2) (fun j => rfl))
  have b_ri : val_main_v52 (F := Ideal) x24 (ix2 p b) = Cv x24 p := by
    rw [val_main_v52_apply, val_main_v51_apply]; exact congrArg x24 (by idx1)
  have b_rh : val_main_v57 (F := Ideal) x27 (ix2 p b) = Cv x27 p := by
    rw [val_main_v57_apply, val_main_v56_apply]; exact congrArg x27 (by idx1)
  have b_zi : val_main_v67 (F := Ideal) x23 (ix2 p b) = Cv x23 p := by
    rw [val_main_v67_apply, val_main_v66_apply]; exact congrArg x23 (by idx1)
  have b_zh : val_main_v72 (F := Ideal) x26 (ix2 p b) = Cv x26 p := by
    rw [val_main_v72_apply, val_main_v71_apply]; exact congrArg x26 (by idx1)
  have b_ni : val_main_v82 (F := Ideal) x25 (ix2 p b) = Cv x25 p := by
    rw [val_main_v82_apply, val_main_v81_apply]; exact congrArg x25 (by idx1)
  have b_nh : val_main_v86 (F := Ideal) x28 (ix2 p b) = Cv x28 p := by
    rw [val_main_v86_apply, val_main_v85_apply]; exact congrArg x28 (by idx1)
  simp only [val_main_v95_apply, val_main_v94_apply, val_main_v93_apply, val_main_v92_apply, val_main_v91_apply, val_main_cst_8_apply, val_main_v90_apply, val_main_v89_apply, val_main_v88_apply, val_main_v87_apply, val_main_v83_apply, val_main_v79_apply, val_main_v78_apply, val_main_cst_7_apply, val_main_v77_apply, val_main_v76_apply, val_main_cst_6_apply, val_main_v75_apply, val_main_v74_apply, val_main_v73_apply, val_main_v70_apply, val_main_v68_apply, val_main_v64_apply, val_main_v63_apply, val_main_cst_5_apply, val_main_v62_apply, val_main_v61_apply, val_main_cst_4_apply, val_main_v60_apply, val_main_v59_apply, val_main_v58_apply, val_main_v55_apply, val_main_v53_apply,
    d_ri, d_rh, d_zi, d_zh, d_ni, d_nh, b_ri, b_rh, b_zi, b_zh, b_ni, b_nh]
  rfl

/-- The second dense layer under the ramp. -/
theorem at_l4 (p : Fin 600) (b : Fin 16384) :
    val_main_v100 (F := Ideal) x0 x1 x2 x3 x4 x5 x6 x7 x8 x9 x10 x11 x12 x13 x14 x15 x16 x17 x18 x19 x20 x21 x22 x23 x24 x25 x26 x27 x28 x29 x30 (ix2 p b) = l4 (params x3 x4 x5 x6 x7 x8 x9 x10 x11 x12 x13 x14 x15 x16 x17 x18 x19 x20 x21 x22 x23 x24 x25 x26 x27 x28 x29 x30 x31 x32 x33 x34) (M x0) (M x1) (M x2) p b := by
  have hin : ∀ j : Fin 400, val_main_v95 (F := Ideal) x0 x1 x2 x3 x4 x5 x6 x7 x8 x9 x10 x11 x12 x13 x14 x15 x16 x17 x18 x19 x20 x21 x22 x23 x24 x25 x26 x27 x28 (ix2 j b) = (l3 (params x3 x4 x5 x6 x7 x8 x9 x10 x11 x12 x13 x14 x15 x16 x17 x18 x19 x20 x21 x22 x23 x24 x25 x26 x27 x28 x29 x30 x31 x32 x33 x34) (M x0) (M x1) (M x2)) j b := fun j => at_l3 x0 x1 x2 x3 x4 x5 x6 x7 x8 x9 x10 x11 x12 x13 x14 x15 x16 x17 x18 x19 x20 x21 x22 x23 x24 x25 x26 x27 x28 x29 x30 x31 x32 x33 x34 j b
  have d_w : val_main_v96 (F := Ideal) x0 x1 x2 x3 x4 x5 x6 x7 x8 x9 x10 x11 x12 x13 x14 x15 x16 x17 x18 x19 x20 x21 x22 x23 x24 x25 x26 x27 x28 x29 (ix2 p b) = mm (M x29) (l3 (params x3 x4 x5 x6 x7 x8 x9 x10 x11 x12 x13 x14 x15 x16 x17 x18 x19 x20 x21 x22 x23 x24 x25 x26 x27 x28 x29 x30 x31 x32 x33 x34) (M x0) (M x1) (M x2)) p b :=
    (val_main_v96_apply x0 x1 x2 x3 x4 x5 x6 x7 x8 x9 x10 x11 x12 x13 x14 x15 x16 x17 x18 x19 x20 x21 x22 x23 x24 x25 x26 x27 x28 x29 (ix2 p b)).trans (sum_mm x29 _ _ _ p b _ (fun j => by idx2) (fun j => by idx2) hin)
  have b_w : val_main_v98 (F := Ideal) x30 (ix2 p b) = Cv x30 p := by
    rw [val_main_v98_apply, val_main_v97_apply]; exact congrArg x30 (by idx1)
  simp only [val_main_v100_apply, val_main_call0_v0_apply, val_main_call0_cst_apply, val_main_v99_apply, d_w, b_w]
  rfl

/-- The third dense layer under the ramp. -/
theorem at_l5 (p : Fin 600) (b : Fin 16384) :
    val_main_v105 (F := Ideal) x0 x1 x2 x3 x4 x5 x6 x7 x8 x9 x10 x11 x12 x13 x14 x15 x16 x17 x18 x19 x20 x21 x22 x23 x24 x25 x26 x27 x28 x29 x30 x31 x32 (ix2 p b) = l5 (params x3 x4 x5 x6 x7 x8 x9 x10 x11 x12 x13 x14 x15 x16 x17 x18 x19 x20 x21 x22 x23 x24 x25 x26 x27 x28 x29 x30 x31 x32 x33 x34) (M x0) (M x1) (M x2) p b := by
  have hin : ∀ j : Fin 600, val_main_v100 (F := Ideal) x0 x1 x2 x3 x4 x5 x6 x7 x8 x9 x10 x11 x12 x13 x14 x15 x16 x17 x18 x19 x20 x21 x22 x23 x24 x25 x26 x27 x28 x29 x30 (ix2 j b) = (l4 (params x3 x4 x5 x6 x7 x8 x9 x10 x11 x12 x13 x14 x15 x16 x17 x18 x19 x20 x21 x22 x23 x24 x25 x26 x27 x28 x29 x30 x31 x32 x33 x34) (M x0) (M x1) (M x2)) j b := fun j => at_l4 x0 x1 x2 x3 x4 x5 x6 x7 x8 x9 x10 x11 x12 x13 x14 x15 x16 x17 x18 x19 x20 x21 x22 x23 x24 x25 x26 x27 x28 x29 x30 x31 x32 x33 x34 j b
  have d_w : val_main_v101 (F := Ideal) x0 x1 x2 x3 x4 x5 x6 x7 x8 x9 x10 x11 x12 x13 x14 x15 x16 x17 x18 x19 x20 x21 x22 x23 x24 x25 x26 x27 x28 x29 x30 x31 (ix2 p b) = mm (M x31) (l4 (params x3 x4 x5 x6 x7 x8 x9 x10 x11 x12 x13 x14 x15 x16 x17 x18 x19 x20 x21 x22 x23 x24 x25 x26 x27 x28 x29 x30 x31 x32 x33 x34) (M x0) (M x1) (M x2)) p b :=
    (val_main_v101_apply x0 x1 x2 x3 x4 x5 x6 x7 x8 x9 x10 x11 x12 x13 x14 x15 x16 x17 x18 x19 x20 x21 x22 x23 x24 x25 x26 x27 x28 x29 x30 x31 (ix2 p b)).trans (sum_mm x31 _ _ _ p b _ (fun j => by idx2) (fun j => by idx2) hin)
  have b_w : val_main_v103 (F := Ideal) x32 (ix2 p b) = Cv x32 p := by
    rw [val_main_v103_apply, val_main_v102_apply]; exact congrArg x32 (by idx1)
  simp only [val_main_v105_apply, val_main_call1_v0_apply, val_main_call1_cst_apply, val_main_v104_apply, d_w, b_w]
  rfl

/-- The last dense layer under the logistic function: the network's output at (p, b). -/
theorem at_net (p : Fin 257) (b : Fin 16384) :
    val_main_v115 (F := Ideal) x0 x1 x2 x3 x4 x5 x6 x7 x8 x9 x10 x11 x12 x13 x14 x15 x16 x17 x18 x19 x20 x21 x22 x23 x24 x25 x26 x27 x28 x29 x30 x31 x32 x33 x34 (ix2 p b) = net (params x3 x4 x5 x6 x7 x8 x9 x10 x11 x12 x13 x14 x15 x16 x17 x18 x19 x20 x21 x22 x23 x24 x25 x26 x27 x28 x29 x30 x31 x32 x33 x34) (M x0) (M x1) (M x2) p b := by
  have hin : ∀ j : Fin 600, val_main_v105 (F := Ideal) x0 x1 x2 x3 x4 x5 x6 x7 x8 x9 x10 x11 x12 x13 x14 x15 x16 x17 x18 x19 x20 x21 x22 x23 x24 x25 x26 x27 x28 x29 x30 x31 x32 (ix2 j b) = (l5 (params x3 x4 x5 x6 x7 x8 x9 x10 x11 x12 x13 x14 x15 x16 x17 x18 x19 x20 x21 x22 x23 x24 x25 x26 x27 x28 x29 x30 x31 x32 x33 x34) (M x0) (M x1) (M x2)) j b := fun j => at_l5 x0 x1 x2 x3 x4 x5 x6 x7 x8 x9 x10 x11 x12 x13 x14 x15 x16 x17 x18 x19 x20 x21 x22 x23 x24 x25 x26 x27 x28 x29 x30 x31 x32 x33 x34 j b
  have d_w : val_main_v106 (F := Ideal) x0 x1 x2 x3 x4 x5 x6 x7 x8 x9 x10 x11 x12 x13 x14 x15 x16 x17 x18 x19 x20 x21 x22 x23 x24 x25 x26 x27 x28 x29 x30 x31 x32 x33 (ix2 p b) = mm (M x33) (l5 (params x3 x4 x5 x6 x7 x8 x9 x10 x11 x12 x13 x14 x15 x16 x17 x18 x19 x20 x21 x22 x23 x24 x25 x26 x27 x28 x29 x30 x31 x32 x33 x34) (M x0) (M x1) (M x2)) p b :=
    (val_main_v106_apply x0 x1 x2 x3 x4 x5 x6 x7 x8 x9 x10 x11 x12 x13 x14 x15 x16 x17 x18 x19 x20 x21 x22 x23 x24 x25 x26 x27 x28 x29 x30 x31 x32 x33 (ix2 p b)).trans (sum_mm x33 _ _ _ p b _ (fun j => by idx2) (fun j => by idx2) hin)
  have b_w : val_main_v108 (F := Ideal) x34 (ix2 p b) = Cv x34 p := by
    rw [val_main_v108_apply, val_main_v107_apply]; exact congrArg x34 (by idx1)
  simp only [val_main_v115_apply, val_main_v114_apply, val_main_cst_10_apply, val_main_v113_apply, val_main_v112_apply, val_main_cst_9_apply, val_main_v111_apply, val_main_v110_apply, val_main_v109_apply, d_w, b_w]
  rfl

/-- The reference's result array is the network's output on the whole batch, as one array. -/
theorem result_eq :
    val_main_v115 (F := Ideal) x0 x1 x2 x3 x4 x5 x6 x7 x8 x9 x10 x11 x12 x13 x14 x15 x16 x17 x18 x19 x20 x21 x22 x23 x24 x25 x26 x27 x28 x29 x30 x31 x32 x33 x34 = unM (net (params x3 x4 x5 x6 x7 x8 x9 x10 x11 x12 x13 x14 x15 x16 x17 x18 x19 x20 x21 x22 x23 x24 x25 x26 x27 x28 x29 x30 x31 x32 x33 x34) (M x0) (M x1) (M x2)) := by
  funext i
  obtain ⟨p, b, rfl⟩ : ∃ (p : Fin 257) (b : Fin 16384), i = ix2 p b := ⟨i 0, i 1, eq_ix2 i⟩
  exact at_net x0 x1 x2 x3 x4 x5 x6 x7 x8 x9 x10 x11 x12 x13 x14 x15 x16 x17 x18 x19 x20 x21 x22 x23 x24 x25 x26 x27 x28 x29 x30 x31 x32 x33 x34 p b

end Cert.GruNet.Ref

end
-- ==== Proof.lean ====
/-
  Both programs compute one network, so they agree.

  The kernel program runs a two-cell GRU network, one block of 1024 batch columns per grid point, on weights its host
  side has stacked and partly added up beforehand; the reference runs the same network on the whole batch, one host
  operation at a time. At the extended reals each is the network of Proof/Spec.lean on the argument arrays
  (Proof/KernelValue.lean; Proof/RefValue.lean), so their results are equal entry by entry. Neither program writes an
  argument array, the kernel's three runs end (Proof/FrameKernel.lean, Proof/FrameKernelIdeal.lean), and the ideal
  pass rewrote nothing.
-/
import proofs.«149461_j42760694399258_2_alg».proof.Defs
import proofs.«149461_j42760694399258_2_alg».proof.Proof.Gen.Kernel
import proofs.«149461_j42760694399258_2_alg».proof.Proof.Gen.KernelIdeal
import proofs.«149461_j42760694399258_2_alg».proof.Proof.Gen.ReferenceIdeal
import proofs.«149461_j42760694399258_2_alg».proof.Proof.Gen.Pre_finite_inputs
import proofs.«149461_j42760694399258_2_alg».proof.Proof.Gen.ReferenceIdeal.Run
import proofs.«149461_j42760694399258_2_alg».proof.Proof.Gen.ReferenceIdeal.Read
import proofs.«149461_j42760694399258_2_alg».proof.Proof.FrameKernel
import proofs.«149461_j42760694399258_2_alg».proof.Proof.FrameKernelIdeal
import proofs.«149461_j42760694399258_2_alg».proof.Proof.KernelValue
import proofs.«149461_j42760694399258_2_alg».proof.Proof.RefValue
import Idealize.ShloMosaic.Adequacy
import Idealize.ShloMosaic.Init

noncomputable section

namespace Cert.Proof

open Idealize.ShloMosaic Idealize.SL.Sem

/-- The kernel program, read at the word level, runs to the end and leaves its arguments as launched. -/
theorem frame_k : Cert.frame_Kernel (hKernel := Cert.Kernel.Gen.facts) (hPre_finite_inputs := Cert.Pre_finite_inputs.Gen.facts) :=
  fun m ρ _ => Cert.Kernel.Frm.frame m ρ

/-- The same program read at the extended reals. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference is host operations only: its run ends with every argument as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both runs end with the network's output on those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v115_eq, Cert.GruNet.Ref.result_eq]
  obtain ⟨e0, e1, e2, e3, e4, e5, e6, e7, e8, e9, e10, e11, e12, e13, e14, e15, e16, e17, e18, e19, e20, e21, e22, e23, e24, e25, e26, e27, e28, e29, e30, e31, e32, e33, e34⟩ := hagree c
  rw [e0, e1, e2, e3, e4, e5, e6, e7, e8, e9, e10, e11, e12, e13, e14, e15, e16, e17, e18, e19, e20, e21, e22, e23, e24, e25, e26, e27, e28, e29, e30, e31, e32, e33, e34]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
